-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S64x16 : Shape := ⟨2, ![64, 16]⟩
abbrev S16x10 : Shape := ⟨2, ![16, 10]⟩
abbrev S10 : Shape := ⟨1, ![10]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x16 : S_.BroadcastsInDim S256x16 (![] : Fin 0 → Fin S256x16.rank)
  reducesTo_S256x16_S_d0_1 : S256x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16x10 : S_.BroadcastsInDim S16x10 (![] : Fin 0 → Fin S16x10.rank)
  reducesTo_S16x10_S_d0_1 : S16x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg12 : FVec F S16x10 .f32) (main_arg13 : FVec F S10 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S16x10 .f32 := Host.absf main_arg12
  let main_cst_20 : FVec F S_ .f32 := constant S_ .f32 0x7F800000#32
  let main_v55 : FVec F S16x10 .f32 := broadcastInDim S16x10 ![] bcast_S_S16x10 main_cst_20
  let main_v56 : IVec S16x10 1 := cmpf .olt main_v54 main_v55
  let main_c_21 : IVec S_ 1 := constantI S_ 1 1#1
  let main_v57 : IVec S_ 1 := (fun x v => Host.reduce IntOp.andi x v reducesTo_S16x10_S_d0_1 h_S_) main_v56 main_c_21
  let main_v58 : IVec S_ 1 := andi main_v53 main_v57
  let main_v59 : FVec F S10 .f32 := Host.absf main_arg13
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg8 : FVec F S16x64 .f32) (main_arg9 : FVec F S64 .f32) (main_arg10 : FVec F S64x16 .f32) (main_arg11 : FVec F S16 .f32) (main_arg12 : FVec F S16x10 .f32) (main_arg13 : FVec F S10 .f32) (main_v33 : IVec S_ 1) : IVec S_ 1 :=
  let main_v34 : FVec F S16x64 .f32 := Host.absf main_arg8
  let main_cst_12 : FVec F S_ .f32 := constant S_ .f32 0x7F800000#32
  let main_v35 : FVec F S16x64 .f32 := broadcastInDim S16x64 ![] bcast_S_S16x64 main_cst_12
  let main_v36 : IVec S16x64 1 := cmpf .olt main_v34 main_v35
  let main_c_13 : IVec S_ 1 := constantI S_ 1 1#1
  let main_v37 : IVec S_ 1 := (fun x v => Host.reduce IntOp.andi x v reducesTo_S16x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x16 .f32 := Host.absf main_arg10
  let main_cst_16 : FVec F S_ .f32 := constant S_ .f32 0x7F800000#32
  let main_v45 : FVec F S64x16 .f32 := broadcastInDim S64x16 ![] bcast_S_S64x16 main_cst_16
  let main_v46 : IVec S64x16 1 := cmpf .olt main_v44 main_v45
  let main_c_17 : IVec S_ 1 := constantI S_ 1 1#1
  let main_v47 : IVec S_ 1 := (fun x v => Host.reduce IntOp.andi x v reducesTo_S64x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_v48 main_v49 main_v50

def fn_part1 {F : FTy → Type} [FloatOps F] (main_arg5 : FVec F S16 .f32) (main_arg6 : FVec F S16x16 .f32) (main_arg7 : FVec F S16 .f32) (main_arg8 : FVec F S16x64 .f32) (main_arg9 : FVec F S64 .f32) (main_arg10 : FVec F S64x16 .f32) (main_arg11 : FVec F S16 .f32) (main_arg12 : FVec F S16x10 .f32) (main_arg13 : FVec F S10 .f32) (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x16 .f32 := Host.absf main_arg6
  let main_cst_8 : FVec F S_ .f32 := constant S_ .f32 0x7F800000#32
  let main_v25 : FVec F S16x16 .f32 := broadcastInDim S16x16 ![] bcast_S_S16x16 main_cst_8
  let main_v26 : IVec S16x16 1 := cmpf .olt main_v24 main_v25
  let main_c_9 : IVec S_ 1 := constantI S_ 1 1#1
  let main_v27 : IVec S_ 1 := (fun x v => Host.reduce IntOp.andi x v reducesTo_S16x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x256 .f32) (main_arg1 : IVec S2x3200000 32) (main_arg2 : FVec F S256x16 .f32) (main_arg3 : FVec F S16 .f32) (main_arg4 : FVec F S16x16 .f32) (main_arg5 : FVec F S16 .f32) (main_arg6 : FVec F S16x16 .f32) (main_arg7 : FVec F S16 .f32) (main_arg8 : FVec F S16x64 .f32) (main_arg9 : FVec F S64 .f32) (main_arg10 : FVec F S64x16 .f32) (main_arg11 : FVec F S16 .f32) (main_arg12 : FVec F S16x10 .f32) (main_arg13 : FVec F S10 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x16 .f32 := Host.absf main_arg2
  let main_cst_0 : FVec F S_ .f32 := constant S_ .f32 0x7F800000#32
  let main_v5 : FVec F S256x16 .f32 := broadcastInDim S256x16 ![] bcast_S_S256x16 main_cst_0
  let main_v6 : IVec S256x16 1 := cmpf .olt main_v4 main_v5
  let main_c_1 : IVec S_ 1 := constantI S_ 1 1#1
  let main_v7 : IVec S_ 1 := (fun x v => Host.reduce IntOp.andi x v reducesTo_S256x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x16 .f32 := Host.absf main_arg4
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_arg5 main_arg6 main_arg7 main_arg8 main_arg9 main_arg10 main_arg11 main_arg12 main_arg13 main_v13 main_v16
-- ==== Kernel.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S64x16 : Shape := ⟨2, ![64, 16]⟩
abbrev S16x10 : Shape := ⟨2, ![16, 10]⟩
abbrev S10 : Shape := ⟨1, ![10]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x256 : Shape := ⟨2, ![5000, 256]⟩
abbrev S5000x16 : Shape := ⟨2, ![5000, 16]⟩
abbrev S3300000x16 : Shape := ⟨2, ![3300000, 16]⟩
abbrev S1x16 : Shape := ⟨2, ![1, 16]⟩
abbrev S1x64 : Shape := ⟨2, ![1, 64]⟩
abbrev S1x10 : Shape := ⟨2, ![1, 10]⟩
abbrev S100000x10 : Shape := ⟨2, ![100000, 10]⟩
abbrev S5000x10 : Shape := ⟨2, ![5000, 10]⟩
abbrev S5000x64 : Shape := ⟨2, ![5000, 64]⟩
abbrev S5000 : Shape := ⟨1, ![5000]⟩
abbrev S5000x1 : Shape := ⟨2, ![5000, 1]⟩

abbrev nBuf : Space → Nat
  | .hbm => 112
  | .vmem => 28
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S256x16, .f32⟩
  | .hbm, ⟨3, _⟩ => ⟨S16, .f32⟩
  | .hbm, ⟨4, _⟩ => ⟨S16x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x64, .f32⟩
  | .hbm, ⟨9, _⟩ => ⟨S64, .f32⟩
  | .hbm, ⟨10, _⟩ => ⟨S64x16, .f32⟩
  | .hbm, ⟨11, _⟩ => ⟨S16, .f32⟩
  | .hbm, ⟨12, _⟩ => ⟨S16x10, .f32⟩
  | .hbm, ⟨13, _⟩ => ⟨S10, .f32⟩
  | .hbm, ⟨14, _⟩ => ⟨S100000, .i32⟩
  | .hbm, ⟨15, _⟩ => ⟨S1x3200000, .i32⟩
  | .hbm, ⟨16, _⟩ => ⟨S3200000, .i32⟩
  | .hbm, ⟨17, _⟩ => ⟨S3300000, .i32⟩
  | .hbm, ⟨18, _⟩ => ⟨S1x3200000, .i32⟩
  | .hbm, ⟨19, _⟩ => ⟨S3200000, .i32⟩
  | .hbm, ⟨20, _⟩ => ⟨S3300000, .i32⟩
  | .hbm, ⟨21, _⟩ => ⟨S_, .f32⟩
  | .hbm, ⟨22, _⟩ => ⟨S3300000, .f32⟩
  | .hbm, ⟨23, _⟩ => ⟨S_, .f32⟩
  | .hbm, ⟨24, _⟩ => ⟨S100000, .f32⟩
  | .hbm, ⟨25, _⟩ => ⟨S3300000x1, .i32⟩
  | .hbm, ⟨26, _⟩ => ⟨S100000, .f32⟩
  | .hbm, ⟨27, _⟩ => ⟨S_, .f32⟩
  | .hbm, ⟨28, _⟩ => ⟨S100000, .f32⟩
  | .hbm, ⟨29, _⟩ => ⟨S100000, .i1⟩
  | .hbm, ⟨30, _⟩ => ⟨S100000, .f32⟩
  | .hbm, ⟨31, _⟩ => ⟨S_, .f32⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S_, .i32⟩
  | .hbm, ⟨36, _⟩ => ⟨S3300000, .i32⟩
  | .hbm, ⟨37, _⟩ => ⟨S3300000, .i1⟩
  | .hbm, ⟨38, _⟩ => ⟨S_, .i32⟩
  | .hbm, ⟨39, _⟩ => ⟨S3300000, .i32⟩
  | .hbm, ⟨40, _⟩ => ⟨S3300000, .i32⟩
  | .hbm, ⟨41, _⟩ => ⟨S3300000, .i32⟩
  | .hbm, ⟨42, _⟩ => ⟨S3300000x1, .i32⟩
  | .hbm, ⟨43, _⟩ => ⟨S3300000, .f32⟩
  | .hbm, ⟨44, _⟩ => ⟨S_, .i32⟩
  | .hbm, ⟨45, _⟩ => ⟨S3300000, .i32⟩
  | .hbm, ⟨46, _⟩ => ⟨S3300000, .i1⟩
  | .hbm, ⟨47, _⟩ => ⟨S_, .i32⟩
  | .hbm, ⟨48, _⟩ => ⟨S3300000, .i32⟩
  | .hbm, ⟨49, _⟩ => ⟨S3300000, .i32⟩
  | .hbm, ⟨50, _⟩ => ⟨S3300000, .i32⟩
  | .hbm, ⟨51, _⟩ => ⟨S3300000x1, .i32⟩
  | .hbm, ⟨52, _⟩ => ⟨S3300000, .f32⟩
  | .hbm, ⟨53, _⟩ => ⟨S3300000, .f32⟩
  | .hbm, ⟨54, _⟩ => ⟨S100000x16, .f32⟩
  | .hbm, ⟨55, _⟩ => ⟨S_, .i32⟩
  | .hbm, ⟨56, _⟩ => ⟨S3300000, .i32⟩
  | .hbm, ⟨57, _⟩ => ⟨S3300000, .i1⟩
  | .hbm, ⟨58, _⟩ => ⟨S_, .i32⟩
  | .hbm, ⟨59, _⟩ => ⟨S3300000, .i32⟩
  | .hbm, ⟨60, _⟩ => ⟨S3300000, .i32⟩
  | .hbm, ⟨61, _⟩ => ⟨S3300000, .i32⟩
  | .hbm, ⟨62, _⟩ => ⟨S3300000x1, .i32⟩
  | .hbm, ⟨63, _⟩ => ⟨S3300000x16, .f32⟩
  | .hbm, ⟨64, _⟩ => ⟨S3300000x1, .f32⟩
  | .hbm, ⟨65, _⟩ => ⟨S3300000x16, .f32⟩
  | .hbm, ⟨66, _⟩ => ⟨S3300000x16, .f32⟩
  | .hbm, ⟨67, _⟩ => ⟨S_, .f32⟩
  | .hbm, ⟨68, _⟩ => ⟨S100000x16, .f32⟩
  | .hbm, ⟨69, _⟩ => ⟨S3300000x1, .i32⟩
  | .hbm, ⟨70, _⟩ => ⟨S100000x16, .f32⟩
  | .hbm, ⟨71, _⟩ => ⟨S1x16, .f32⟩
  | .hbm, ⟨72, _⟩ => ⟨S100000x16, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x16, .f32⟩
  | .hbm, ⟨82, _⟩ => ⟨S3300000x1, .f32⟩
  | .hbm, ⟨83, _⟩ => ⟨S3300000x16, .f32⟩
  | .hbm, ⟨84, _⟩ => ⟨S3300000x16, .f32⟩
  | .hbm, ⟨85, _⟩ => ⟨S_, .f32⟩
  | .hbm, ⟨86, _⟩ => ⟨S100000x16, .f32⟩
  | .hbm, ⟨87, _⟩ => ⟨S3300000x1, .i32⟩
  | .hbm, ⟨88, _⟩ => ⟨S100000x16, .f32⟩
  | .hbm, ⟨89, _⟩ => ⟨S1x16, .f32⟩
  | .hbm, ⟨90, _⟩ => ⟨S100000x16, .f32⟩
  | .hbm, ⟨91, _⟩ => ⟨S_, .i32⟩
  | .hbm, ⟨92, _⟩ => ⟨S3300000, .i32⟩
  | .hbm, ⟨93, _⟩ => ⟨S3300000, .i1⟩
  | .hbm, ⟨94, _⟩ => ⟨S_, .i32⟩
  | .hbm, ⟨95, _⟩ => ⟨S3300000, .i32⟩
  | .hbm, ⟨96, _⟩ => ⟨S3300000, .i32⟩
  | .hbm, ⟨97, _⟩ => ⟨S3300000, .i32⟩
  | .hbm, ⟨98, _⟩ => ⟨S3300000x1, .i32⟩
  | .hbm, ⟨99, _⟩ => ⟨S3300000x16, .f32⟩
  | .hbm, ⟨100, _⟩ => ⟨S3300000x1, .f32⟩
  | .hbm, ⟨101, _⟩ => ⟨S3300000x16, .f32⟩
  | .hbm, ⟨102, _⟩ => ⟨S3300000x16, .f32⟩
  | .hbm, ⟨103, _⟩ => ⟨S_, .f32⟩
  | .hbm, ⟨104, _⟩ => ⟨S100000x16, .f32⟩
  | .hbm, ⟨105, _⟩ => ⟨S3300000x1, .i32⟩
  | .hbm, ⟨106, _⟩ => ⟨S100000x16, .f32⟩
  | .hbm, ⟨107, _⟩ => ⟨S1x16, .f32⟩
  | .hbm, ⟨108, _⟩ => ⟨S1x64, .f32⟩
  | .hbm, ⟨109, _⟩ => ⟨S1x16, .f32⟩
  | .hbm, ⟨110, _⟩ => ⟨S1x10, .f32⟩
  | .hbm, ⟨111, _⟩ => ⟨S100000x10, .f32⟩
  | .local _ .vmem, ⟨0, _⟩ => ⟨S5000x256, .f32⟩
  | .local _ .vmem, ⟨1, _⟩ => ⟨S5000x256, .f32⟩
  | .local _ .vmem, ⟨2, _⟩ => ⟨S256x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x16, .f32⟩
  | .local _ .vmem, ⟨9, _⟩ => ⟨S5000x16, .f32⟩
  | .local _ .vmem, ⟨10, _⟩ => ⟨S5000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S16x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S5000x16, .f32⟩
  | .local _ .vmem, ⟨19, _⟩ => ⟨S1x16, .f32⟩
  | .local _ .vmem, ⟨20, _⟩ => ⟨S16x64, .f32⟩
  | .local _ .vmem, ⟨21, _⟩ => ⟨S1x64, .f32⟩
  | .local _ .vmem, ⟨22, _⟩ => ⟨S64x16, .f32⟩
  | .local _ .vmem, ⟨23, _⟩ => ⟨S1x16, .f32⟩
  | .local _ .vmem, ⟨24, _⟩ => ⟨S16x10, .f32⟩
  | .local _ .vmem, ⟨25, _⟩ => ⟨S1x10, .f32⟩
  | .local _ .vmem, ⟨26, _⟩ => ⟨S5000x10, .f32⟩
  | .local _ .vmem, ⟨27, _⟩ => ⟨S5000x10, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v14 : Ref sig .tc := ⟨.hbm, 34, rfl⟩
abbrev main_c : Ref sig .tc := ⟨.hbm, 35, rfl⟩
abbrev main_v15 : Ref sig .tc := ⟨.hbm, 36, rfl⟩
abbrev main_v16 : Ref sig .tc := ⟨.hbm, 37, rfl⟩
abbrev main_c_3 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_c_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_6 : Ref sig .tc := ⟨.hbm, 55, rfl⟩
abbrev main_v31 : Ref sig .tc := ⟨.hbm, 56, rfl⟩
abbrev main_v32 : Ref sig .tc := ⟨.hbm, 57, rfl⟩
abbrev main_c_7 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_c_9 : Ref sig .tc := ⟨.hbm, 73, rfl⟩
abbrev main_v46 : Ref sig .tc := ⟨.hbm, 74, rfl⟩
abbrev main_v47 : Ref sig .tc := ⟨.hbm, 75, rfl⟩
abbrev main_c_10 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_11 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_12 : Ref sig .tc := ⟨.hbm, 91, rfl⟩
abbrev main_v61 : Ref sig .tc := ⟨.hbm, 92, rfl⟩
abbrev main_v62 : Ref sig .tc := ⟨.hbm, 93, rfl⟩
abbrev main_c_13 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_cst_14 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg3_0 : Ref sig .tc := ⟨.vmem, 21, rfl⟩
abbrev cc3_stg4_0 : Ref sig .tc := ⟨.vmem, 22, rfl⟩
abbrev cc3_stg5_0 : Ref sig .tc := ⟨.vmem, 23, rfl⟩
abbrev cc3_stg6_0 : Ref sig .tc := ⟨.vmem, 24, rfl⟩
abbrev cc3_stg7_0 : Ref sig .tc := ⟨.vmem, 25, rfl⟩
abbrev cc3_stg8_0 : Ref sig .tc := ⟨.vmem, 26, rfl⟩
abbrev cc3_stg8_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem3_0 : DmaSem sig := 21
abbrev cc3_sem4_0 : DmaSem sig := 22
abbrev cc3_sem5_0 : DmaSem sig := 23
abbrev cc3_sem6_0 : DmaSem sig := 24
abbrev cc3_sem7_0 : DmaSem sig := 25
abbrev cc3_sem8_0 : DmaSem sig := 26
abbrev cc3_sem8_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x16 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S16x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x16 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x16 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S16x10 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x10 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S5000x10 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x16_S256x16_0_0 : ∀ a, (![0, 0] : Fin 2 → Nat) a + S256x16.size a ≤ S256x16.size a
  h_S256x16 : 0 < S256x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x16_S16x16_0_0 : ∀ a, (![0, 0] : Fin 2 → Nat) a + S16x16.size a ≤ S16x16.size a
  h_S16x16 : 0 < S16x16.numel
  shapeCasts_S64_S1x64 : S64.ShapeCasts S1x64
  shapeCasts_S10_S1x10 : S10.ShapeCasts S1x10
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x16_S64x16_0_0 : ∀ a, (![0, 0] : Fin 2 → Nat) a + S64x16.size a ≤ S64x16.size a
  h_S64x16 : 0 < S64x16.numel
  inb_S16x10_S16x10_0_0 : ∀ a, (![0, 0] : Fin 2 → Nat) a + S16x10.size a ≤ S16x10.size a
  h_S16x10 : 0 < S16x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  reduces_S5000x10_S5000 : S5000x10.Reduces [1] S5000
  shapeCasts_S5000_S5000x1 : S5000.ShapeCasts S5000x1
  broadcasts_S5000x1_S5000x10 : S5000x1.Broadcasts S5000x10
  inb_S5000x10_S5000x10_0_0 : ∀ a, (![0, 0] : Fin 2 → Nat) a + S5000x10.size a ≤ S5000x10.size a
  h_S5000x10 : 0 < S5000x10.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x256_S256x16_S5000x16_1_0_0_1_n_n_wf : DotDims.WF S5000x256 S256x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x16_S5000x16_1_0_0_1_n_n_wf : DotDims.WF S5000x16 S16x16 S5000x16 [1] [0] [0] [1] [] []
  dot_S5000x16_S16x64_S5000x64_1_0_0_1_n_n_wf : DotDims.WF S5000x16 S16x64 S5000x64 [1] [0] [0] [1] [] []
  dot_S5000x64_S64x16_S5000x16_1_0_0_1_n_n_wf : DotDims.WF S5000x64 S64x16 S5000x16 [1] [0] [0] [1] [] []
  dot_S5000x16_S16x10_S5000x10_1_0_0_1_n_n_wf : DotDims.WF S5000x16 S16x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x16.size a ≤ S256x16.size a
  hwx0_1 : ∀ i : grid0.Coords, EltTy.bits .f32 = 32 ∨ (Rect.block (s := S256x16) S256x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x16.size a ≤ S16x16.size a
  hwx1_2 : ∀ i : grid1.Coords, EltTy.bits .f32 = 32 ∨ (Rect.block (s := S16x16) S16x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x16.size a ≤ S100000x16.size a
  hwx1_3 : ∀ i : grid1.Coords, EltTy.bits .f32 = 32 ∨ (Rect.block (s := S100000x16) S5000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x16.size a ≤ S16x16.size a
  hwx2_2 : ∀ i : grid2.Coords, EltTy.bits .f32 = 32 ∨ (Rect.block (s := S16x16) S16x16.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x16.size a ≤ S100000x16.size a
  hwx2_3 : ∀ i : grid2.Coords, EltTy.bits .f32 = 32 ∨ (Rect.block (s := S100000x16) S5000x16.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x16.size a ≤ S1x16.size a
  hwx3_1 : ∀ i : grid3.Coords, EltTy.bits .f32 = 32 ∨ (Rect.block (s := S1x16) S1x16.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S16x64.size a ≤ S16x64.size a
  hwx3_2 : ∀ i : grid3.Coords, EltTy.bits .f32 = 32 ∨ (Rect.block (s := S16x64) S16x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x16.size a ≤ S64x16.size a
  hwx3_4 : ∀ i : grid3.Coords, EltTy.bits .f32 = 32 ∨ (Rect.block (s := S64x16) S64x16.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x16.size a ≤ S1x16.size a
  hwx3_5 : ∀ i : grid3.Coords, EltTy.bits .f32 = 32 ∨ (Rect.block (s := S1x16) S1x16.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S16x10.size a ≤ S16x10.size a
  hwx3_6 : ∀ i : grid3.Coords, EltTy.bits .f32 = 32 ∨ (Rect.block (s := S16x10) S16x10.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x10.size a ≤ S1x10.size a
  hwx3_7 : ∀ i : grid3.Coords, EltTy.bits .f32 = 32 ∨ (Rect.block (s := S1x10) S1x10.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S5000x10.size a ≤ S100000x10.size a
  hwx3_8 : ∀ i : grid3.Coords, EltTy.bits .f32 = 32 ∨ (Rect.block (s := S100000x10) S5000x10.size (cc3_transform_8 i) (hinb3_8 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x256_S256x16_S5000x16_1_0_0_1_n_n : DotDims S5000x256 S256x16 S5000x16 where
  lhsContracting := [1]
  rhsContracting := [0]
  lhsNonContracting := [0]
  rhsNonContracting := [1]
  lhsBatch := []
  rhsBatch := []
  wf := dot_S5000x256_S256x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x16_S5000x16_1_0_0_1_n_n : DotDims S5000x16 S16x16 S5000x16 where
  lhsContracting := [1]
  rhsContracting := [0]
  lhsNonContracting := [0]
  rhsNonContracting := [1]
  lhsBatch := []
  rhsBatch := []
  wf := dot_S5000x16_S16x16_S5000x16_1_0_0_1_n_n_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x16_S16x10_S5000x10_1_0_0_1_n_n : DotDims S5000x16 S16x10 S5000x10 where
  lhsContracting := [1]
  rhsContracting := [0]
  lhsNonContracting := [0]
  rhsNonContracting := [1]
  lhsBatch := []
  rhsBatch := []
  wf := dot_S5000x16_S16x10_S5000x10_1_0_0_1_n_n_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S16x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x16.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x16.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S16x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg10) S64x16.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v76) S1x16.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg12) S16x10.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v77) S1x10.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v78) S5000x10.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S256x16 : Shape := ⟨2, ![256, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S64x16 : Shape := ⟨2, ![64, 16]⟩
abbrev S16x10 : Shape := ⟨2, ![16, 10]⟩
abbrev S10 : Shape := ⟨1, ![10]⟩
abbrev S100000x16 : Shape := ⟨2, ![100000, 16]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x16 : Shape := ⟨2, ![3300000, 16]⟩
abbrev S1x16 : Shape := ⟨2, ![1, 16]⟩
abbrev S100000x64 : Shape := ⟨2, ![100000, 64]⟩
abbrev S1x64 : Shape := ⟨2, ![1, 64]⟩
abbrev S100000x10 : Shape := ⟨2, ![100000, 10]⟩
abbrev S1x10 : Shape := ⟨2, ![1, 10]⟩
abbrev S100000x1 : Shape := ⟨2, ![100000, 1]⟩

abbrev nBuf : Space → Nat
  | .hbm => 243
  | .vmem => 0
  | .smem => 0
  | _ => 0

abbrev hbmTy0_0 (i : Nat) : BufTy := match i % 128 with
  | 0 => ⟨S100000x256, .f32⟩
  | 1 => ⟨S2x3200000, .i32⟩
  | 2 => ⟨S256x16, .f32⟩
  | 3 => ⟨S16, .f32⟩
  | 4 => ⟨S16x16, .f32⟩
  | 5 => ⟨S16, .f32⟩
  | 6 => ⟨S16x16, .f32⟩
  | 7 => ⟨S16, .f32⟩
  | 8 => ⟨S16x64, .f32⟩
  | 9 => ⟨S64, .f32⟩
  | 10 => ⟨S64x16, .f32⟩
  | 11 => ⟨S16, .f32⟩
  | 12 => ⟨S16x10, .f32⟩
  | 13 => ⟨S10, .f32⟩
  | 14 => ⟨S100000x16, .f32⟩
  | 15 => ⟨S100000, .i32⟩
  | 16 => ⟨S1x3200000, .i32⟩
  | 17 => ⟨S3200000, .i32⟩
  | 18 => ⟨S3300000, .i32⟩
  | 19 => ⟨S1x3200000, .i32⟩
  | 20 => ⟨S3200000, .i32⟩
  | 21 => ⟨S3300000, .i32⟩
  | 22 => ⟨S_, .f32⟩
  | 23 => ⟨S3300000, .f32⟩
  | 24 => ⟨S_, .f32⟩
  | 25 => ⟨S100000, .f32⟩
  | 26 => ⟨S3300000x1, .i32⟩
  | 27 => ⟨S100000, .f32⟩
  | 28 => ⟨S_, .f32⟩
  | 29 => ⟨S100000, .f32⟩
  | 30 => ⟨S100000, .i1⟩
  | 31 => ⟨S100000, .f32⟩
  | 32 => ⟨S_, .f32⟩
  | 33 => ⟨S_, .f32⟩
  | 34 => ⟨S100000, .f32⟩
  | 35 => ⟨S100000, .f32⟩
  | 36 => ⟨S_, .i32⟩
  | 37 => ⟨S3300000, .i32⟩
  | 38 => ⟨S3300000, .i1⟩
  | 39 => ⟨S_, .i32⟩
  | 40 => ⟨S3300000, .i32⟩
  | 41 => ⟨S3300000, .i32⟩
  | 42 => ⟨S3300000, .i32⟩
  | 43 => ⟨S3300000x1, .i32⟩
  | 44 => ⟨S3300000, .f32⟩
  | 45 => ⟨S_, .i32⟩
  | 46 => ⟨S3300000, .i32⟩
  | 47 => ⟨S3300000, .i1⟩
  | 48 => ⟨S_, .i32⟩
  | 49 => ⟨S3300000, .i32⟩
  | 50 => ⟨S3300000, .i32⟩
  | 51 => ⟨S3300000, .i32⟩
  | 52 => ⟨S3300000x1, .i32⟩
  | 53 => ⟨S3300000, .f32⟩
  | 54 => ⟨S3300000, .f32⟩
  | 55 => ⟨S3300000x1, .f32⟩
  | 56 => ⟨S_, .i32⟩
  | 57 => ⟨S3300000, .i32⟩
  | 58 => ⟨S3300000, .i1⟩
  | 59 => ⟨S_, .i32⟩
  | 60 => ⟨S3300000, .i32⟩
  | 61 => ⟨S3300000, .i32⟩
  | 62 => ⟨S3300000, .i32⟩
  | 63 => ⟨S3300000x1, .i32⟩
  | 64 => ⟨S3300000x16, .f32⟩
  | 65 => ⟨S3300000x16, .f32⟩
  | 66 => ⟨S3300000x16, .f32⟩
  | 67 => ⟨S_, .f32⟩
  | 68 => ⟨S100000x16, .f32⟩
  | 69 => ⟨S3300000x1, .i32⟩
  | 70 => ⟨S100000x16, .f32⟩
  | 71 => ⟨S1x16, .f32⟩
  | 72 => ⟨S100000x16, .f32⟩
  | 73 => ⟨S100000x16, .f32⟩
  | 74 => ⟨S_, .f32⟩
  | 75 => ⟨S100000x16, .f32⟩
  | 76 => ⟨S100000x16, .f32⟩
  | 77 => ⟨S100000x16, .f32⟩
  | 78 => ⟨S100000, .i32⟩
  | 79 => ⟨S1x3200000, .i32⟩
  | 80 => ⟨S3200000, .i32⟩
  | 81 => ⟨S3300000, .i32⟩
  | 82 => ⟨S1x3200000, .i32⟩
  | 83 => ⟨S3200000, .i32⟩
  | 84 => ⟨S3300000, .i32⟩
  | 85 => ⟨S_, .f32⟩
  | 86 => ⟨S3300000, .f32⟩
  | 87 => ⟨S_, .f32⟩
  | 88 => ⟨S100000, .f32⟩
  | 89 => ⟨S3300000x1, .i32⟩
  | 90 => ⟨S100000, .f32⟩
  | 91 => ⟨S_, .f32⟩
  | 92 => ⟨S100000, .f32⟩
  | 93 => ⟨S100000, .i1⟩
  | 94 => ⟨S100000, .f32⟩
  | 95 => ⟨S_, .f32⟩
  | 96 => ⟨S_, .f32⟩
  | 97 => ⟨S100000, .f32⟩
  | 98 => ⟨S100000, .f32⟩
  | 99 => ⟨S_, .i32⟩
  | 100 => ⟨S3300000, .i32⟩
  | 101 => ⟨S3300000, .i1⟩
  | 102 => ⟨S_, .i32⟩
  | 103 => ⟨S3300000, .i32⟩
  | 104 => ⟨S3300000, .i32⟩
  | 105 => ⟨S3300000, .i32⟩
  | 106 => ⟨S3300000x1, .i32⟩
  | 107 => ⟨S3300000, .f32⟩
  | 108 => ⟨S_, .i32⟩
  | 109 => ⟨S3300000, .i32⟩
  | 110 => ⟨S3300000, .i1⟩
  | 111 => ⟨S_, .i32⟩
  | 112 => ⟨S3300000, .i32⟩
  | 113 => ⟨S3300000, .i32⟩
  | 114 => ⟨S3300000, .i32⟩
  | 115 => ⟨S3300000x1, .i32⟩
  | 116 => ⟨S3300000, .f32⟩
  | 117 => ⟨S3300000, .f32⟩
  | 118 => ⟨S3300000x1, .f32⟩
  | 119 => ⟨S_, .i32⟩
  | 120 => ⟨S3300000, .i32⟩
  | 121 => ⟨S3300000, .i1⟩
  | 122 => ⟨S_, .i32⟩
  | 123 => ⟨S3300000, .i32⟩
  | 124 => ⟨S3300000, .i32⟩
  | 125 => ⟨S3300000, .i32⟩
  | 126 => ⟨S3300000x1, .i32⟩
  | 127 => ⟨S3300000x16, .f32⟩
  | _ => ⟨S100000x256, .f32⟩

abbrev hbmTy0_1 (i : Nat) : BufTy := match i % 128 with
  | 0 => ⟨S3300000x16, .f32⟩
  | 1 => ⟨S3300000x16, .f32⟩
  | 2 => ⟨S_, .f32⟩
  | 3 => ⟨S100000x16, .f32⟩
  | 4 => ⟨S3300000x1, .i32⟩
  | 5 => ⟨S100000x16, .f32⟩
  | 6 => ⟨S1x16, .f32⟩
  | 7 => ⟨S100000x16, .f32⟩
  | 8 => ⟨S100000x16, .f32⟩
  | 9 => ⟨S_, .f32⟩
  | 10 => ⟨S100000x16, .f32⟩
  | 11 => ⟨S100000x16, .f32⟩
  | 12 => ⟨S100000x16, .f32⟩
  | 13 => ⟨S100000, .i32⟩
  | 14 => ⟨S1x3200000, .i32⟩
  | 15 => ⟨S3200000, .i32⟩
  | 16 => ⟨S3300000, .i32⟩
  | 17 => ⟨S1x3200000, .i32⟩
  | 18 => ⟨S3200000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S3300000x1, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x16, .f32⟩
  | 63 => ⟨S3300000x16, .f32⟩
  | 64 => ⟨S3300000x16, .f32⟩
  | 65 => ⟨S_, .f32⟩
  | 66 => ⟨S100000x16, .f32⟩
  | 67 => ⟨S3300000x1, .i32⟩
  | 68 => ⟨S100000x16, .f32⟩
  | 69 => ⟨S1x16, .f32⟩
  | 70 => ⟨S100000x16, .f32⟩
  | 71 => ⟨S100000x16, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S_, .f32⟩
  | 78 => ⟨S100000x64, .f32⟩
  | 79 => ⟨S100000x64, .i1⟩
  | 80 => ⟨S_, .f32⟩
  | 81 => ⟨S100000x64, .f32⟩
  | 82 => ⟨S100000x64, .f32⟩
  | 83 => ⟨S100000x64, .f32⟩
  | 84 => ⟨S100000x16, .f32⟩
  | 85 => ⟨S1x16, .f32⟩
  | 86 => ⟨S100000x16, .f32⟩
  | 87 => ⟨S100000x16, .f32⟩
  | 88 => ⟨S_, .f32⟩
  | 89 => ⟨S_, .f32⟩
  | 90 => ⟨S100000x16, .f32⟩
  | 91 => ⟨S100000x16, .i1⟩
  | 92 => ⟨S_, .f32⟩
  | 93 => ⟨S100000x16, .f32⟩
  | 94 => ⟨S100000x16, .f32⟩
  | 95 => ⟨S100000x16, .f32⟩
  | 96 => ⟨S100000x10, .f32⟩
  | 97 => ⟨S1x10, .f32⟩
  | 98 => ⟨S100000x10, .f32⟩
  | 99 => ⟨S100000x10, .f32⟩
  | 100 => ⟨S_, .f32⟩
  | 101 => ⟨S100000, .f32⟩
  | 102 => ⟨S_, .f32⟩
  | 103 => ⟨S100000, .f32⟩
  | 104 => ⟨S100000, .f32⟩
  | 105 => ⟨S100000x1, .f32⟩
  | 106 => ⟨S100000x10, .f32⟩
  | 107 => ⟨S100000x10, .f32⟩
  | 108 => ⟨S100000x10, .f32⟩
  | 109 => ⟨S_, .f32⟩
  | 110 => ⟨S100000, .f32⟩
  | 111 => ⟨S100000x1, .f32⟩
  | 112 => ⟨S100000x1, .f32⟩
  | 113 => ⟨S100000x10, .f32⟩
  | 114 => ⟨S100000x10, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst : Ref sig .tc := ⟨.hbm, 22, rfl⟩
abbrev main_v8 : Ref sig .tc := ⟨.hbm, 23, rfl⟩
abbrev main_cst_0 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_4 : Ref sig .tc := ⟨.hbm, 45, rfl⟩
abbrev main_v23 : Ref sig .tc := ⟨.hbm, 46, rfl⟩
abbrev main_v24 : Ref sig .tc := ⟨.hbm, 47, rfl⟩
abbrev main_c_5 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_6 : Ref sig .tc := ⟨.hbm, 56, rfl⟩
abbrev main_v32 : Ref sig .tc := ⟨.hbm, 57, rfl⟩
abbrev main_v33 : Ref sig .tc := ⟨.hbm, 58, rfl⟩
abbrev main_c_7 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_call1_cst : Ref sig .tc := ⟨.hbm, 74, rfl⟩
abbrev main_call1_v0 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_9 : Ref sig .tc := ⟨.hbm, 85, rfl⟩
abbrev main_v56 : Ref sig .tc := ⟨.hbm, 86, rfl⟩
abbrev main_cst_10 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_11 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_12 : Ref sig .tc := ⟨.hbm, 95, rfl⟩
abbrev main_call2_v0 : Ref sig .tc := ⟨.hbm, 96, rfl⟩
abbrev main_call2_v1 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_c_14 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_c_15 : Ref sig .tc := ⟨.hbm, 108, rfl⟩
abbrev main_v71 : Ref sig .tc := ⟨.hbm, 109, rfl⟩
abbrev main_v72 : Ref sig .tc := ⟨.hbm, 110, rfl⟩
abbrev main_c_16 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_c_17 : Ref sig .tc := ⟨.hbm, 119, rfl⟩
abbrev main_v80 : Ref sig .tc := ⟨.hbm, 120, rfl⟩
abbrev main_v81 : Ref sig .tc := ⟨.hbm, 121, rfl⟩
abbrev main_c_18 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_cst_19 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_call3_cst : Ref sig .tc := ⟨.hbm, 137, rfl⟩
abbrev main_call3_v0 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_20 : Ref sig .tc := ⟨.hbm, 148, rfl⟩
abbrev main_v104 : Ref sig .tc := ⟨.hbm, 149, rfl⟩
abbrev main_cst_21 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_cst_22 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_cst_23 : Ref sig .tc := ⟨.hbm, 158, rfl⟩
abbrev main_call4_v0 : Ref sig .tc := ⟨.hbm, 159, rfl⟩
abbrev main_call4_v1 : Ref sig .tc := ⟨.hbm, 160, rfl⟩
abbrev main_v111 : Ref sig .tc := ⟨.hbm, 161, rfl⟩
abbrev main_c_24 : Ref sig .tc := ⟨.hbm, 162, rfl⟩
abbrev main_v112 : Ref sig .tc := ⟨.hbm, 163, rfl⟩
abbrev main_v113 : Ref sig .tc := ⟨.hbm, 164, rfl⟩
abbrev main_c_25 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_c_26 : Ref sig .tc := ⟨.hbm, 171, rfl⟩
abbrev main_v119 : Ref sig .tc := ⟨.hbm, 172, rfl⟩
abbrev main_v120 : Ref sig .tc := ⟨.hbm, 173, rfl⟩
abbrev main_c_27 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_c_28 : Ref sig .tc := ⟨.hbm, 182, rfl⟩
abbrev main_v128 : Ref sig .tc := ⟨.hbm, 183, rfl⟩
abbrev main_v129 : Ref sig .tc := ⟨.hbm, 184, rfl⟩
abbrev main_c_29 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_cst_30 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩
abbrev main_cst_31 : Ref sig .tc := ⟨.hbm, 204, rfl⟩
abbrev main_call5_cst : Ref sig .tc := ⟨.hbm, 205, rfl⟩
abbrev main_call5_v0 : Ref sig .tc := ⟨.hbm, 206, rfl⟩
abbrev main_call5_v1 : Ref sig .tc := ⟨.hbm, 207, rfl⟩
abbrev main_call5_v2 : Ref sig .tc := ⟨.hbm, 208, rfl⟩
abbrev main_call5_v3 : Ref sig .tc := ⟨.hbm, 209, rfl⟩
abbrev main_call5_v4 : Ref sig .tc := ⟨.hbm, 210, rfl⟩
abbrev main_v147 : Ref sig .tc := ⟨.hbm, 211, rfl⟩
abbrev main_v148 : Ref sig .tc := ⟨.hbm, 212, rfl⟩
abbrev main_v149 : Ref sig .tc := ⟨.hbm, 213, rfl⟩
abbrev main_v150 : Ref sig .tc := ⟨.hbm, 214, rfl⟩
abbrev main_v151 : Ref sig .tc := ⟨.hbm, 215, rfl⟩
abbrev main_cst_32 : Ref sig .tc := ⟨.hbm, 216, rfl⟩
abbrev main_call6_cst : Ref sig .tc := ⟨.hbm, 217, rfl⟩
abbrev main_call6_v0 : Ref sig .tc := ⟨.hbm, 218, rfl⟩
abbrev main_call6_v1 : Ref sig .tc := ⟨.hbm, 219, rfl⟩
abbrev main_call6_v2 : Ref sig .tc := ⟨.hbm, 220, rfl⟩
abbrev main_call6_v3 : Ref sig .tc := ⟨.hbm, 221, rfl⟩
abbrev main_call6_v4 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_call7_cst : Ref sig .tc := ⟨.hbm, 228, rfl⟩
abbrev main_call7_v0 : Ref sig .tc := ⟨.hbm, 229, rfl⟩
abbrev main_call7_cst_0 : Ref sig .tc := ⟨.hbm, 230, rfl⟩
abbrev main_call7_v1 : Ref sig .tc := ⟨.hbm, 231, rfl⟩
abbrev main_call7_v2 : Ref sig .tc := ⟨.hbm, 232, rfl⟩
abbrev main_call7_v3 : Ref sig .tc := ⟨.hbm, 233, rfl⟩
abbrev main_call7_v4 : Ref sig .tc := ⟨.hbm, 234, rfl⟩
abbrev main_call7_v5 : Ref sig .tc := ⟨.hbm, 235, rfl⟩
abbrev main_call7_v6 : Ref sig .tc := ⟨.hbm, 236, rfl⟩
abbrev main_call7_cst_1 : Ref sig .tc := ⟨.hbm, 237, rfl⟩
abbrev main_call7_v7 : Ref sig .tc := ⟨.hbm, 238, rfl⟩
abbrev main_call7_v8 : Ref sig .tc := ⟨.hbm, 239, rfl⟩
abbrev main_call7_v9 : Ref sig .tc := ⟨.hbm, 240, rfl⟩
abbrev main_call7_v10 : Ref sig .tc := ⟨.hbm, 241, rfl⟩
abbrev main_v157 : Ref sig .tc := ⟨.hbm, 242, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S10_S1x10_1 : S10.BroadcastsInDim S1x10 (![1] : Fin 1 → Fin S1x10.rank)
  bcast_S1x10_S100000x10_0_1 : S1x10.BroadcastsInDim S100000x10 (![0, 1] : Fin 2 → Fin S100000x10.rank)
  reducesTo_S100000x10_S100000_d1 : S100000x10.ReducesTo [1] S100000
  h_S_ : 0 < S_.numel
  bcast_S100000_S100000x1_0 : S100000.BroadcastsInDim S100000x1 (![0] : Fin 1 → Fin S100000x1.rank)
  bcast_S100000x1_S100000x10_0_1 : S100000x1.BroadcastsInDim S100000x10 (![0, 1] : Fin 2 → Fin S100000x10.rank)
  dot_S100000x256_S256x16_S100000x16_1_0_0_1_n_n_wf : DotDims.WF S100000x256 S256x16 S100000x16 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x16_S100000x16_1_0_0_1_n_n_wf : DotDims.WF S100000x16 S16x16 S100000x16 [1] [0] [0] [1] [] []
  dot_S100000x16_S16x64_S100000x64_1_0_0_1_n_n_wf : DotDims.WF S100000x16 S16x64 S100000x64 [1] [0] [0] [1] [] []
  dot_S100000x64_S64x16_S100000x16_1_0_0_1_n_n_wf : DotDims.WF S100000x64 S64x16 S100000x16 [1] [0] [0] [1] [] []
  dot_S100000x16_S16x10_S100000x10_1_0_0_1_n_n_wf : DotDims.WF S100000x16 S16x10 S100000x10 [1] [0] [0] [1] [] []

variable [Facts₀]

def dot_S100000x256_S256x16_S100000x16_1_0_0_1_n_n : DotDims S100000x256 S256x16 S100000x16 where
  lhsContracting := [1]
  rhsContracting := [0]
  lhsNonContracting := [0]
  rhsNonContracting := [1]
  lhsBatch := []
  rhsBatch := []
  wf := dot_S100000x256_S256x16_S100000x16_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def dot_S100000x16_S16x10_S100000x10_1_0_0_1_n_n : DotDims S100000x16 S16x10 S100000x10 where
  lhsContracting := [1]
  rhsContracting := [0]
  lhsNonContracting := [0]
  rhsNonContracting := [1]
  lhsBatch := []
  rhsBatch := []
  wf := dot_S100000x16_S16x10_S100000x10_1_0_0_1_n_n_wf

class Facts : Prop extends Facts₀ where

variable [Facts]
-- ==== Proof.Spec.lean ====
/-
  The two programs' shared vocabulary, at the extended reals: a three-layer graph convolution over N = 100000 nodes
  (E = 3200000 edges plus one self loop per node), then a three-layer perceptron and a row-wise log-softmax.

  Per layer: project every node's features by a weight matrix, then AGGREGATE: for every edge (s → d), add
  norm(e) · h[s] into row d, where norm(e) = dinv[s] · dinv[d] and dinv[v] = deg(v)^(-1/2) when deg(v) > 0 and 0 otherwise,
  deg(v) the number of edges (self loops included) that end at v.  The aggregation is the same chain of host
  operations in both programs (a gather of rows, a product with the broadcast norm, a scatter-add) except for the
  ORDER of the two factors of that product; `aggL` and `aggR` name the two orders and `aggL_eq_aggR` joins them.
  The dense steps are named here as the reference spells them (`lin`, `hidden`, `head`); that the kernel's
  row blocks compute the same functions is proved elsewhere.
-/
import proofs.«139937_j4234837753913_1_alg».proof.ReferenceIdeal
import Idealize.ShloMosaic.PureOps.Ideal

noncomputable section

namespace Cert.Gcn

open Idealize.ShloMosaic Cert.ReferenceIdeal Cert.ReferenceIdeal.Facts₀

-- the side conditions the reference states of its own shapes (broadcasts, slices, reductions are well formed)
variable [Cert.ReferenceIdeal.Facts₀]

/-- The edge list's row 0 (sources) followed by every node once (the self loops). -/
def ends0 (ei : IVec S2x3200000 32) : IVec S3300000 32 :=
  concatenate S3300000 0 [⟨S3200000, shapeCast S3200000 (extractStridedSlice S1x3200000 ![0, 0] ei slices_S2x3200000_S1x3200000_0_0) shapeCasts_S1x3200000_S3200000⟩, ⟨S100000, iotaInDim S100000 32 0⟩] concatenates_S3200000_S100000_S3300000_d0

/-- The edge list's row 1 (targets) followed by every node once. -/
def ends1 (ei : IVec S2x3200000 32) : IVec S3300000 32 :=
  concatenate S3300000 0 [⟨S3200000, shapeCast S3200000 (extractStridedSlice S1x3200000 ![1, 0] ei slices_S2x3200000_S1x3200000_1_0) shapeCasts_S1x3200000_S3200000⟩, ⟨S100000, iotaInDim S100000 32 0⟩] concatenates_S3200000_S100000_S3300000_d0

/-- One index word per entry, as a column. -/
def col (v : IVec S3300000 32) : IVec S3300000x1 32 := broadcastInDim S3300000x1 ![0] bcast_S3300000_S3300000x1_0 v

/-- A negative index counts from the end (N is added to it); then as a column. -/
def wrapCol (v : IVec S3300000 32) : IVec S3300000x1 32 :=
  col (select (cmpi .slt v (broadcastInDim S3300000 ![] bcast_S_S3300000 (constantI S_ 32 0#32)))
    (addi v (broadcastInDim S3300000 ![] bcast_S_S3300000 (constantI S_ 32 100000#32))) v)

/-- deg(v): the number of entries of the target list equal to v. -/
def deg (ei : IVec S2x3200000 32) : FVec Ideal S100000 .f32 :=
  Host.scatterAdd scatter_S100000_S3300000x1_S3300000_n_0_0_1
    (broadcastInDim S100000 ![] bcast_S_S100000 (constant (F := Ideal) S_ .f32 0x00000000#32)) (col (ends1 ei))
    (broadcastInDim S3300000 ![] bcast_S_S3300000 (constant (F := Ideal) S_ .f32 0x3F800000#32))

/-- dinv(v) = deg(v)^(-1/2) where deg(v) > 0, and 0 elsewhere. -/
def dinv (ei : IVec S2x3200000 32) : FVec Ideal S100000 .f32 :=
  select (cmpf .ogt (deg ei) (broadcastInDim S100000 ![] bcast_S_S100000 (constant (F := Ideal) S_ .f32 0x00000000#32)))
    (Host.rsqrt (deg ei)) (broadcastInDim S100000 ![] bcast_S_S100000 (id (constant (F := Ideal) S_ .f32 0x00000000#32)))

/-- norm(e) = dinv[source e] · dinv[target e]. -/
def norm (ei : IVec S2x3200000 32) : FVec Ideal S3300000 .f32 :=
  mulf (Host.gather gather_S100000_S3300000x1_S3300000_n_0_n_n_0_1_1 (dinv ei) (wrapCol (ends0 ei)))
    (Host.gather gather_S100000_S3300000x1_S3300000_n_0_n_n_0_1_1 (dinv ei) (wrapCol (ends1 ei)))

/-- norm(e) repeated along the 16 features. -/
def normMat (ei : IVec S2x3200000 32) : FVec Ideal S3300000x16 .f32 :=
  broadcastInDim S3300000x16 ![0, 1] bcast_S3300000x1_S3300000x16_0_1 (broadcastInDim S3300000x1 ![0] bcast_S3300000_S3300000x1_0 (norm ei))

/-- Row e of the result is row (source e) of h. -/
def rows (ei : IVec S2x3200000 32) (h : FVec Ideal S100000x16 .f32) : FVec Ideal S3300000x16 .f32 :=
  Host.gather gather_S100000x16_S3300000x1_S3300000x16_1_0_n_n_0_1_116 h (wrapCol (ends0 ei))

/-- Row d of the result is the sum of the rows e of u with target e = d. -/
def scat (ei : IVec S2x3200000 32) (u : FVec Ideal S3300000x16 .f32) : FVec Ideal S100000x16 .f32 :=
  Host.scatterAdd scatter_S100000x16_S3300000x1_S3300000x16_1_0_0_1
    (broadcastInDim S100000x16 ![] bcast_S_S100000x16 (constant (F := Ideal) S_ .f32 0x00000000#32)) (col (ends1 ei)) u

/-- The aggregation with the gathered rows as the LEFT factor. -/
def aggL (ei : IVec S2x3200000 32) (h : FVec Ideal S100000x16 .f32) : FVec Ideal S100000x16 .f32 :=
  scat ei (mulf (rows ei h) (normMat ei))

/-- The aggregation with the gathered rows as the RIGHT factor. -/
def aggR (ei : IVec S2x3200000 32) (h : FVec Ideal S100000x16 .f32) : FVec Ideal S100000x16 .f32 :=
  scat ei (mulf (normMat ei) (rows ei h))

/-- The product of extended reals commutes, entry by entry. -/
theorem mulf_comm {S : Shape} (a b : FVec Ideal S .f32) : mulf a b = mulf b a := by
  funext i
  simp only [mulf, Ideal.mulf_def]
  exact mul_comm _ _

/-- The two orders of the product give one aggregation. -/
theorem aggL_eq_aggR (ei : IVec S2x3200000 32) (h : FVec Ideal S100000x16 .f32) : aggL ei h = aggR ei h :=
  congrArg (scat ei) (mulf_comm (rows ei h) (normMat ei))

/-- x · W1. -/
def lin (x : FVec Ideal S100000x256 .f32) (W : FVec Ideal S256x16 .f32) : FVec Ideal S100000x16 .f32 :=
  Host.dotGeneral dot_S100000x256_S256x16_S100000x16_1_0_0_1_n_n none x W

/-- a + b, the vector b added to every row. -/
def addRow16 (a : FVec Ideal S100000x16 .f32) (b : FVec Ideal S16 .f32) : FVec Ideal S100000x16 .f32 :=
  addf a (broadcastInDim S100000x16 ![0, 1] bcast_S1x16_S100000x16_0_1 (broadcastInDim S1x16 ![1] bcast_S16_S1x16_1 b))

/-- max(a, 0). -/
def relu16 (a : FVec Ideal S100000x16 .f32) : FVec Ideal S100000x16 .f32 :=
  maximumf a (broadcastInDim S100000x16 ![] bcast_S_S100000x16 (constant (F := Ideal) S_ .f32 0x00000000#32))

/-- max(a + b, 0) · W. -/
def hidden (a : FVec Ideal S100000x16 .f32) (b : FVec Ideal S16 .f32) (W : FVec Ideal S16x16 .f32) : FVec Ideal S100000x16 .f32 :=
  Host.dotGeneral dot_S100000x16_S16x16_S100000x16_1_0_0_1_n_n none (relu16 (addRow16 a b)) W

/-- z where z ≥ 0, and 0.02 · z elsewhere (64 columns). -/
def leaky64 (z : FVec Ideal S100000x64 .f32) : FVec Ideal S100000x64 .f32 :=
  select (cmpf .oge z (broadcastInDim S100000x64 ![] bcast_S_S100000x64 (constant (F := Ideal) S_ .f32 0x00000000#32))) z
    (mulf (broadcastInDim S100000x64 ![] bcast_S_S100000x64 (id (constant (F := Ideal) S_ .f32 0x3CA3D70A#32))) z)

/-- z where z ≥ 0, and 0.02 · z elsewhere (16 columns). -/
def leaky16 (z : FVec Ideal S100000x16 .f32) : FVec Ideal S100000x16 .f32 :=
  select (cmpf .oge z (broadcastInDim S100000x16 ![] bcast_S_S100000x16 (constant (F := Ideal) S_ .f32 0x00000000#32))) z
    (mulf (broadcastInDim S100000x16 ![] bcast_S_S100000x16 (id (constant (F := Ideal) S_ .f32 0x3CA3D70A#32))) z)

/-- Row-wise: z − max z − log Σ exp (z − max z). -/
def logSoftmax (z : FVec Ideal S100000x10 .f32) : FVec Ideal S100000x10 .f32 :=
  let mx : FVec Ideal S100000 .f32 :=
    maximumf (broadcastInDim S100000 ![] bcast_S_S100000 (constant (F := Ideal) S_ .f32 0xFF800000#32))
      (Host.reduce FloatOps.maximumf z (constant (F := Ideal) S_ .f32 0xFF800000#32) reducesTo_S100000x10_S100000_d1 h_S_)
  let sh : FVec Ideal S100000x10 .f32 :=
    subf z (broadcastInDim S100000x10 ![0, 1] bcast_S100000x1_S100000x10_0_1 (broadcastInDim S100000x1 ![0] bcast_S100000_S100000x1_0 mx))
  let s : FVec Ideal S100000 .f32 :=
    Host.reduceAdd (Host.exp sh) (constant (F := Ideal) S_ .f32 0x00000000#32) reducesTo_S100000x10_S100000_d1 h_S_
  subf sh (broadcastInDim S100000x10 ![0, 1] bcast_S100000x1_S100000x10_0_1 (Host.log (broadcastInDim S100000x1 ![0] bcast_S100000_S100000x1_0 s)))

/-- The perceptron's first layer before its activation: (a + b3) · Wm1 + bm1. -/
def pre1 (a : FVec Ideal S100000x16 .f32) (b3 : FVec Ideal S16 .f32) (Wm1 : FVec Ideal S16x64 .f32) (bm1 : FVec Ideal S64 .f32) : FVec Ideal S100000x64 .f32 :=
  addf (Host.dotGeneral dot_S100000x16_S16x64_S100000x64_1_0_0_1_n_n none (addRow16 a b3) Wm1)
    (broadcastInDim S100000x64 ![0, 1] bcast_S1x64_S100000x64_0_1 (broadcastInDim S1x64 ![1] bcast_S64_S1x64_1 bm1))

/-- The second layer before its activation: h1 · Wm2 + bm2. -/
def pre2 (h1 : FVec Ideal S100000x64 .f32) (Wm2 : FVec Ideal S64x16 .f32) (bm2 : FVec Ideal S16 .f32) : FVec Ideal S100000x16 .f32 :=
  addRow16 (Host.dotGeneral dot_S100000x64_S64x16_S100000x16_1_0_0_1_n_n none h1 Wm2) bm2

/-- The logits: h2 · Wm3 + bm3. -/
def logits (h2 : FVec Ideal S100000x16 .f32) (Wm3 : FVec Ideal S16x10 .f32) (bm3 : FVec Ideal S10 .f32) : FVec Ideal S100000x10 .f32 :=
  addf (Host.dotGeneral dot_S100000x16_S16x10_S100000x10_1_0_0_1_n_n none h2 Wm3)
    (broadcastInDim S100000x10 ![0, 1] bcast_S1x10_S100000x10_0_1 (broadcastInDim S1x10 ![1] bcast_S10_S1x10_1 bm3))

/-- The perceptron and the log-softmax after the third aggregation. -/
def head (a : FVec Ideal S100000x16 .f32) (b3 : FVec Ideal S16 .f32) (Wm1 : FVec Ideal S16x64 .f32) (bm1 : FVec Ideal S64 .f32)
    (Wm2 : FVec Ideal S64x16 .f32) (bm2 : FVec Ideal S16 .f32) (Wm3 : FVec Ideal S16x10 .f32) (bm3 : FVec Ideal S10 .f32) : FVec Ideal S100000x10 .f32 :=
  logSoftmax (logits (leaky16 (pre2 (leaky64 (pre1 a b3 Wm1 bm1)) Wm2 bm2)) Wm3 bm3)

/-- The whole network with aggregation `agg`. -/
def net (agg : FVec Ideal S100000x16 .f32 → FVec Ideal S100000x16 .f32)
    (x : FVec Ideal S100000x256 .f32) (W1 : FVec Ideal S256x16 .f32) (b1 : FVec Ideal S16 .f32)
    (W2 : FVec Ideal S16x16 .f32) (b2 : FVec Ideal S16 .f32) (W3 : FVec Ideal S16x16 .f32) (b3 : FVec Ideal S16 .f32)
    (Wm1 : FVec Ideal S16x64 .f32) (bm1 : FVec Ideal S64 .f32) (Wm2 : FVec Ideal S64x16 .f32) (bm2 : FVec Ideal S16 .f32)
    (Wm3 : FVec Ideal S16x10 .f32) (bm3 : FVec Ideal S10 .f32) : FVec Ideal S100000x10 .f32 :=
  head (agg (hidden (agg (hidden (agg (lin x W1)) b1 W2)) b2 W3)) b3 Wm1 bm1 Wm2 bm2 Wm3 bm3

end Cert.Gcn

end
-- ==== Proof.KernelRun.lean ====
/-
  The kernel program's run with its result named.  @main is ten segments: stretches of host operations and four
  kernel regions.  Every weakly fair execution from any launch memory terminates without a fault, and in every
  final state the result buffer holds what the fold of the segments leaves there — the last region's output
  array after all of its row blocks have been written back — while the fourteen arguments are as launched.
  The launch, the segments' chain and the final read of the thread state are the frame's; only the result's
  buffer is read in addition.
-/
import proofs.«139937_j4234837753913_1_alg».proof.Proof.Gen.KernelIdeal.Frame

set_option maxRecDepth 16384

noncomputable section

namespace Cert.KernelIdeal.GcnValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the fold's
    contents after the last region, and every argument array as launched. -/
theorem run_out : θ_run defs (onTc (τ := τ) (main (F := F))) ⟨m, fun _ => 0, ρ⟩ (fun r => ∀ c : Dev nD,
      r.2.mem ((c.tc : Thread nD τ).loc main_v78) = W10 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v78 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c)⟩)

end Cert.KernelIdeal.GcnValue

end
-- ==== Proof.LibRowOps.lean ====
/-
  Three shape operations read at an index, for rank-2 vectors with a unit leading axis and for a plain matrix
  product: the cast of a length-`b` vector to a row [1, b], the broadcast of a row [1, b] down the rows of [a, b],
  and the product of an [m, k] by a [k, n] matrix accumulated into the zero splat, over the extended reals.
-/
import Idealize.ShloMosaic.Lib.Pipeline.Value
import Idealize.ShloMosaic.Lib.ValueIdx
import Idealize.ShloMosaic.PureOps.Ideal.Laws

noncomputable section

namespace Cert.KernelBody

open Idealize.ShloMosaic Idealize.ShloMosaic.ValueIdx

variable {α : Type} {a b : ℕ}

/-- Entry `(0, k)` of the row cast of a vector is the vector's entry `k`: both sit at row-major position `k`. -/
theorem shapeCast_row_apply (x : (⟨1, ![b]⟩ : Shape).Idx → α) (h : (⟨1, ![b]⟩ : Shape).ShapeCasts ⟨2, ![1, b]⟩) (k : Fin b) :
    shapeCast ⟨2, ![1, b]⟩ x h (ix2 (0 : Fin 1) k) = x (ix1 k) :=
  shapeCast_apply x h (ix2 (0 : Fin 1) k) (ix1 k) (by
    rw [Shape.rowMajor_val_one, Shape.rowMajor_val_two]
    show k.val = 0 * b + k.val
    omega)

/-- Entry `(n, k)` of a row broadcast down the rows is the row's entry `(0, k)`. -/
theorem broadcastTo_row_apply (x : (⟨2, ![1, b]⟩ : Shape).Idx → α) (h : (⟨2, ![1, b]⟩ : Shape).Broadcasts ⟨2, ![a, b]⟩)
    (n : Fin a) (k : Fin b) : broadcastTo ⟨2, ![a, b]⟩ x h (ix2 n k) = x (ix2 (0 : Fin 1) k) :=
  broadcastTo_apply x h (ix2 n k) (ix2 (0 : Fin 1) k) (fun c => by
    match c with
    | ⟨0, _⟩ => rfl
    | ⟨1, _⟩ =>
      show k.val = if b = 1 then 0 else k.val
      have := k.isLt
      split <;> omega)

/-- The product of an m×k by a k×n matrix (contracting the left operand's axis 1 with the right operand's axis 0)
    accumulated into the zero splat, read at `(r, c)`, is the sum over the contracted coordinate of the products of
    the entries. `w` is the record's well-formedness, which a program states. -/
theorem matmul_plain_zero_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    matmul (⟨[1], [0], [0], [1], [], [], w⟩ : DotDims _ _ _) prec A B
        (constant (F := Ideal) ⟨2, ![m, n]⟩ .f32 0x00000000#32) (ix2 r c)
      = ∑ i : Fin k, A (ix2 r i) * B (ix2 i c) := by
  show FloatOps.matmul _ prec A B (constant (F := Ideal) ⟨2, ![m, n]⟩ .f32 0x00000000#32) (ix2 r c) = _
  rw [Ideal.matmul_constant_zero_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

end Cert.KernelBody

end
-- ==== Proof.DenseRows.lean ====
/-
  The kernel's dense row-block bodies against the reference's dense steps, entry by entry. A kernel body is applied
  to a block of 5000 rows; read at an in-block position (p, q) it is a sum over the contracted coordinate of products
  of the block's row p with a column of the weight matrix. The reference's step, read at the global position (r, q),
  is the same sum over row r of the whole matrix. Where row p of the block is row r of the whole matrix (and the
  bias row and the weights agree), the two sums agree term by term.
-/
import proofs.«139937_j4234837753913_1_alg».proof.Proof.Spec
import proofs.«139937_j4234837753913_1_alg».proof.Proof.Gen.KernelIdeal.Skeleton
import proofs.«139937_j4234837753913_1_alg».proof.Proof.LibRowOps
import Idealize.ShloMosaic.Lib.KernelVsHost
import Idealize.ShloMosaic.Lib.IdealHost

noncomputable section

namespace Cert.Gcn.Dense

open Idealize.ShloMosaic Idealize.ShloMosaic.ValueIdx

-- the side conditions the two programs state of their own shapes
variable [Cert.KernelIdeal.Facts₀] [Cert.ReferenceIdeal.Facts₀]

/-! ## Two host operations read at an index -/

/-- The host's product of an m×k by a k×n matrix (contracting the left operand's axis 1 with the right operand's
    axis 0), read at `(r, c)`, is the sum over the contracted coordinate of the products of the entries. -/
theorem dotGeneral_plain_apply {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (r : Fin m) (c : Fin n) :
    Host.dotGeneral (⟨[1], [0], [0], [1], [], [], w⟩ : DotDims _ _ _) prec A B (ix2 r c)
      = ∑ i : Fin k, A (ix2 r i) * B (ix2 i c) := by
  show FloatOps.dotGeneral _ prec _ A B (ix2 r c) = _
  rw [Ideal.dotGeneral_apply,
    ← Equiv.sum_comp (contrEquiv1 (⟨[1], [0], [0], [1], [], [], w⟩ : DotDims _ _ _) k rfl rfl).symm]
  refine Finset.sum_congr rfl fun i _ => ?_
  have c2 := contrEquiv1_symm_val
    (⟨[1], [0], [0], [1], [], [], w⟩ : DotDims ⟨2, ![m, k]⟩ ⟨2, ![k, n]⟩ ⟨2, ![m, n]⟩) k rfl rfl i
  have l2 : (⟨[1], [0], [0], [1], [], [], w⟩ : DotDims ⟨2, ![m, k]⟩ ⟨2, ![k, n]⟩ ⟨2, ![m, n]⟩).lhsIdx (ix2 r c)
      ((contrEquiv1 _ k rfl rfl).symm i) = ix2 r i := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 r c)
      ((contrEquiv1 _ k rfl rfl).symm i) = ix2 i c := by
    funext ax; apply Fin.ext
    match ax with
    | ⟨0, _⟩ => simp [DotDims.rhsIdx]; exact c2
    | ⟨1, _⟩ => simp [DotDims.rhsIdx]; rfl
  rw [l2, r2]

/-- A vector of `n` entries laid out as the one row of a [1, n] matrix: entry `(0, t)` is the vector's entry `t`. -/
theorem broadcastInDim_vecRow_apply {α : Type} {n : ℕ}
    (h : (⟨1, ![n]⟩ : Shape).BroadcastsInDim ⟨2, ![1, n]⟩ ![1]) (x : (⟨1, ![n]⟩ : Shape).Idx → α) (t : Fin n) :
    broadcastInDim ⟨2, ![1, n]⟩ ![1] h x (ix2 (0 : Fin 1) t) = x (ix1 t) := by
  refine broadcastInDim_apply ![1] h x (ix2 (0 : Fin 1) t) (ix1 t) ?_
  intro a
  match a with
  | ⟨0, _⟩ =>
    show t.val = if n = 1 then 0 else t.val
    split
    · have := t.isLt; omega
    · rfl

/-! ## The first layer's projection -/

/-- Row `p` of a block that holds row `r` of `x`, projected by the block's copy of `W`, is row `r` of `x · W`. -/
theorem lin_block (x : FVec Ideal Cert.ReferenceIdeal.S100000x256 .f32) (W : FVec Ideal Cert.ReferenceIdeal.S256x16 .f32)
    (v0 : Vec Ideal Cert.KernelIdeal.S5000x256 .f32) (v2 : Vec Ideal Cert.KernelIdeal.S256x16 .f32) (r : Fin 100000) (p : Fin 5000)
    (h0 : ∀ k : Fin 256, v0 (ix2 p k) = x (ix2 r k)) (h2 : ∀ (k : Fin 256) (q : Fin 16), v2 (ix2 k q) = W (ix2 k q)) (q : Fin 16) :
    Cert.KernelIdeal.Gen.k0_pay1 (F := Ideal) v0 v2 (ix2 p q) = Cert.Gcn.lin x W (ix2 r q) := by
  refine (Cert.KernelBody.matmul_plain_zero_apply (m := 5000) (k := 256) (n := 16) _ none _ _ p q).trans ?_
  refine Eq.trans ?_ (dotGeneral_plain_apply (m := 100000) (k := 256) (n := 16) _ none x W r q).symm
  refine Finset.sum_congr rfl fun i _ => ?_
  show v0 (ix2 p i) * v2 (ix2 i q) = x (ix2 r i) * W (ix2 i q)
  rw [h0 i, h2 i q]

/-! ## The hidden layers: bias, rectifier, projection -/

/-- The kernel's left operand of the hidden layer's product at `(p, i)`: the block's entry plus the bias row's entry
    `i`, cut off below at zero. (The casts are between equal shapes; the bias row is repeated down the rows.) -/
theorem relu_bias_kernel_apply (v0 : Vec Ideal Cert.KernelIdeal.S5000x16 .f32) (v2 : Vec Ideal Cert.KernelIdeal.S1x16 .f32)
    (h1 : Cert.KernelIdeal.S5000x16.ShapeCasts Cert.KernelIdeal.S5000x16)
    (h3 : Cert.KernelIdeal.S1x16.ShapeCasts Cert.KernelIdeal.S1x16)
    (hb : Cert.KernelIdeal.S1x16.Broadcasts Cert.KernelIdeal.S5000x16) (p : Fin 5000) (i : Fin 16) :
    maximumf (F := Ideal) (addf (shapeCast Cert.KernelIdeal.S5000x16 v0 h1)
        (broadcastTo Cert.KernelIdeal.S5000x16 (shapeCast Cert.KernelIdeal.S1x16 v2 h3) hb))
      (broadcast Cert.KernelIdeal.S5000x16 (Scalar.ofBits (F := Ideal) .f32 0x00000000#32)) (ix2 p i)
      = max (v0 (ix2 p i) + v2 (ix2 (0 : Fin 1) i)) 0 := by
  rw [shapeCast_self, shapeCast_self]
  show max (v0 (ix2 p i) + broadcastTo Cert.KernelIdeal.S5000x16 v2 hb (ix2 p i)) (Ideal.ofBits .f32 0x00000000#32) = _
  rw [Cert.KernelBody.broadcastTo_row_apply (a := 5000) (b := 16) v2 hb p i, Ideal.ofBits_zero_f32]

/-- The reference's left operand of the hidden layer's product at `(r, i)`: the entry plus the bias vector's entry
    `i`, cut off below at zero. -/
theorem relu_bias_host_apply (a : FVec Ideal Cert.ReferenceIdeal.S100000x16 .f32) (b : FVec Ideal Cert.ReferenceIdeal.S16 .f32)
    (r : Fin 100000) (i : Fin 16) :
    Cert.Gcn.relu16 (Cert.Gcn.addRow16 a b) (ix2 r i) = max (a (ix2 r i) + b (ix1 i)) 0 := by
  show max (a (ix2 r i) + broadcastInDim Cert.ReferenceIdeal.S100000x16 ![0, 1] _
        (broadcastInDim Cert.ReferenceIdeal.S1x16 ![1] _ b) (ix2 r i))
      (broadcastInDim Cert.ReferenceIdeal.S100000x16 ![] _ (constant (F := Ideal) Cert.ReferenceIdeal.S_ .f32 0x00000000#32) (ix2 r i)) = _
  rw [broadcastInDim_oneRow_apply (m := 100000) (n := 16), broadcastInDim_vecRow_apply (n := 16),
    broadcastInDim_scalar_apply]
  show max _ (Ideal.ofBits .f32 0x00000000#32) = _
  rw [Ideal.ofBits_zero_f32]

/-- Row `p` of a block that holds row `r` of `a`, with the block's copies of the bias `b` (as a row) and of `W`:
    the kernel's bias, rectifier and projection give row `r` of `max(a + b, 0) · W`. -/
theorem hidden_block1 (a : FVec Ideal Cert.ReferenceIdeal.S100000x16 .f32) (b : FVec Ideal Cert.ReferenceIdeal.S16 .f32) (W : FVec Ideal Cert.ReferenceIdeal.S16x16 .f32)
    (v0 : Vec Ideal Cert.KernelIdeal.S5000x16 .f32) (v2 : Vec Ideal Cert.KernelIdeal.S1x16 .f32) (v9 : Vec Ideal Cert.KernelIdeal.S16x16 .f32) (r : Fin 100000) (p : Fin 5000)
    (h0 : ∀ k : Fin 16, v0 (ix2 p k) = a (ix2 r k)) (h2 : ∀ k : Fin 16, v2 (ix2 (0 : Fin 1) k) = b (ix1 k)) (h9 : ∀ (k q : Fin 16), v9 (ix2 k q) = W (ix2 k q)) (q : Fin 16) :
    Cert.KernelIdeal.Gen.k1_pay1 (F := Ideal) v0 v2 v9 (ix2 p q) = Cert.Gcn.hidden a b W (ix2 r q) := by
  refine (Cert.KernelBody.matmul_plain_zero_apply (m := 5000) (k := 16) (n := 16) _ none _ _ p q).trans ?_
  refine Eq.trans ?_ (dotGeneral_plain_apply (m := 100000) (k := 16) (n := 16) _ none
    (Cert.Gcn.relu16 (Cert.Gcn.addRow16 a b)) W r q).symm
  refine Finset.sum_congr rfl fun i _ => ?_
  refine (congrArg (· * v9 (ix2 i q)) (relu_bias_kernel_apply v0 v2 _ _ _ p i)).trans ?_
  rw [relu_bias_host_apply a b r i, h0 i, h2 i, h9 i q]

/-- The same for the second hidden layer's kernel, whose body is the first's. -/
theorem hidden_block2 (a : FVec Ideal Cert.ReferenceIdeal.S100000x16 .f32) (b : FVec Ideal Cert.ReferenceIdeal.S16 .f32) (W : FVec Ideal Cert.ReferenceIdeal.S16x16 .f32)
    (v0 : Vec Ideal Cert.KernelIdeal.S5000x16 .f32) (v2 : Vec Ideal Cert.KernelIdeal.S1x16 .f32) (v9 : Vec Ideal Cert.KernelIdeal.S16x16 .f32) (r : Fin 100000) (p : Fin 5000)
    (h0 : ∀ k : Fin 16, v0 (ix2 p k) = a (ix2 r k)) (h2 : ∀ k : Fin 16, v2 (ix2 (0 : Fin 1) k) = b (ix1 k)) (h9 : ∀ (k q : Fin 16), v9 (ix2 k q) = W (ix2 k q)) (q : Fin 16) :
    Cert.KernelIdeal.Gen.k2_pay1 (F := Ideal) v0 v2 v9 (ix2 p q) = Cert.Gcn.hidden a b W (ix2 r q) :=
  hidden_block1 a b W v0 v2 v9 r p h0 h2 h9 q

end Cert.Gcn.Dense

end
-- ==== Proof.Region0.lean ====
/-
  The first kernel region: x · W1, row block by row block.
  The region's grid has 20 points; point t stages row block t (5000 rows) of its first operand and the whole of every
  other operand, and writes row block t of its result.  So the 20 written blocks tile the result array, and the array
  ends holding ONE function of the arrays the region found: the reference's own dense step.
-/
import proofs.«139937_j4234837753913_1_alg».proof.Proof.Gen.KernelIdeal.Frame
import proofs.«139937_j4234837753913_1_alg».proof.Proof.Gen.ReferenceIdeal
import proofs.«139937_j4234837753913_1_alg».proof.Proof.Spec
import proofs.«139937_j4234837753913_1_alg».proof.Proof.DenseRows
import Idealize.ShloMosaic.Lib.Pipeline.Value
import Idealize.ShloMosaic.Lib.ValueIdx

set_option maxRecDepth 16384

noncomputable section

namespace Cert.KernelIdeal.GcnValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

private theorem hz : (![0, 0] : Fin 2 → Nat) = fun _ => 0 := funext fun a => by fin_cases a <;> rfl

/-- The printed index maps over the grid: point t reads row block t of the features and the whole weight matrix,
    and writes row block t of the result. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's result at an index of point t's block is x · W at that index of the arrays as the region finds them:
    the block's row p is the array's row 5000 t + p, and the weight window is the whole matrix. -/
theorem point0 (c : Dev nD) (t : Fin cfg0.N) (j : S5000x16.Idx) :
    k0_pay1 (iblk0 V c 0 t) (iblk0 V c 1 t) j
      = Cert.Gcn.lin (V c main_arg0) (V c main_arg2) (((cfg0.win 2).blk t).view.emb j) := by
  obtain ⟨e0, e1, e2, e3, e4, e5⟩ := idx_facts0 t
  have ht : t.val < 20 := t.isLt
  obtain ⟨p, q, rfl⟩ : ∃ (p : Fin 5000) (q : Fin 16), j = ix2 p q := ⟨j 0, j 1, eq_ix2 j⟩
  have hr : 5000 * t.val + p.val < 100000 := by have := p.isLt; omega
  refine (Cert.Gcn.Dense.lin_block (V c main_arg0) (V c main_arg2) (iblk0 V c 0 t) (iblk0 V c 1 t) ⟨5000 * t.val + p.val, hr⟩ p ?_ ?_ q).trans ?_
  · intro k
    show V c main_arg0 (((cfg0.win 0).blk t).view.emb (ix2 p k)) = V c main_arg0 (ix2 ⟨5000 * t.val + p.val, hr⟩ k)
    refine congrArg (V c main_arg0) ?_
    funext a; apply Fin.ext
    match a with
    | ⟨0, _⟩ => show win0_0.index t (0 : Fin 2) * 5000 + 1 * p.val = 5000 * t.val + p.val; omega
    | ⟨1, _⟩ => show win0_0.index t (1 : Fin 2) * 256 + 1 * k.val = k.val; omega
  · intro k q'
    show V c main_arg2 (((cfg0.win 1).blk t).view.emb (ix2 k q')) = V c main_arg2 (ix2 k q')
    refine congrArg (V c main_arg2) ?_
    funext a; apply Fin.ext
    match a with
    | ⟨0, _⟩ => show win0_1.index t (0 : Fin 2) * 256 + 1 * k.val = k.val; omega
    | ⟨1, _⟩ => show win0_1.index t (1 : Fin 2) * 16 + 1 * q'.val = q'.val; omega
  · refine congrArg (Cert.Gcn.lin (V c main_arg0) (V c main_arg2)) ?_
    funext a; apply Fin.ext
    match a with
    | ⟨0, _⟩ => show 5000 * t.val + p.val = win0_2.index t (0 : Fin 2) * 5000 + 1 * p.val; omega
    | ⟨1, _⟩ => show q.val = win0_2.index t (1 : Fin 2) * 16 + 1 * q.val; omega

/-- What point t writes back is row block t of x · W of the arrays as the region finds them. -/
theorem flushed0 (c : Dev nD) (t : Fin cfg0.N) :
    (dat0 V c).flushed 2 t = ((cfg0.win 2).blk t).view.read (Elt Ideal) (Cert.Gcn.lin (V c main_arg0) (V c main_arg2)) := by
  show (cfg0.win 2).cut (grid0.coords t) ((dat0 V c).after 2 t) = _
  rw [after0_2]
  unfold out0_2
  rw [View.canon_unit_zero hz]
  simp only [View.ld_unit_zero (S := S5000x256) hz, View.ld_unit_zero (S := S256x16) hz]
  funext j
  exact point0 V c t j

/-- An index of the result array is in point t's block iff its row is in rows 5000 t … 5000 t + 4999. -/
theorem mem_blk0 (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v30).slice (win0_2.rect t)).set ↔ _
  rw [View.set_slice_whole, Rect.mem_set_unit]
  exact Iff.rfl

/-- Every row lies in the block of the point (row / 5000). -/
theorem cover0 (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  have hlt : (i 0).val / 5000 < cfg0.N := by rw [hN]; omega
  obtain ⟨e0, e1, e2, e3, e4, e5⟩ := idx_facts0 ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk0]
  intro a
  match a with
  | ⟨0, _⟩ => show win0_2.index ⟨(i 0).val / 5000, hlt⟩ (0 : Fin 2) * 5000 ≤ (i 0).val ∧ (i 0).val < win0_2.index ⟨(i 0).val / 5000, hlt⟩ (0 : Fin 2) * 5000 + 5000; omega
  | ⟨1, _⟩ => show win0_2.index ⟨(i 0).val / 5000, hlt⟩ (1 : Fin 2) * 16 ≤ (i 1).val ∧ (i 1).val < win0_2.index ⟨(i 0).val / 5000, hlt⟩ (1 : Fin 2) * 16 + 16; omega

/-- The first region's output array after the run: x · W1 of the arrays as the region finds them. -/
theorem arr0 (c : Dev nD) : (dat0 V c).arrAt 2 cfg0.N = Cert.Gcn.lin (V c main_arg0) (V c main_arg2) :=
  (dat0 V c).arrAt_eq_of_cover 2 (Cert.Gcn.lin (V c main_arg0) (V c main_arg2)) (fun t _ => flushed0 V c t) cover0

end Cert.KernelIdeal.GcnValue

end
-- ==== Proof.Region1.lean ====
/-
  The second kernel region: max(a + b1, 0) · W2 of the first aggregation a, row block by row block.
  The region's grid has 20 points; point t stages row block t (5000 rows) of its first operand and the whole of every
  other operand, and writes row block t of its result.  So the 20 written blocks tile the result array, and the array
  ends holding ONE function of the arrays the region found: the reference's own dense step.
-/
import proofs.«139937_j4234837753913_1_alg».proof.Proof.Gen.KernelIdeal.Frame
import proofs.«139937_j4234837753913_1_alg».proof.Proof.Gen.ReferenceIdeal
import proofs.«139937_j4234837753913_1_alg».proof.Proof.Spec
import proofs.«139937_j4234837753913_1_alg».proof.Proof.DenseRows
import Idealize.ShloMosaic.Lib.Pipeline.Value
import Idealize.ShloMosaic.Lib.ValueIdx

set_option maxRecDepth 16384

noncomputable section

namespace Cert.KernelIdeal.GcnValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

private theorem hz : (![0, 0] : Fin 2 → Nat) = fun _ => 0 := funext fun a => by fin_cases a <;> rfl

/-- The printed index maps over the grid: point t reads row block t of the aggregated features, the whole bias row and
    the whole weight matrix, and writes row block t of the result. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The body's result at an index of point t's block is max(a + b, 0) · W at that index of the arrays as the region
    finds them, b the bias vector whose [1,16] row the region finds in its second window. -/
theorem point1 (c : Dev nD) (t : Fin cfg1.N) (b : FVec Ideal Cert.ReferenceIdeal.S16 .f32)
    (hb : ∀ k : Fin 16, V c main_v44 (ix2 (0 : Fin 1) k) = b (ix1 k)) (j : S5000x16.Idx) :
    k1_pay1 (iblk1 V c 0 t) (iblk1 V c 1 t) (iblk1 V c 2 t) j
      = Cert.Gcn.hidden (V c main_v43) b (V c main_arg4) (((cfg1.win 3).blk t).view.emb j) := by
  obtain ⟨e0, e1, e2, e3, e4, e5, e6, e7⟩ := idx_facts1 t
  have ht : t.val < 20 := t.isLt
  obtain ⟨p, q, rfl⟩ : ∃ (p : Fin 5000) (q : Fin 16), j = ix2 p q := ⟨j 0, j 1, eq_ix2 j⟩
  have hr : 5000 * t.val + p.val < 100000 := by have := p.isLt; omega
  refine (Cert.Gcn.Dense.hidden_block1 (V c main_v43) b (V c main_arg4) (iblk1 V c 0 t) (iblk1 V c 1 t) (iblk1 V c 2 t) ⟨5000 * t.val + p.val, hr⟩ p ?_ ?_ ?_ q).trans ?_
  · intro k
    show V c main_v43 (((cfg1.win 0).blk t).view.emb (ix2 p k)) = V c main_v43 (ix2 ⟨5000 * t.val + p.val, hr⟩ k)
    refine congrArg (V c main_v43) ?_
    funext a; apply Fin.ext
    match a with
    | ⟨0, _⟩ => show win1_0.index t (0 : Fin 2) * 5000 + 1 * p.val = 5000 * t.val + p.val; omega
    | ⟨1, _⟩ => show win1_0.index t (1 : Fin 2) * 16 + 1 * k.val = k.val; omega
  · intro k
    refine Eq.trans ?_ (hb k)
    show V c main_v44 (((cfg1.win 1).blk t).view.emb (ix2 (0 : Fin 1) k)) = V c main_v44 (ix2 (0 : Fin 1) k)
    refine congrArg (V c main_v44) ?_
    funext a; apply Fin.ext
    match a with
    | ⟨0, _⟩ => show win1_1.index t (0 : Fin 2) * 1 + 1 * 0 = 0; omega
    | ⟨1, _⟩ => show win1_1.index t (1 : Fin 2) * 16 + 1 * k.val = k.val; omega
  · intro k q'
    show V c main_arg4 (((cfg1.win 2).blk t).view.emb (ix2 k q')) = V c main_arg4 (ix2 k q')
    refine congrArg (V c main_arg4) ?_
    funext a; apply Fin.ext
    match a with
    | ⟨0, _⟩ => show win1_2.index t (0 : Fin 2) * 16 + 1 * k.val = k.val; omega
    | ⟨1, _⟩ => show win1_2.index t (1 : Fin 2) * 16 + 1 * q'.val = q'.val; omega
  · refine congrArg (Cert.Gcn.hidden (V c main_v43) b (V c main_arg4)) ?_
    funext a; apply Fin.ext
    match a with
    | ⟨0, _⟩ => show 5000 * t.val + p.val = win1_3.index t (0 : Fin 2) * 5000 + 1 * p.val; omega
    | ⟨1, _⟩ => show q.val = win1_3.index t (1 : Fin 2) * 16 + 1 * q.val; omega

/-- What point t writes back is row block t of max(a + b, 0) · W of the arrays as the region finds them. -/
theorem flushed1 (c : Dev nD) (t : Fin cfg1.N) (b : FVec Ideal Cert.ReferenceIdeal.S16 .f32)
    (hb : ∀ k : Fin 16, V c main_v44 (ix2 (0 : Fin 1) k) = b (ix1 k)) :
    (dat1 V c).flushed 3 t = ((cfg1.win 3).blk t).view.read (Elt Ideal) (Cert.Gcn.hidden (V c main_v43) b (V c main_arg4)) := by
  show (cfg1.win 3).cut (grid1.coords t) ((dat1 V c).after 3 t) = _
  rw [after1_3]
  unfold out1_3
  rw [View.canon_unit_zero hz]
  simp only [View.ld_unit_zero (S := S5000x16) hz, View.ld_unit_zero (S := S1x16) hz, View.ld_unit_zero (S := S16x16) hz]
  funext j
  exact point1 V c t b hb j

/-- An index of the result array is in point t's block iff its row is in rows 5000 t … 5000 t + 4999. -/
theorem mem_blk1 (t : Fin cfg1.N) (i : S100000x16.Idx) :
    i ∈ ((cfg1.win 3).blk t).view.set ↔ ∀ a : Fin 2, win1_3.index t a * S5000x16.size a ≤ (i a).val ∧ (i a).val < win1_3.index t a * S5000x16.size a + S5000x16.size a := by
  show i ∈ ((View.whole main_v45).slice (win1_3.rect t)).set ↔ _
  rw [View.set_slice_whole, Rect.mem_set_unit]
  exact Iff.rfl

/-- Every row lies in the block of the point (row / 5000). -/
theorem cover1 (i : S100000x16.Idx) : ∃ t : Fin cfg1.N, (cfg1.win 3).flush t = true ∧ i ∈ ((cfg1.win 3).blk t).view.set := by
  have hi0 : (i 0).val < 100000 := (i 0).isLt
  have hi1 : (i 1).val < 16 := (i 1).isLt
  have hN : cfg1.N = 20 := N_1
  have hlt : (i 0).val / 5000 < cfg1.N := by rw [hN]; omega
  obtain ⟨e0, e1, e2, e3, e4, e5, e6, e7⟩ := idx_facts1 ⟨(i 0).val / 5000, hlt⟩
  have e6' : win1_3.index ⟨(i 0).val / 5000, hlt⟩ (0 : Fin 2) = (i 0).val / 5000 := e6
  refine ⟨⟨(i 0).val / 5000, hlt⟩, flush1_3 _, ?_⟩
  rw [mem_blk1]
  intro a
  match a with
  | ⟨0, _⟩ => show win1_3.index ⟨(i 0).val / 5000, hlt⟩ (0 : Fin 2) * 5000 ≤ (i 0).val ∧ (i 0).val < win1_3.index ⟨(i 0).val / 5000, hlt⟩ (0 : Fin 2) * 5000 + 5000; omega
  | ⟨1, _⟩ => show win1_3.index ⟨(i 0).val / 5000, hlt⟩ (1 : Fin 2) * 16 ≤ (i 1).val ∧ (i 1).val < win1_3.index ⟨(i 0).val / 5000, hlt⟩ (1 : Fin 2) * 16 + 16; omega

/-- The second region's output array after the run: max(a + b, 0) · W of the arrays as the region finds them. -/
theorem arr1 (c : Dev nD) (b : FVec Ideal Cert.ReferenceIdeal.S16 .f32)
    (hb : ∀ k : Fin 16, V c main_v44 (ix2 (0 : Fin 1) k) = b (ix1 k)) :
    (dat1 V c).arrAt 3 cfg1.N = Cert.Gcn.hidden (V c main_v43) b (V c main_arg4) :=
  (dat1 V c).arrAt_eq_of_cover 3 (Cert.Gcn.hidden (V c main_v43) b (V c main_arg4)) (fun t _ => flushed1 V c t b hb) cover1

end Cert.KernelIdeal.GcnValue

end
-- ==== Proof.Region2.lean ====
/-
  The third kernel region: max(a + b2, 0) · W3 of the second aggregation a, row block by row block.
  The region's grid has 20 points; point t stages row block t (5000 rows) of its first operand and the whole of every
  other operand, and writes row block t of its result.  So the 20 written blocks tile the result array, and the array
  ends holding ONE function of the arrays the region found: the reference's own dense step.
-/
import proofs.«139937_j4234837753913_1_alg».proof.Proof.Gen.KernelIdeal.Frame
import proofs.«139937_j4234837753913_1_alg».proof.Proof.Gen.ReferenceIdeal
import proofs.«139937_j4234837753913_1_alg».proof.Proof.Spec
import proofs.«139937_j4234837753913_1_alg».proof.Proof.DenseRows
import Idealize.ShloMosaic.Lib.Pipeline.Value
import Idealize.ShloMosaic.Lib.ValueIdx

set_option maxRecDepth 16384

noncomputable section

namespace Cert.KernelIdeal.GcnValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

private theorem hz : (![0, 0] : Fin 2 → Nat) = fun _ => 0 := funext fun a => by fin_cases a <;> rfl

/-- The printed index maps over the grid: point t reads row block t of the aggregated features, the whole bias row and
    the whole weight matrix, and writes row block t of the result. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The body's result at an index of point t's block is max(a + b, 0) · W at that index of the arrays as the region
    finds them, b the bias vector whose [1,16] row the region finds in its second window. -/
theorem point2 (c : Dev nD) (t : Fin cfg2.N) (b : FVec Ideal Cert.ReferenceIdeal.S16 .f32)
    (hb : ∀ k : Fin 16, V c main_v59 (ix2 (0 : Fin 1) k) = b (ix1 k)) (j : S5000x16.Idx) :
    k2_pay1 (iblk2 V c 0 t) (iblk2 V c 1 t) (iblk2 V c 2 t) j
      = Cert.Gcn.hidden (V c main_v58) b (V c main_arg6) (((cfg2.win 3).blk t).view.emb j) := by
  obtain ⟨e0, e1, e2, e3, e4, e5, e6, e7⟩ := idx_facts2 t
  have ht : t.val < 20 := t.isLt
  obtain ⟨p, q, rfl⟩ : ∃ (p : Fin 5000) (q : Fin 16), j = ix2 p q := ⟨j 0, j 1, eq_ix2 j⟩
  have hr : 5000 * t.val + p.val < 100000 := by have := p.isLt; omega
  refine (Cert.Gcn.Dense.hidden_block2 (V c main_v58) b (V c main_arg6) (iblk2 V c 0 t) (iblk2 V c 1 t) (iblk2 V c 2 t) ⟨5000 * t.val + p.val, hr⟩ p ?_ ?_ ?_ q).trans ?_
  · intro k
    show V c main_v58 (((cfg2.win 0).blk t).view.emb (ix2 p k)) = V c main_v58 (ix2 ⟨5000 * t.val + p.val, hr⟩ k)
    refine congrArg (V c main_v58) ?_
    funext a; apply Fin.ext
    match a with
    | ⟨0, _⟩ => show win2_0.index t (0 : Fin 2) * 5000 + 1 * p.val = 5000 * t.val + p.val; omega
    | ⟨1, _⟩ => show win2_0.index t (1 : Fin 2) * 16 + 1 * k.val = k.val; omega
  · intro k
    refine Eq.trans ?_ (hb k)
    show V c main_v59 (((cfg2.win 1).blk t).view.emb (ix2 (0 : Fin 1) k)) = V c main_v59 (ix2 (0 : Fin 1) k)
    refine congrArg (V c main_v59) ?_
    funext a; apply Fin.ext
    match a with
    | ⟨0, _⟩ => show win2_1.index t (0 : Fin 2) * 1 + 1 * 0 = 0; omega
    | ⟨1, _⟩ => show win2_1.index t (1 : Fin 2) * 16 + 1 * k.val = k.val; omega
  · intro k q'
    show V c main_arg6 (((cfg2.win 2).blk t).view.emb (ix2 k q')) = V c main_arg6 (ix2 k q')
    refine congrArg (V c main_arg6) ?_
    funext a; apply Fin.ext
    match a with
    | ⟨0, _⟩ => show win2_2.index t (0 : Fin 2) * 16 + 1 * k.val = k.val; omega
    | ⟨1, _⟩ => show win2_2.index t (1 : Fin 2) * 16 + 1 * q'.val = q'.val; omega
  · refine congrArg (Cert.Gcn.hidden (V c main_v58) b (V c main_arg6)) ?_
    funext a; apply Fin.ext
    match a with
    | ⟨0, _⟩ => show 5000 * t.val + p.val = win2_3.index t (0 : Fin 2) * 5000 + 1 * p.val; omega
    | ⟨1, _⟩ => show q.val = win2_3.index t (1 : Fin 2) * 16 + 1 * q.val; omega

/-- What point t writes back is row block t of max(a + b, 0) · W of the arrays as the region finds them. -/
theorem flushed2 (c : Dev nD) (t : Fin cfg2.N) (b : FVec Ideal Cert.ReferenceIdeal.S16 .f32)
    (hb : ∀ k : Fin 16, V c main_v59 (ix2 (0 : Fin 1) k) = b (ix1 k)) :
    (dat2 V c).flushed 3 t = ((cfg2.win 3).blk t).view.read (Elt Ideal) (Cert.Gcn.hidden (V c main_v58) b (V c main_arg6)) := by
  show (cfg2.win 3).cut (grid2.coords t) ((dat2 V c).after 3 t) = _
  rw [after2_3]
  unfold out2_3
  rw [View.canon_unit_zero hz]
  simp only [View.ld_unit_zero (S := S5000x16) hz, View.ld_unit_zero (S := S1x16) hz, View.ld_unit_zero (S := S16x16) hz]
  funext j
  exact point2 V c t b hb j

/-- An index of the result array is in point t's block iff its row is in rows 5000 t … 5000 t + 4999. -/
theorem mem_blk2 (t : Fin cfg2.N) (i : S100000x16.Idx) :
    i ∈ ((cfg2.win 3).blk t).view.set ↔ ∀ a : Fin 2, win2_3.index t a * S5000x16.size a ≤ (i a).val ∧ (i a).val < win2_3.index t a * S5000x16.size a + S5000x16.size a := by
  show i ∈ ((View.whole main_v60).slice (win2_3.rect t)).set ↔ _
  rw [View.set_slice_whole, Rect.mem_set_unit]
  exact Iff.rfl

/-- Every row lies in the block of the point (row / 5000). -/
theorem cover2 (i : S100000x16.Idx) : ∃ t : Fin cfg2.N, (cfg2.win 3).flush t = true ∧ i ∈ ((cfg2.win 3).blk t).view.set := by
  have hi0 : (i 0).val < 100000 := (i 0).isLt
  have hi1 : (i 1).val < 16 := (i 1).isLt
  have hN : cfg2.N = 20 := N_2
  have hlt : (i 0).val / 5000 < cfg2.N := by rw [hN]; omega
  obtain ⟨e0, e1, e2, e3, e4, e5, e6, e7⟩ := idx_facts2 ⟨(i 0).val / 5000, hlt⟩
  have e6' : win2_3.index ⟨(i 0).val / 5000, hlt⟩ (0 : Fin 2) = (i 0).val / 5000 := e6
  refine ⟨⟨(i 0).val / 5000, hlt⟩, flush2_3 _, ?_⟩
  rw [mem_blk2]
  intro a
  match a with
  | ⟨0, _⟩ => show win2_3.index ⟨(i 0).val / 5000, hlt⟩ (0 : Fin 2) * 5000 ≤ (i 0).val ∧ (i 0).val < win2_3.index ⟨(i 0).val / 5000, hlt⟩ (0 : Fin 2) * 5000 + 5000; omega
  | ⟨1, _⟩ => show win2_3.index ⟨(i 0).val / 5000, hlt⟩ (1 : Fin 2) * 16 ≤ (i 1).val ∧ (i 1).val < win2_3.index ⟨(i 0).val / 5000, hlt⟩ (1 : Fin 2) * 16 + 16; omega

/-- The third region's output array after the run: max(a + b, 0) · W of the arrays as the region finds them. -/
theorem arr2 (c : Dev nD) (b : FVec Ideal Cert.ReferenceIdeal.S16 .f32)
    (hb : ∀ k : Fin 16, V c main_v59 (ix2 (0 : Fin 1) k) = b (ix1 k)) :
    (dat2 V c).arrAt 3 cfg2.N = Cert.Gcn.hidden (V c main_v58) b (V c main_arg6) :=
  (dat2 V c).arrAt_eq_of_cover 3 (Cert.Gcn.hidden (V c main_v58) b (V c main_arg6)) (fun t _ => flushed2 V c t b hb) cover2

end Cert.KernelIdeal.GcnValue

end
-- ==== Proof.HeadRowsDefs.lean ====
/-
  One row of the perceptron, as functions of that row's entries over the extended reals.

  A row x (16 entries) goes through three products with weight matrices, the first two each followed by a bias and
  the leaky rectifier z ↦ z where z ≥ 0 and 0.02 · z elsewhere.  Both programs' bodies, read at one index, are
  instances of these functions; the rectifier is spelled with the scalar compare, select and product that the
  element-wise operations read at an index produce, so no case split is needed to meet them.
-/
import Idealize.ShloMosaic.PureOps.Ideal

noncomputable section

namespace Cert.Gcn.Head

open Idealize.ShloMosaic

/-- z where z ≥ 0, and 0.02 · z elsewhere. -/
def leaky (z : EReal) : EReal :=
  Scalar.select (Ideal.cmp .oge z (Ideal.ofBits .f32 0x00000000#32)) z (Ideal.ofBits .f32 0x3CA3D70A#32 * z)

/-- Entry j of a row times a matrix: Σ_k x k · W k j. -/
def dense {m n : ℕ} (x : Fin m → EReal) (W : Fin m → Fin n → EReal) (j : Fin n) : EReal :=
  ∑ k : Fin m, x k * W k j

/-- The hidden row after the first layer: leaky ((x + b) · W1 + c1). -/
def rowH1 (x b : Fin 16 → EReal) (W1 : Fin 16 → Fin 64 → EReal) (c1 : Fin 64 → EReal) (j : Fin 64) : EReal :=
  leaky (dense (fun i => x i + b i) W1 j + c1 j)

/-- The hidden row after the second layer: leaky (h1 · W2 + c2). -/
def rowH2 (h1 : Fin 64 → EReal) (W2 : Fin 64 → Fin 16 → EReal) (c2 : Fin 16 → EReal) (k : Fin 16) : EReal :=
  leaky (dense h1 W2 k + c2 k)

/-- The third product (before its bias) of the row's second hidden row. -/
def rowPre3 (x b : Fin 16 → EReal) (W1 : Fin 16 → Fin 64 → EReal) (c1 : Fin 64 → EReal)
    (W2 : Fin 64 → Fin 16 → EReal) (c2 : Fin 16 → EReal) (W3 : Fin 16 → Fin 10 → EReal) (q : Fin 10) : EReal :=
  dense (rowH2 (rowH1 x b W1 c1) W2 c2) W3 q

end Cert.Gcn.Head

end
-- ==== Proof.HeadRowsK.lean ====
/-
  The perceptron kernel's first pure body read at one in-block index, as the row function of HeadRowsDefs.

  The body (three matrix products into zero accumulators, bias rows broadcast down the block, two leaky
  rectifiers) at (p, q) reads only row p of its block operand.  Each layer is one step: a product at (p, c)
  is Σ_i x(p, i) · W(i, c); a bias row broadcast down the rows and read at (p, c) is its entry (0, c).
-/
import proofs.«139937_j4234837753913_1_alg».proof.Proof.Gen.KernelIdeal.Skeleton
import proofs.«139937_j4234837753913_1_alg».proof.Proof.LibRowOps
import proofs.«139937_j4234837753913_1_alg».proof.Proof.HeadRowsDefs

noncomputable section

namespace Cert.Gcn.Head

open Idealize.ShloMosaic Idealize.ShloMosaic.ValueIdx Cert.KernelBody

/-- A cast to the same shape reads the same index. -/
theorem shapeCast_self_apply {α : Type} {s : Shape} (x : s.Idx → α) (h : s.ShapeCasts s) (j : s.Idx) :
    shapeCast s x h j = x j :=
  shapeCast_apply x h j j rfl

/-- x plus a bias row broadcast down the rows, at (p, c): x(p, c) + v(0, c). -/
theorem k_bias {a b : ℕ} (x : FVec Ideal ⟨2, ![a, b]⟩ .f32) (v : FVec Ideal ⟨2, ![1, b]⟩ .f32)
    (h1 : (⟨2, ![1, b]⟩ : Shape).ShapeCasts ⟨2, ![1, b]⟩) (hb : (⟨2, ![1, b]⟩ : Shape).Broadcasts ⟨2, ![a, b]⟩)
    (p : Fin a) (c : Fin b) :
    addf x (broadcastTo ⟨2, ![a, b]⟩ (shapeCast ⟨2, ![1, b]⟩ v h1) hb) (ix2 p c) = x (ix2 p c) + v (ix2 (0 : Fin 1) c) := by
  show x (ix2 p c) + broadcastTo ⟨2, ![a, b]⟩ (shapeCast ⟨2, ![1, b]⟩ v h1) hb (ix2 p c) = _
  rw [broadcastTo_row_apply, shapeCast_self_apply]

/-- The compare-and-select spelling of the leaky rectifier, entry by entry. -/
theorem k_leaky {s : Shape} (z : FVec Ideal s .f32) (i : s.Idx) :
    select (cmpf .oge z (broadcast s (Scalar.ofBits (F := Ideal) .f32 0x00000000#32))) z
      (mulf (broadcast s (Scalar.ofBits (F := Ideal) .f32 0x3CA3D70A#32)) z) i = leaky (z i) := rfl

/-- A product of narrowed operands into the zero splat, at (r, c): Σ_i x(r, i) · W(i, c) (narrowing is the identity). -/
theorem k_dense {m k n : ℕ} (w : DotDims.WF ⟨2, ![m, k]⟩ ⟨2, ![k, n]⟩ ⟨2, ![m, n]⟩ [1] [0] [0] [1] [] [])
    (x : FVec Ideal ⟨2, ![m, k]⟩ .f32) (W : FVec Ideal ⟨2, ![k, n]⟩ .f32) (hlt : FTy.bits .bf16 < FTy.bits .f32)
    (r : Fin m) (c : Fin n) :
    matmul (⟨[1], [0], [0], [1], [], [], w⟩ : DotDims _ _ _) none (truncf .bf16 x hlt) (truncf .bf16 W hlt)
        (constant (F := Ideal) ⟨2, ![m, n]⟩ .f32 0x00000000#32) (ix2 r c)
      = dense (fun i => x (ix2 r i)) (fun i c => W (ix2 i c)) c :=
  matmul_plain_zero_apply w none (truncf .bf16 x hlt) (truncf .bf16 W hlt) r c

/-- The body at (p, q): the third product of row p. -/
theorem k3_pay2_apply (v0 : Vec Ideal Cert.KernelIdeal.S5000x16 .f32) (v2 : Vec Ideal Cert.KernelIdeal.S1x16 .f32)
    (v7 : Vec Ideal Cert.KernelIdeal.S16x64 .f32) (v10 : Vec Ideal Cert.KernelIdeal.S1x64 .f32)
    (v20 : Vec Ideal Cert.KernelIdeal.S64x16 .f32) (v23 : Vec Ideal Cert.KernelIdeal.S1x16 .f32)
    (v33 : Vec Ideal Cert.KernelIdeal.S16x10 .f32) (p : Fin 5000) (q : Fin 10) :
    Cert.KernelIdeal.Gen.k3_pay2 (F := Ideal) v0 v2 v7 v10 v20 v23 v33 (ix2 p q)
      = rowPre3 (fun i => v0 (ix2 p i)) (fun i => v2 (ix2 (0 : Fin 1) i)) (fun i j => v7 (ix2 i j))
          (fun j => v10 (ix2 (0 : Fin 1) j)) (fun j k => v20 (ix2 j k)) (fun k => v23 (ix2 (0 : Fin 1) k))
          (fun k q => v33 (ix2 k q)) q := by
  unfold Cert.KernelIdeal.Gen.k3_pay2 rowPre3
  refine (k_dense _ _ _ _ p q).trans ?_
  refine congrArg (fun f => dense f (fun k q => v33 (ix2 k q)) q) (funext fun k => ?_)
  refine (k_leaky _ _).trans (congrArg leaky ?_)
  refine (k_bias _ _ _ _ p k).trans ?_
  refine congrArg (· + v23 (ix2 (0 : Fin 1) k)) ?_
  refine (k_dense _ _ _ _ p k).trans ?_
  refine congrArg (fun f => dense f (fun j k => v20 (ix2 j k)) k) (funext fun j => ?_)
  refine (k_leaky _ _).trans (congrArg leaky ?_)
  refine (k_bias _ _ _ _ p j).trans ?_
  refine congrArg (· + v10 (ix2 (0 : Fin 1) j)) ?_
  refine (k_dense _ _ _ _ p j).trans ?_
  refine congrArg (fun f => dense f (fun i j => v7 (ix2 i j)) j) (funext fun i => ?_)
  refine (k_bias _ _ _ _ p i).trans ?_
  exact congrArg (· + v2 (ix2 (0 : Fin 1) i)) (shapeCast_self_apply v0 _ _)

end Cert.Gcn.Head

end
-- ==== Proof.HeadRowsR.lean ====
/-
  The reference's perceptron layers read at one index, as the row functions of HeadRowsDefs.

  Each layer of the reference (a host product, a bias vector laid along every row, the leaky rectifier) at (r, c)
  reads only row r of its operand: a product at (r, c) is Σ_i x(r, i) · W(i, c); a vector laid as a row and then
  along every row, read at (r, c), is the vector's entry c; a splat read anywhere is its one value.
-/
import proofs.«139937_j4234837753913_1_alg».proof.Proof.Spec
import proofs.«139937_j4234837753913_1_alg».proof.Proof.DenseRows
import proofs.«139937_j4234837753913_1_alg».proof.Proof.HeadRowsDefs

noncomputable section

namespace Cert.Gcn.Head

open Idealize.ShloMosaic Idealize.ShloMosaic.ValueIdx

-- the side conditions the reference states of its own shapes
variable [Cert.ReferenceIdeal.Facts₀]

/-- x plus a vector laid along every row, at (r, c): x(r, c) + v(c). -/
theorem r_bias {a b : ℕ} (x : FVec Ideal ⟨2, ![a, b]⟩ .f32) (v : FVec Ideal ⟨1, ![b]⟩ .f32)
    (h1 : (⟨1, ![b]⟩ : Shape).BroadcastsInDim ⟨2, ![1, b]⟩ ![1])
    (h2 : (⟨2, ![1, b]⟩ : Shape).BroadcastsInDim ⟨2, ![a, b]⟩ ![0, 1]) (r : Fin a) (c : Fin b) :
    addf x (broadcastInDim ⟨2, ![a, b]⟩ ![0, 1] h2 (broadcastInDim ⟨2, ![1, b]⟩ ![1] h1 v)) (ix2 r c)
      = x (ix2 r c) + v (ix1 c) := by
  show x (ix2 r c) + broadcastInDim ⟨2, ![a, b]⟩ ![0, 1] h2 (broadcastInDim ⟨2, ![1, b]⟩ ![1] h1 v) (ix2 r c) = _
  rw [broadcastInDim_oneRow_apply, Cert.Gcn.Dense.broadcastInDim_vecRow_apply]

/-- The host's product at (r, c): Σ_i x(r, i) · W(i, c). -/
theorem r_dense {m k n : ℕ} (w : DotDims.WF ⟨2, ![m, k]⟩ ⟨2, ![k, n]⟩ ⟨2, ![m, n]⟩ [1] [0] [0] [1] [] [])
    (x : FVec Ideal ⟨2, ![m, k]⟩ .f32) (W : FVec Ideal ⟨2, ![k, n]⟩ .f32) (r : Fin m) (c : Fin n) :
    Host.dotGeneral (⟨[1], [0], [0], [1], [], [], w⟩ : DotDims _ _ _) none x W (ix2 r c)
      = dense (fun i => x (ix2 r i)) (fun i c => W (ix2 i c)) c :=
  Cert.Gcn.Dense.dotGeneral_plain_apply w none x W r c

/-- The reference's rectifier on 16 columns, entry by entry. -/
theorem r_leaky16 (z : FVec Ideal Cert.ReferenceIdeal.S100000x16 .f32) (i : Cert.ReferenceIdeal.S100000x16.Idx) :
    Cert.Gcn.leaky16 z i = leaky (z i) := rfl

/-- The reference's rectifier on 64 columns, entry by entry. -/
theorem r_leaky64 (z : FVec Ideal Cert.ReferenceIdeal.S100000x64 .f32) (i : Cert.ReferenceIdeal.S100000x64.Idx) :
    Cert.Gcn.leaky64 z i = leaky (z i) := rfl

/-- a + b at (r, k). -/
theorem addRow16_apply (a : FVec Ideal Cert.ReferenceIdeal.S100000x16 .f32) (b : FVec Ideal Cert.ReferenceIdeal.S16 .f32)
    (r : Fin 100000) (k : Fin 16) : Cert.Gcn.addRow16 a b (ix2 r k) = a (ix2 r k) + b (ix1 k) :=
  r_bias a b _ _ r k

/-- The first layer before its activation at (r, j). -/
theorem pre1_apply (a : FVec Ideal Cert.ReferenceIdeal.S100000x16 .f32) (b3 : FVec Ideal Cert.ReferenceIdeal.S16 .f32)
    (Wm1 : FVec Ideal Cert.ReferenceIdeal.S16x64 .f32) (bm1 : FVec Ideal Cert.ReferenceIdeal.S64 .f32) (r : Fin 100000) (j : Fin 64) :
    Cert.Gcn.pre1 a b3 Wm1 bm1 (ix2 r j)
      = dense (fun i => a (ix2 r i) + b3 (ix1 i)) (fun i j => Wm1 (ix2 i j)) j + bm1 (ix1 j) := by
  unfold Cert.Gcn.pre1
  refine (r_bias _ bm1 _ _ r j).trans (congrArg (· + bm1 (ix1 j)) ?_)
  refine (r_dense _ _ Wm1 r j).trans ?_
  exact congrArg (fun f => dense f (fun i j => Wm1 (ix2 i j)) j) (funext fun i => addRow16_apply a b3 r i)

/-- The second layer before its activation at (r, k). -/
theorem pre2_apply (h1 : FVec Ideal Cert.ReferenceIdeal.S100000x64 .f32) (Wm2 : FVec Ideal Cert.ReferenceIdeal.S64x16 .f32)
    (bm2 : FVec Ideal Cert.ReferenceIdeal.S16 .f32) (r : Fin 100000) (k : Fin 16) :
    Cert.Gcn.pre2 h1 Wm2 bm2 (ix2 r k)
      = dense (fun j => h1 (ix2 r j)) (fun j k => Wm2 (ix2 j k)) k + bm2 (ix1 k) := by
  unfold Cert.Gcn.pre2
  refine (addRow16_apply _ bm2 r k).trans (congrArg (· + bm2 (ix1 k)) ?_)
  exact r_dense _ h1 Wm2 r k

/-- The reference's third product at (r, q): the third product of row r. -/
theorem pre3_apply (a : FVec Ideal Cert.ReferenceIdeal.S100000x16 .f32) (b3 : FVec Ideal Cert.ReferenceIdeal.S16 .f32)
    (Wm1 : FVec Ideal Cert.ReferenceIdeal.S16x64 .f32) (bm1 : FVec Ideal Cert.ReferenceIdeal.S64 .f32)
    (Wm2 : FVec Ideal Cert.ReferenceIdeal.S64x16 .f32) (bm2 : FVec Ideal Cert.ReferenceIdeal.S16 .f32)
    (Wm3 : FVec Ideal Cert.ReferenceIdeal.S16x10 .f32) (r : Fin 100000) (q : Fin 10) :
    Host.dotGeneral Cert.ReferenceIdeal.dot_S100000x16_S16x10_S100000x10_1_0_0_1_n_n none
        (Cert.Gcn.leaky16 (Cert.Gcn.pre2 (Cert.Gcn.leaky64 (Cert.Gcn.pre1 a b3 Wm1 bm1)) Wm2 bm2)) Wm3 (ix2 r q)
      = rowPre3 (fun i => a (ix2 r i)) (fun i => b3 (ix1 i)) (fun i j => Wm1 (ix2 i j)) (fun j => bm1 (ix1 j))
          (fun j k => Wm2 (ix2 j k)) (fun k => bm2 (ix1 k)) (fun k q => Wm3 (ix2 k q)) q := by
  unfold rowPre3
  refine (r_dense _ _ Wm3 r q).trans ?_
  refine congrArg (fun f => dense f (fun k q => Wm3 (ix2 k q)) q) (funext fun k => ?_)
  refine (r_leaky16 _ _).trans (congrArg leaky ?_)
  refine (pre2_apply _ Wm2 bm2 r k).trans (congrArg (· + bm2 (ix1 k)) ?_)
  refine congrArg (fun f => dense f (fun j k => Wm2 (ix2 j k)) k) (funext fun j => ?_)
  refine (r_leaky64 _ _).trans (congrArg leaky ?_)
  exact pre1_apply a b3 Wm1 bm1 r j

end Cert.Gcn.Head

end
-- ==== Proof.HeadRowsLayers.lean ====
/-
  The perceptron's three layers on one row: the kernel's first body read at an in-block index (p, j) equals the
  reference's third product read at the global index (r, j), when row p of the block holds row r of the array
  and the block's weight and bias operands hold the reference's.

  Both are the same row function (HeadRowsDefs) of their own operands' row — the kernel's by HeadRowsK, the
  reference's by HeadRowsR — and the operands' rows agree entry by entry.
-/
import proofs.«139937_j4234837753913_1_alg».proof.Proof.HeadRowsK
import proofs.«139937_j4234837753913_1_alg».proof.Proof.HeadRowsR

noncomputable section

namespace Cert.Gcn.Head

open Idealize.ShloMosaic Idealize.ShloMosaic.ValueIdx

-- the side conditions the two programs state of their own shapes
variable [Cert.KernelIdeal.Facts₀] [Cert.ReferenceIdeal.Facts₀]

/-- The third product: the kernel's first body at (p, j) is the reference's third product at (r, j). -/
theorem layers_block (a : FVec Ideal Cert.ReferenceIdeal.S100000x16 .f32) (b3 : FVec Ideal Cert.ReferenceIdeal.S16 .f32)
    (Wm1 : FVec Ideal Cert.ReferenceIdeal.S16x64 .f32) (bm1 : FVec Ideal Cert.ReferenceIdeal.S64 .f32)
    (Wm2 : FVec Ideal Cert.ReferenceIdeal.S64x16 .f32) (bm2 : FVec Ideal Cert.ReferenceIdeal.S16 .f32)
    (Wm3 : FVec Ideal Cert.ReferenceIdeal.S16x10 .f32)
    (v0 : Vec Ideal Cert.KernelIdeal.S5000x16 .f32) (v2 : Vec Ideal Cert.KernelIdeal.S1x16 .f32)
    (v7 : Vec Ideal Cert.KernelIdeal.S16x64 .f32) (v10 : Vec Ideal Cert.KernelIdeal.S1x64 .f32)
    (v20 : Vec Ideal Cert.KernelIdeal.S64x16 .f32) (v23 : Vec Ideal Cert.KernelIdeal.S1x16 .f32)
    (v33 : Vec Ideal Cert.KernelIdeal.S16x10 .f32) (r : Fin 100000) (p : Fin 5000)
    (h0 : ∀ k : Fin 16, v0 (ix2 p k) = a (ix2 r k)) (h2 : ∀ k : Fin 16, v2 (ix2 (0 : Fin 1) k) = b3 (ix1 k))
    (h7 : ∀ (k : Fin 16) (j : Fin 64), v7 (ix2 k j) = Wm1 (ix2 k j)) (h10 : ∀ j : Fin 64, v10 (ix2 (0 : Fin 1) j) = bm1 (ix1 j))
    (h20 : ∀ (j : Fin 64) (k : Fin 16), v20 (ix2 j k) = Wm2 (ix2 j k)) (h23 : ∀ k : Fin 16, v23 (ix2 (0 : Fin 1) k) = bm2 (ix1 k))
    (h33 : ∀ (k : Fin 16) (q : Fin 10), v33 (ix2 k q) = Wm3 (ix2 k q)) (j : Fin 10) :
    Cert.KernelIdeal.Gen.k3_pay2 (F := Ideal) v0 v2 v7 v10 v20 v23 v33 (ix2 p j)
      = Host.dotGeneral Cert.ReferenceIdeal.dot_S100000x16_S16x10_S100000x10_1_0_0_1_n_n none
          (Cert.Gcn.leaky16 (Cert.Gcn.pre2 (Cert.Gcn.leaky64 (Cert.Gcn.pre1 a b3 Wm1 bm1)) Wm2 bm2)) Wm3 (ix2 r j) := by
  refine (k3_pay2_apply v0 v2 v7 v10 v20 v23 v33 p j).trans ?_
  refine Eq.trans ?_ (pre3_apply a b3 Wm1 bm1 Wm2 bm2 Wm3 r j).symm
  -- the two rows of operands agree entry by entry
  rw [show (fun i => v0 (ix2 p i)) = (fun i => a (ix2 r i)) from funext h0,
    show (fun i => v2 (ix2 (0 : Fin 1) i)) = (fun i => b3 (ix1 i)) from funext h2,
    show (fun i j => v7 (ix2 i j)) = (fun i j => Wm1 (ix2 i j)) from funext fun i => funext (h7 i),
    show (fun j => v10 (ix2 (0 : Fin 1) j)) = (fun j => bm1 (ix1 j)) from funext h10,
    show (fun j k => v20 (ix2 j k)) = (fun j k => Wm2 (ix2 j k)) from funext fun j => funext (h20 j),
    show (fun k => v23 (ix2 (0 : Fin 1) k)) = (fun k => bm2 (ix1 k)) from funext h23,
    show (fun k q => v33 (ix2 k q)) = (fun k q => Wm3 (ix2 k q)) from funext fun k => funext (h33 k)]

end Cert.Gcn.Head

end
-- ==== Proof.LibKeepdims.lean ====
/-
  Rank-2 vectors with a kept column, read at an index: the cast of a length-`a` vector to a column [a, 1], the
  broadcast of a column [a, 1] along the rows of [a, b], and the sum and the maximum of each row of an [a, b]
  vector over the extended reals.  Each says which ONE operand entry (or which row of entries) a result entry reads.
-/
import Idealize.ShloMosaic.Lib.Pipeline.Value
import Idealize.ShloMosaic.Lib.ValueIdx
import Idealize.ShloMosaic.PureOps.Ideal.Laws

noncomputable section

namespace Cert.LibKeepdims

open Idealize.ShloMosaic Idealize.ShloMosaic.ValueIdx

variable {α : Type} {a b : ℕ}

/-- Entry `(n, 0)` of the column cast of a vector is the vector's entry `n`: both sit at row-major position `n`. -/
theorem shapeCast_col_apply (x : (⟨1, ![a]⟩ : Shape).Idx → α) (h : (⟨1, ![a]⟩ : Shape).ShapeCasts ⟨2, ![a, 1]⟩) (n : Fin a) :
    shapeCast ⟨2, ![a, 1]⟩ x h (ix2 n (0 : Fin 1)) = x (ix1 n) :=
  shapeCast_apply x h (ix2 n (0 : Fin 1)) (ix1 n) (by
    rw [Shape.rowMajor_val_one, Shape.rowMajor_val_two]
    show n.val = n.val * 1 + 0
    omega)

/-- Entry `(n, d)` of a column broadcast along the rows is the column's entry `(n, 0)`. -/
theorem broadcastTo_col_apply (x : (⟨2, ![a, 1]⟩ : Shape).Idx → α) (h : (⟨2, ![a, 1]⟩ : Shape).Broadcasts ⟨2, ![a, b]⟩)
    (n : Fin a) (d : Fin b) : broadcastTo ⟨2, ![a, b]⟩ x h (ix2 n d) = x (ix2 n (0 : Fin 1)) :=
  broadcastTo_apply x h (ix2 n d) (ix2 n (0 : Fin 1)) (fun k => by
    match k with
    | ⟨0, _⟩ =>
      show n.val = if a = 1 then 0 else n.val
      have := n.isLt
      split <;> omega
    | ⟨1, _⟩ => rfl)

/-- The reduced index `n` of a row reduction with the column `k` put back is `(n, k)`. -/
theorem lift_row (h : (⟨2, ![a, b]⟩ : Shape).Reduces [1] ⟨1, ![a]⟩) (n : Fin a) (k : Fin b) :
    h.lift (ix1 n) k = ix2 n k := by
  funext c; apply Fin.ext
  fin_cases c <;> rfl

variable {φ : FTy}

/-- A row sum at row `n` is the sum of that row's entries. -/
theorem rowsum_apply (src : FVec Ideal ⟨2, ![a, b]⟩ φ) (acc : BitVec φ.bits) (h : (⟨2, ![a, b]⟩ : Shape).Reduces [1] ⟨1, ![a]⟩)
    (hφ : FKind.Formats φ) (hacc : acc = FKind.add.neutral φ hφ) (n : Fin a) :
    multiReduction .add [1] ⟨1, ![a]⟩ src acc h hφ hacc (ix1 n) = ∑ k : Fin b, src (ix2 n k) :=
  (Ideal.multiReduction_add_single src acc h hφ hacc (ix1 n)).trans
    (Finset.sum_congr rfl fun k _ => congrArg src (lift_row h n k))

/-- A row maximum at row `n` is the fold of `max` over that row's entries from the accumulator's value. -/
theorem rowmax_apply (src : FVec Ideal ⟨2, ![a, b]⟩ φ) (acc : BitVec φ.bits) (h : (⟨2, ![a, b]⟩ : Shape).Reduces [1] ⟨1, ![a]⟩)
    (hφ : FKind.Formats φ) (hacc : acc = FKind.maximumf.neutral φ hφ) (n : Fin a) :
    multiReduction .maximumf [1] ⟨1, ![a]⟩ src acc h hφ hacc (ix1 n)
      = (Finset.univ : Finset (Fin b)).fold max (Ideal.ofBits φ acc) (fun k => src (ix2 n k)) :=
  (Ideal.multiReduction_maximumf_single src acc h hφ hacc (ix1 n)).trans
    (congrArg (fun f => (Finset.univ : Finset (Fin b)).fold max (Ideal.ofBits φ acc) f)
      (funext fun k => congrArg src (lift_row h n k)))

end Cert.LibKeepdims

end
-- ==== Proof.HeadRowsSoftmax.lean ====
/-
  The last step of the head on one row: the bias and the row-wise log-softmax.

  Over the extended reals the log-softmax of a row y of ten entries is y − M − log Σ exp (y − M), M the fold of
  `max` over the row from −∞.  The kernel's second body read at (p, q) is that function of row p of its operand
  plus the bias row: a row maximum or row sum kept as a column and broadcast along the rows, read at (p, c), is the
  maximum or sum of row p.  The reference's log-softmax read at (r, q) is the same function of row r: its row
  maximum is the host's reduce from −∞ (a fold of `max` over the row) joined once more with −∞, and
  max(−∞, m) = m; its row sum starts from 0, and 0 + s = s.  Every step is stated for any number of rows, so that
  no step can be evaluated at the arrays' full extent.  Rows that agree entry by entry then give equal results.
-/
import proofs.«139937_j4234837753913_1_alg».proof.Proof.HeadRowsK
import proofs.«139937_j4234837753913_1_alg».proof.Proof.HeadRowsR
import proofs.«139937_j4234837753913_1_alg».proof.Proof.LibKeepdims
import Idealize.ShloMosaic.PureOps.Reduce

noncomputable section

namespace Cert.Gcn.Head

open Idealize.ShloMosaic Idealize.ShloMosaic.ValueIdx Cert.KernelBody Cert.LibKeepdims

-- the side conditions the two programs state of their own shapes
variable [Cert.KernelIdeal.Facts₀] [Cert.ReferenceIdeal.Facts₀]

/-- The maximum of a row of ten, folded from −∞. -/
def rowMax (y : Fin 10 → EReal) : EReal :=
  (Finset.univ : Finset (Fin 10)).fold max (Ideal.ofBits .f32 0xFF800000#32) y

/-- y − max y − log Σ exp (y − max y), at entry q. -/
def rowLogSoftmax (y : Fin 10 → EReal) (q : Fin 10) : EReal :=
  (y q - rowMax y) - Ideal.log (∑ k : Fin 10, Ideal.exp (y k - rowMax y))

/-- The pattern 0xFF800000 denotes −∞. -/
theorem ofBits_negInf : Ideal.ofBits .f32 0xFF800000#32 = (⊥ : EReal) := by
  simp [Ideal.ofBits, Ideal.ieee]

/-- max(−∞, m) = m. -/
theorem max_negInf (m : EReal) : max (Ideal.ofBits .f32 0xFF800000#32) m = m := by
  rw [ofBits_negInf]; exact max_bot_left m

/-- A vector laid as a column, read at (r, 0): the vector's entry r. -/
theorem bid_vecCol_apply {α : Type} {a : ℕ} (h : (⟨1, ![a]⟩ : Shape).BroadcastsInDim ⟨2, ![a, 1]⟩ ![0])
    (x : (⟨1, ![a]⟩ : Shape).Idx → α) (r : Fin a) :
    broadcastInDim ⟨2, ![a, 1]⟩ ![0] h x (ix2 r (0 : Fin 1)) = x (ix1 r) := by
  refine broadcastInDim_apply ![0] h x (ix2 r (0 : Fin 1)) (ix1 r) ?_
  intro c
  match c with
  | ⟨0, _⟩ =>
    show r.val = if a = 1 then 0 else r.val
    have := r.isLt
    split <;> omega

/-- A column laid along every column of the rows, read at (r, c): the column's entry (r, 0). -/
theorem bid_col_apply {α : Type} {a b : ℕ} (h : (⟨2, ![a, 1]⟩ : Shape).BroadcastsInDim ⟨2, ![a, b]⟩ ![0, 1])
    (y : (⟨2, ![a, 1]⟩ : Shape).Idx → α) (r : Fin a) (c : Fin b) :
    broadcastInDim ⟨2, ![a, b]⟩ ![0, 1] h y (ix2 r c) = y (ix2 r (0 : Fin 1)) := by
  refine broadcastInDim_apply ![0, 1] h y (ix2 r c) (ix2 r (0 : Fin 1)) ?_
  intro k
  match k with
  | ⟨0, _⟩ =>
    show r.val = if a = 1 then 0 else r.val
    have := r.isLt
    split <;> omega
  | ⟨1, _⟩ =>
    show (0 : ℕ) = if (1 : ℕ) = 1 then 0 else c.val
    simp

/-- The reference's row maximum (the host's reduce from −∞, then the maximum with the −∞ splat) at r. -/
theorem r_rowmax {a : ℕ} (z : FVec Ideal ⟨2, ![a, 10]⟩ .f32)
    (hb : (⟨0, ![]⟩ : Shape).BroadcastsInDim ⟨1, ![a]⟩ (![] : Fin 0 → Fin 1))
    (h' : (⟨2, ![a, 10]⟩ : Shape).ReducesTo [1] ⟨1, ![a]⟩) (h : (⟨2, ![a, 10]⟩ : Shape).Reduces [1] ⟨1, ![a]⟩)
    (hu : 0 < (⟨0, ![]⟩ : Shape).numel) (r : Fin a) :
    maximumf (broadcastInDim ⟨1, ![a]⟩ ![] hb (constant (F := Ideal) ⟨0, ![]⟩ .f32 0xFF800000#32))
        (Host.reduce FloatOps.maximumf z (constant (F := Ideal) ⟨0, ![]⟩ .f32 0xFF800000#32) h' hu) (ix1 r)
      = rowMax (fun k => z (ix2 r k)) := by
  show max (Ideal.ofBits .f32 0xFF800000#32)
      (Host.reduce FloatOps.maximumf z (constant (F := Ideal) ⟨0, ![]⟩ .f32 0xFF800000#32) h' hu (ix1 r)) = _
  rw [max_negInf, Host.reduce_eq_fold_single FloatOps.maximumf z _ h' h hu]
  exact congrArg (fun f => Finset.fold max (Ideal.ofBits .f32 0xFF800000#32) f (Finset.univ : Finset (Fin 10)))
    (funext fun k => congrArg z (Cert.LibKeepdims.lift_row h r k))

/-- The reference's row sum from 0 at r. -/
theorem r_rowsum {a : ℕ} (x : FVec Ideal ⟨2, ![a, 10]⟩ .f32)
    (h' : (⟨2, ![a, 10]⟩ : Shape).ReducesTo [1] ⟨1, ![a]⟩) (h : (⟨2, ![a, 10]⟩ : Shape).Reduces [1] ⟨1, ![a]⟩)
    (hu : 0 < (⟨0, ![]⟩ : Shape).numel) (r : Fin a) :
    Host.reduceAdd (F := Ideal) x (constant (F := Ideal) ⟨0, ![]⟩ .f32 0x00000000#32) h' hu (ix1 r)
      = ∑ k : Fin 10, x (ix2 r k) := by
  show Ideal.hostReduceAdd h' x (Ideal.ofBits .f32 0x00000000#32) (ix1 r) = _
  rw [Ideal.hostReduceAdd_single h' h, Ideal.ofBits_zero_f32, zero_add]
  exact Finset.sum_congr rfl fun k _ => congrArg x (Cert.LibKeepdims.lift_row h r k)

/-- z minus its row maximum (kept as a column, laid along the rows) at (r, c). -/
theorem r_shift {a : ℕ} (z : FVec Ideal ⟨2, ![a, 10]⟩ .f32)
    (hb : (⟨0, ![]⟩ : Shape).BroadcastsInDim ⟨1, ![a]⟩ (![] : Fin 0 → Fin 1))
    (h1 : (⟨1, ![a]⟩ : Shape).BroadcastsInDim ⟨2, ![a, 1]⟩ ![0])
    (h2 : (⟨2, ![a, 1]⟩ : Shape).BroadcastsInDim ⟨2, ![a, 10]⟩ ![0, 1])
    (h' : (⟨2, ![a, 10]⟩ : Shape).ReducesTo [1] ⟨1, ![a]⟩) (h : (⟨2, ![a, 10]⟩ : Shape).Reduces [1] ⟨1, ![a]⟩)
    (hu : 0 < (⟨0, ![]⟩ : Shape).numel) (r : Fin a) (c : Fin 10) :
    subf z (broadcastInDim ⟨2, ![a, 10]⟩ ![0, 1] h2 (broadcastInDim ⟨2, ![a, 1]⟩ ![0] h1
        (maximumf (broadcastInDim ⟨1, ![a]⟩ ![] hb (constant (F := Ideal) ⟨0, ![]⟩ .f32 0xFF800000#32))
          (Host.reduce FloatOps.maximumf z (constant (F := Ideal) ⟨0, ![]⟩ .f32 0xFF800000#32) h' hu)))) (ix2 r c)
      = z (ix2 r c) - rowMax (fun k => z (ix2 r k)) := by
  refine (subf_apply _ _ _).trans (congrArg (z (ix2 r c) - ·) ?_)
  exact (bid_col_apply h2 _ r c).trans ((bid_vecCol_apply h1 _ r).trans (r_rowmax z hb h' h hu r))

/-- The logarithm of the row sum of exponentials (kept as a column, laid along the rows) at (r, c). -/
theorem r_lse {a : ℕ} (s : FVec Ideal ⟨2, ![a, 10]⟩ .f32)
    (h1 : (⟨1, ![a]⟩ : Shape).BroadcastsInDim ⟨2, ![a, 1]⟩ ![0])
    (h2 : (⟨2, ![a, 1]⟩ : Shape).BroadcastsInDim ⟨2, ![a, 10]⟩ ![0, 1])
    (h' : (⟨2, ![a, 10]⟩ : Shape).ReducesTo [1] ⟨1, ![a]⟩) (h : (⟨2, ![a, 10]⟩ : Shape).Reduces [1] ⟨1, ![a]⟩)
    (hu : 0 < (⟨0, ![]⟩ : Shape).numel) (r : Fin a) (c : Fin 10) :
    broadcastInDim ⟨2, ![a, 10]⟩ ![0, 1] h2 (Host.log (broadcastInDim ⟨2, ![a, 1]⟩ ![0] h1
        (Host.reduceAdd (F := Ideal) (Host.exp s) (constant (F := Ideal) ⟨0, ![]⟩ .f32 0x00000000#32) h' hu))) (ix2 r c)
      = Ideal.log (∑ k : Fin 10, Ideal.exp (s (ix2 r k))) :=
  (bid_col_apply h2 _ r c).trans
    (congrArg Ideal.log ((bid_vecCol_apply h1 _ r).trans (r_rowsum (Host.exp s) h' h hu r)))

/-- The reference's log-softmax at (r, q): the row function of row r. -/
theorem logSoftmax_apply (z : FVec Ideal Cert.ReferenceIdeal.S100000x10 .f32) (r : Fin 100000) (q : Fin 10) :
    Cert.Gcn.logSoftmax z (ix2 r q) = rowLogSoftmax (fun k => z (ix2 r k)) q := by
  have hR : Cert.ReferenceIdeal.S100000x10.Reduces [1] Cert.ReferenceIdeal.S100000 := by decide
  unfold Cert.Gcn.logSoftmax rowLogSoftmax
  refine (subf_apply _ _ _).trans ?_
  refine congrArg₂ (· - ·) (r_shift z _ _ _ _ hR _ r q) ((r_lse _ _ _ _ hR _ r q).trans ?_)
  exact congrArg Ideal.log (Finset.sum_congr rfl fun k _ => congrArg Ideal.exp (r_shift z _ _ _ _ hR _ r k))

/-- A row maximum kept as a column and broadcast along the rows, at (p, c): the maximum of row p. -/
theorem k_rowmax {a : ℕ} (y : FVec Ideal ⟨2, ![a, 10]⟩ .f32) (h : (⟨2, ![a, 10]⟩ : Shape).Reduces [1] ⟨1, ![a]⟩)
    (hφ : FKind.Formats .f32) (hacc : (0xFF800000#32 : BitVec 32) = FKind.maximumf.neutral .f32 hφ)
    (hc : (⟨1, ![a]⟩ : Shape).ShapeCasts ⟨2, ![a, 1]⟩) (hb : (⟨2, ![a, 1]⟩ : Shape).Broadcasts ⟨2, ![a, 10]⟩)
    (p : Fin a) (c : Fin 10) :
    broadcastTo ⟨2, ![a, 10]⟩ (shapeCast ⟨2, ![a, 1]⟩ (multiReduction .maximumf [1] ⟨1, ![a]⟩ y 0xFF800000#32 h hφ hacc) hc) hb (ix2 p c)
      = rowMax (fun k => y (ix2 p k)) :=
  (broadcastTo_col_apply _ hb p c).trans ((shapeCast_col_apply _ hc p).trans (rowmax_apply y _ h hφ hacc p))

/-- The logarithm of a row sum of exponentials kept as a column and broadcast along the rows, at (p, c). -/
theorem k_lse {a : ℕ} (s : FVec Ideal ⟨2, ![a, 10]⟩ .f32) (h : (⟨2, ![a, 10]⟩ : Shape).Reduces [1] ⟨1, ![a]⟩)
    (hφ : FKind.Formats .f32) (hacc : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 10]⟩)
    (p : Fin a) (c : Fin 10) :
    broadcastTo ⟨2, ![a, 10]⟩ (log (shapeCast ⟨2, ![a, 1]⟩ (multiReduction .add [1] ⟨1, ![a]⟩ (exp s) 0x00000000#32 h hφ hacc) hc)) hb (ix2 p c)
      = Ideal.log (∑ k : Fin 10, Ideal.exp (s (ix2 p k))) :=
  (broadcastTo_col_apply _ hb p c).trans
    (congrArg Ideal.log ((shapeCast_col_apply _ hc p).trans (rowsum_apply (exp s) _ h hφ hacc p)))

/-- The log-softmax chain on a vector y, at (p, q), is the row function of row p of y. -/
theorem k_logSoftmax {a : ℕ} (y : FVec Ideal ⟨2, ![a, 10]⟩ .f32) (h : (⟨2, ![a, 10]⟩ : Shape).Reduces [1] ⟨1, ![a]⟩)
    (hφ : FKind.Formats .f32) (hm : (0xFF800000#32 : BitVec 32) = FKind.maximumf.neutral .f32 hφ)
    (hs : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, 10]⟩)
    (Y : Fin 10 → EReal) (p : Fin a) (hy : ∀ k, y (ix2 p k) = Y k) (q : Fin 10) :
    subf (subf y (broadcastTo ⟨2, ![a, 10]⟩ (shapeCast ⟨2, ![a, 1]⟩ (multiReduction .maximumf [1] ⟨1, ![a]⟩ y 0xFF800000#32 h hφ hm) hc) hb))
        (broadcastTo ⟨2, ![a, 10]⟩ (log (shapeCast ⟨2, ![a, 1]⟩ (multiReduction .add [1] ⟨1, ![a]⟩
          (exp (subf y (broadcastTo ⟨2, ![a, 10]⟩ (shapeCast ⟨2, ![a, 1]⟩ (multiReduction .maximumf [1] ⟨1, ![a]⟩ y 0xFF800000#32 h hφ hm) hc) hb)))
          0x00000000#32 h hφ hs) hc)) hb) (ix2 p q)
      = rowLogSoftmax Y q := by
  have hY : (fun k => y (ix2 p k)) = Y := funext hy
  have hsh : ∀ c : Fin 10, subf y (broadcastTo ⟨2, ![a, 10]⟩ (shapeCast ⟨2, ![a, 1]⟩
      (multiReduction .maximumf [1] ⟨1, ![a]⟩ y 0xFF800000#32 h hφ hm) hc) hb) (ix2 p c) = Y c - rowMax Y := fun c =>
    (subf_apply _ _ _).trans (by rw [k_rowmax, hY, hy c])
  refine (subf_apply _ _ _).trans ?_
  unfold rowLogSoftmax
  refine congrArg₂ (· - ·) (hsh q) ((k_lse _ h hφ hs hc hb p q).trans ?_)
  exact congrArg Ideal.log (Finset.sum_congr rfl fun k _ => congrArg Ideal.exp (hsh k))

/-- The second body at (p, q): the log-softmax of row p of its operand plus the bias row. -/
theorem k3_pay1_apply (z : FVec Ideal Cert.KernelIdeal.S5000x10 .f32) (v36 : Vec Ideal Cert.KernelIdeal.S1x10 .f32)
    (p : Fin 5000) (q : Fin 10) :
    Cert.KernelIdeal.Gen.k3_pay1 (F := Ideal) z v36 (ix2 p q)
      = rowLogSoftmax (fun j => z (ix2 p j) + v36 (ix2 (0 : Fin 1) j)) q := by
  unfold Cert.KernelIdeal.Gen.k3_pay1
  exact k_logSoftmax _ _ _ _ _ _ _ _ p (fun k => k_bias z v36 _ _ p k) q

/-- The bias and the log-softmax of rows that agree give entries that agree. -/
theorem logSoftmax_block (Zr : FVec Ideal Cert.ReferenceIdeal.S100000x10 .f32) (bm3 : FVec Ideal Cert.ReferenceIdeal.S10 .f32)
    (Zk : FVec Ideal Cert.KernelIdeal.S5000x10 .f32) (v36 : Vec Ideal Cert.KernelIdeal.S1x10 .f32) (r : Fin 100000) (p : Fin 5000)
    (hZ : ∀ j : Fin 10, Zk (ix2 p j) = Zr (ix2 r j)) (h36 : ∀ j : Fin 10, v36 (ix2 (0 : Fin 1) j) = bm3 (ix1 j)) (q : Fin 10) :
    Cert.KernelIdeal.Gen.k3_pay1 (F := Ideal) Zk v36 (ix2 p q)
      = Cert.Gcn.logSoftmax (addf Zr (broadcastInDim Cert.ReferenceIdeal.S100000x10 ![0, 1] Cert.ReferenceIdeal.Facts₀.bcast_S1x10_S100000x10_0_1
          (broadcastInDim Cert.ReferenceIdeal.S1x10 ![1] Cert.ReferenceIdeal.Facts₀.bcast_S10_S1x10_1 bm3))) (ix2 r q) := by
  refine (k3_pay1_apply Zk v36 p q).trans ?_
  refine Eq.trans ?_ (logSoftmax_apply _ r q).symm
  refine congrArg (fun f => rowLogSoftmax f q) (funext fun j => ?_)
  refine Eq.trans ?_ (r_bias Zr bm3 _ _ r j).symm
  rw [hZ j, h36 j]

end Cert.Gcn.Head

end
-- ==== Proof.HeadRows.lean ====
/-
  The perceptron head on one row: the kernel's two bodies composed, read at an in-block index (p, q), equal the
  reference's head read at the global index (r, q), when row p of the block holds row r of the array and the
  block's weight and bias operands hold the reference's.

  The head is the log-softmax of the third product plus its bias; the third products agree (HeadRowsLayers), and
  the bias and the log-softmax of rows that agree give rows that agree (HeadRowsSoftmax).
-/
import proofs.«139937_j4234837753913_1_alg».proof.Proof.HeadRowsLayers
import proofs.«139937_j4234837753913_1_alg».proof.Proof.HeadRowsSoftmax

noncomputable section

namespace Cert.Gcn.Head

open Idealize.ShloMosaic Idealize.ShloMosaic.ValueIdx

-- the side conditions the two programs state of their own shapes
variable [Cert.KernelIdeal.Facts₀] [Cert.ReferenceIdeal.Facts₀]

/-- The head: the kernel's second body of its first, at (p, q), is the reference's head at (r, q). -/
theorem head_block (a : FVec Ideal Cert.ReferenceIdeal.S100000x16 .f32) (b3 : FVec Ideal Cert.ReferenceIdeal.S16 .f32)
    (Wm1 : FVec Ideal Cert.ReferenceIdeal.S16x64 .f32) (bm1 : FVec Ideal Cert.ReferenceIdeal.S64 .f32)
    (Wm2 : FVec Ideal Cert.ReferenceIdeal.S64x16 .f32) (bm2 : FVec Ideal Cert.ReferenceIdeal.S16 .f32)
    (Wm3 : FVec Ideal Cert.ReferenceIdeal.S16x10 .f32) (bm3 : FVec Ideal Cert.ReferenceIdeal.S10 .f32)
    (v0 : Vec Ideal Cert.KernelIdeal.S5000x16 .f32) (v2 : Vec Ideal Cert.KernelIdeal.S1x16 .f32)
    (v7 : Vec Ideal Cert.KernelIdeal.S16x64 .f32) (v10 : Vec Ideal Cert.KernelIdeal.S1x64 .f32)
    (v20 : Vec Ideal Cert.KernelIdeal.S64x16 .f32) (v23 : Vec Ideal Cert.KernelIdeal.S1x16 .f32)
    (v33 : Vec Ideal Cert.KernelIdeal.S16x10 .f32) (v36 : Vec Ideal Cert.KernelIdeal.S1x10 .f32)
    (r : Fin 100000) (p : Fin 5000)
    (h0 : ∀ k : Fin 16, v0 (ix2 p k) = a (ix2 r k)) (h2 : ∀ k : Fin 16, v2 (ix2 (0 : Fin 1) k) = b3 (ix1 k))
    (h7 : ∀ (k : Fin 16) (j : Fin 64), v7 (ix2 k j) = Wm1 (ix2 k j)) (h10 : ∀ j : Fin 64, v10 (ix2 (0 : Fin 1) j) = bm1 (ix1 j))
    (h20 : ∀ (j : Fin 64) (k : Fin 16), v20 (ix2 j k) = Wm2 (ix2 j k)) (h23 : ∀ k : Fin 16, v23 (ix2 (0 : Fin 1) k) = bm2 (ix1 k))
    (h33 : ∀ (k : Fin 16) (q : Fin 10), v33 (ix2 k q) = Wm3 (ix2 k q)) (h36 : ∀ q : Fin 10, v36 (ix2 (0 : Fin 1) q) = bm3 (ix1 q))
    (q : Fin 10) :
    Cert.KernelIdeal.Gen.k3_pay1 (F := Ideal) (Cert.KernelIdeal.Gen.k3_pay2 (F := Ideal) v0 v2 v7 v10 v20 v23 v33) v36 (ix2 p q)
      = Cert.Gcn.head a b3 Wm1 bm1 Wm2 bm2 Wm3 bm3 (ix2 r q) := by
  unfold Cert.Gcn.head Cert.Gcn.logits
  exact logSoftmax_block
    (Host.dotGeneral Cert.ReferenceIdeal.dot_S100000x16_S16x10_S100000x10_1_0_0_1_n_n none
      (Cert.Gcn.leaky16 (Cert.Gcn.pre2 (Cert.Gcn.leaky64 (Cert.Gcn.pre1 a b3 Wm1 bm1)) Wm2 bm2)) Wm3)
    bm3 (Cert.KernelIdeal.Gen.k3_pay2 (F := Ideal) v0 v2 v7 v10 v20 v23 v33) v36 r p
    (fun j => layers_block a b3 Wm1 bm1 Wm2 bm2 Wm3 v0 v2 v7 v10 v20 v23 v33 r p h0 h2 h7 h10 h20 h23 h33 j) h36 q

end Cert.Gcn.Head

end
-- ==== Proof.Region3.lean ====
/-
  The fourth kernel region: the three-layer perceptron (leaky-relu 0.02) and the row-wise log-softmax of the third aggregation plus its bias, row block by row block.
  The region's grid has 20 points; point t stages row block t (5000 rows) of its first operand and the whole of every
  other operand, and writes row block t of its result.  So the 20 written blocks tile the result array, and the array
  ends holding ONE function of the arrays the region found: the reference's own dense step.
-/
import proofs.«139937_j4234837753913_1_alg».proof.Proof.Gen.KernelIdeal.Frame
import proofs.«139937_j4234837753913_1_alg».proof.Proof.Gen.ReferenceIdeal
import proofs.«139937_j4234837753913_1_alg».proof.Proof.Spec
import proofs.«139937_j4234837753913_1_alg».proof.Proof.HeadRows
import Idealize.ShloMosaic.Lib.Pipeline.Value
import Idealize.ShloMosaic.Lib.ValueIdx

set_option maxRecDepth 16384

noncomputable section

namespace Cert.KernelIdeal.GcnValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen

-- the TensorCore's buffer contents when the region is entered
variable (V : (c : Dev nD) → (b : Ref sig .tc) → Buf (Elt Ideal) ((c : Thread nD τ).loc b))

private theorem hz : (![0, 0] : Fin 2 → Nat) = fun _ => 0 := funext fun a => by fin_cases a <;> rfl

/-- The printed index maps over the grid: point t reads row block t of the aggregated features and the whole of every
    weight matrix and bias row, and writes row block t of the result. -/
theorem idx_facts3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = 0
    ∧ win3_6.index t (1 : Fin 2) = 0
    ∧ win3_7.index t (0 : Fin 2) = 0
    ∧ win3_7.index t (1 : Fin 2) = 0
    ∧ win3_8.index t (0 : Fin 2) = t.val
    ∧ win3_8.index t (1 : Fin 2) = 0 :=
  (by decide +kernel : ∀ t : Fin grid3.N, _)

/-- The body's result at an index of point t's block is the perceptron and log-softmax at that index of the arrays as
    the region finds them, the four bias vectors being those whose [1,n] rows the region finds in its windows. -/
theorem point3 (c : Dev nD) (t : Fin cfg3.N) (b3 : FVec Ideal Cert.ReferenceIdeal.S16 .f32) (bm1 : FVec Ideal Cert.ReferenceIdeal.S64 .f32) (bm2 : FVec Ideal Cert.ReferenceIdeal.S16 .f32) (bm3 : FVec Ideal Cert.ReferenceIdeal.S10 .f32)
    (hb3 : ∀ k : Fin 16, V c main_v74 (ix2 (0 : Fin 1) k) = b3 (ix1 k)) (hbm1 : ∀ k : Fin 64, V c main_v75 (ix2 (0 : Fin 1) k) = bm1 (ix1 k))
    (hbm2 : ∀ k : Fin 16, V c main_v76 (ix2 (0 : Fin 1) k) = bm2 (ix1 k)) (hbm3 : ∀ k : Fin 10, V c main_v77 (ix2 (0 : Fin 1) k) = bm3 (ix1 k)) (j : S5000x10.Idx) :
    k3_pay1 (k3_pay2 (iblk3 V c 0 t) (iblk3 V c 1 t) (iblk3 V c 2 t) (iblk3 V c 3 t) (iblk3 V c 4 t) (iblk3 V c 5 t) (iblk3 V c 6 t)) (iblk3 V c 7 t) j
      = Cert.Gcn.head (V c main_v73) b3 (V c main_arg8) bm1 (V c main_arg10) bm2 (V c main_arg12) bm3 (((cfg3.win 8).blk t).view.emb j) := by
  obtain ⟨e0, e1, e2, e3, e4, e5, e6, e7, e8, e9, e10, e11, e12, e13, e14, e15, e16, e17⟩ := idx_facts3 t
  have ht : t.val < 20 := t.isLt
  obtain ⟨p, q, rfl⟩ : ∃ (p : Fin 5000) (q : Fin 10), j = ix2 p q := ⟨j 0, j 1, eq_ix2 j⟩
  have hr : 5000 * t.val + p.val < 100000 := by have := p.isLt; omega
  refine (Cert.Gcn.Head.head_block (V c main_v73) b3 (V c main_arg8) bm1 (V c main_arg10) bm2 (V c main_arg12) bm3 (iblk3 V c 0 t) (iblk3 V c 1 t) (iblk3 V c 2 t) (iblk3 V c 3 t) (iblk3 V c 4 t) (iblk3 V c 5 t) (iblk3 V c 6 t) (iblk3 V c 7 t) ⟨5000 * t.val + p.val, hr⟩ p ?_ ?_ ?_ ?_ ?_ ?_ ?_ ?_ q).trans ?_
  · intro k
    show V c main_v73 (((cfg3.win 0).blk t).view.emb (ix2 p k)) = V c main_v73 (ix2 ⟨5000 * t.val + p.val, hr⟩ k)
    refine congrArg (V c main_v73) ?_
    funext a; apply Fin.ext
    match a with
    | ⟨0, _⟩ => show win3_0.index t (0 : Fin 2) * 5000 + 1 * p.val = 5000 * t.val + p.val; omega
    | ⟨1, _⟩ => show win3_0.index t (1 : Fin 2) * 16 + 1 * k.val = k.val; omega
  · intro k
    refine Eq.trans ?_ (hb3 k)
    show V c main_v74 (((cfg3.win 1).blk t).view.emb (ix2 (0 : Fin 1) k)) = V c main_v74 (ix2 (0 : Fin 1) k)
    refine congrArg (V c main_v74) ?_
    funext a; apply Fin.ext
    match a with
    | ⟨0, _⟩ => show win3_1.index t (0 : Fin 2) * 1 + 1 * 0 = 0; omega
    | ⟨1, _⟩ => show win3_1.index t (1 : Fin 2) * 16 + 1 * k.val = k.val; omega
  · intro k j'
    show V c main_arg8 (((cfg3.win 2).blk t).view.emb (ix2 k j')) = V c main_arg8 (ix2 k j')
    refine congrArg (V c main_arg8) ?_
    funext a; apply Fin.ext
    match a with
    | ⟨0, _⟩ => show win3_2.index t (0 : Fin 2) * 16 + 1 * k.val = k.val; omega
    | ⟨1, _⟩ => show win3_2.index t (1 : Fin 2) * 64 + 1 * j'.val = j'.val; omega
  · intro k
    refine Eq.trans ?_ (hbm1 k)
    show V c main_v75 (((cfg3.win 3).blk t).view.emb (ix2 (0 : Fin 1) k)) = V c main_v75 (ix2 (0 : Fin 1) k)
    refine congrArg (V c main_v75) ?_
    funext a; apply Fin.ext
    match a with
    | ⟨0, _⟩ => show win3_3.index t (0 : Fin 2) * 1 + 1 * 0 = 0; omega
    | ⟨1, _⟩ => show win3_3.index t (1 : Fin 2) * 64 + 1 * k.val = k.val; omega
  · intro j' k
    show V c main_arg10 (((cfg3.win 4).blk t).view.emb (ix2 j' k)) = V c main_arg10 (ix2 j' k)
    refine congrArg (V c main_arg10) ?_
    funext a; apply Fin.ext
    match a with
    | ⟨0, _⟩ => show win3_4.index t (0 : Fin 2) * 64 + 1 * j'.val = j'.val; omega
    | ⟨1, _⟩ => show win3_4.index t (1 : Fin 2) * 16 + 1 * k.val = k.val; omega
  · intro k
    refine Eq.trans ?_ (hbm2 k)
    show V c main_v76 (((cfg3.win 5).blk t).view.emb (ix2 (0 : Fin 1) k)) = V c main_v76 (ix2 (0 : Fin 1) k)
    refine congrArg (V c main_v76) ?_
    funext a; apply Fin.ext
    match a with
    | ⟨0, _⟩ => show win3_5.index t (0 : Fin 2) * 1 + 1 * 0 = 0; omega
    | ⟨1, _⟩ => show win3_5.index t (1 : Fin 2) * 16 + 1 * k.val = k.val; omega
  · intro k q'
    show V c main_arg12 (((cfg3.win 6).blk t).view.emb (ix2 k q')) = V c main_arg12 (ix2 k q')
    refine congrArg (V c main_arg12) ?_
    funext a; apply Fin.ext
    match a with
    | ⟨0, _⟩ => show win3_6.index t (0 : Fin 2) * 16 + 1 * k.val = k.val; omega
    | ⟨1, _⟩ => show win3_6.index t (1 : Fin 2) * 10 + 1 * q'.val = q'.val; omega
  · intro k
    refine Eq.trans ?_ (hbm3 k)
    show V c main_v77 (((cfg3.win 7).blk t).view.emb (ix2 (0 : Fin 1) k)) = V c main_v77 (ix2 (0 : Fin 1) k)
    refine congrArg (V c main_v77) ?_
    funext a; apply Fin.ext
    match a with
    | ⟨0, _⟩ => show win3_7.index t (0 : Fin 2) * 1 + 1 * 0 = 0; omega
    | ⟨1, _⟩ => show win3_7.index t (1 : Fin 2) * 10 + 1 * k.val = k.val; omega
  · refine congrArg (Cert.Gcn.head (V c main_v73) b3 (V c main_arg8) bm1 (V c main_arg10) bm2 (V c main_arg12) bm3) ?_
    funext a; apply Fin.ext
    match a with
    | ⟨0, _⟩ => show 5000 * t.val + p.val = win3_8.index t (0 : Fin 2) * 5000 + 1 * p.val; omega
    | ⟨1, _⟩ => show q.val = win3_8.index t (1 : Fin 2) * 10 + 1 * q.val; omega

/-- What point t writes back is row block t of the perceptron and log-softmax of the arrays as the region finds them. -/
theorem flushed3 (c : Dev nD) (t : Fin cfg3.N) (b3 : FVec Ideal Cert.ReferenceIdeal.S16 .f32) (bm1 : FVec Ideal Cert.ReferenceIdeal.S64 .f32) (bm2 : FVec Ideal Cert.ReferenceIdeal.S16 .f32) (bm3 : FVec Ideal Cert.ReferenceIdeal.S10 .f32)
    (hb3 : ∀ k : Fin 16, V c main_v74 (ix2 (0 : Fin 1) k) = b3 (ix1 k)) (hbm1 : ∀ k : Fin 64, V c main_v75 (ix2 (0 : Fin 1) k) = bm1 (ix1 k))
    (hbm2 : ∀ k : Fin 16, V c main_v76 (ix2 (0 : Fin 1) k) = bm2 (ix1 k)) (hbm3 : ∀ k : Fin 10, V c main_v77 (ix2 (0 : Fin 1) k) = bm3 (ix1 k)) :
    (dat3 V c).flushed 8 t = ((cfg3.win 8).blk t).view.read (Elt Ideal) (Cert.Gcn.head (V c main_v73) b3 (V c main_arg8) bm1 (V c main_arg10) bm2 (V c main_arg12) bm3) := by
  show (cfg3.win 8).cut (grid3.coords t) ((dat3 V c).after 8 t) = _
  rw [after3_8]
  unfold out3_8
  rw [View.canon_unit_zero hz]
  simp only [View.ld_unit_zero (S := S5000x16) hz, View.ld_unit_zero (S := S1x16) hz, View.ld_unit_zero (S := S16x64) hz, View.ld_unit_zero (S := S1x64) hz,
    View.ld_unit_zero (S := S64x16) hz, View.ld_unit_zero (S := S16x10) hz, View.ld_unit_zero (S := S1x10) hz]
  funext j
  exact point3 V c t b3 bm1 bm2 bm3 hb3 hbm1 hbm2 hbm3 j

/-- An index of the result array is in point t's block iff its row is in rows 5000 t … 5000 t + 4999. -/
theorem mem_blk3 (t : Fin cfg3.N) (i : S100000x10.Idx) :
    i ∈ ((cfg3.win 8).blk t).view.set ↔ ∀ a : Fin 2, win3_8.index t a * S5000x10.size a ≤ (i a).val ∧ (i a).val < win3_8.index t a * S5000x10.size a + S5000x10.size a := by
  show i ∈ ((View.whole main_v78).slice (win3_8.rect t)).set ↔ _
  rw [View.set_slice_whole, Rect.mem_set_unit]
  exact Iff.rfl

/-- Every row lies in the block of the point (row / 5000). -/
theorem cover3 (i : S100000x10.Idx) : ∃ t : Fin cfg3.N, (cfg3.win 8).flush t = true ∧ i ∈ ((cfg3.win 8).blk t).view.set := by
  have hi0 : (i 0).val < 100000 := (i 0).isLt
  have hi1 : (i 1).val < 10 := (i 1).isLt
  have hN : cfg3.N = 20 := N_3
  have hlt : (i 0).val / 5000 < cfg3.N := by rw [hN]; omega
  obtain ⟨e0, e1, e2, e3, e4, e5, e6, e7, e8, e9, e10, e11, e12, e13, e14, e15, e16, e17⟩ := idx_facts3 ⟨(i 0).val / 5000, hlt⟩
  have e16' : win3_8.index ⟨(i 0).val / 5000, hlt⟩ (0 : Fin 2) = (i 0).val / 5000 := e16
  refine ⟨⟨(i 0).val / 5000, hlt⟩, flush3_8 _, ?_⟩
  rw [mem_blk3]
  intro a
  match a with
  | ⟨0, _⟩ => show win3_8.index ⟨(i 0).val / 5000, hlt⟩ (0 : Fin 2) * 5000 ≤ (i 0).val ∧ (i 0).val < win3_8.index ⟨(i 0).val / 5000, hlt⟩ (0 : Fin 2) * 5000 + 5000; omega
  | ⟨1, _⟩ => show win3_8.index ⟨(i 0).val / 5000, hlt⟩ (1 : Fin 2) * 10 ≤ (i 1).val ∧ (i 1).val < win3_8.index ⟨(i 0).val / 5000, hlt⟩ (1 : Fin 2) * 10 + 10; omega

/-- The fourth region's output array after the run: the perceptron and log-softmax of the arrays as the region finds them. -/
theorem arr3 (c : Dev nD) (b3 : FVec Ideal Cert.ReferenceIdeal.S16 .f32) (bm1 : FVec Ideal Cert.ReferenceIdeal.S64 .f32) (bm2 : FVec Ideal Cert.ReferenceIdeal.S16 .f32) (bm3 : FVec Ideal Cert.ReferenceIdeal.S10 .f32)
    (hb3 : ∀ k : Fin 16, V c main_v74 (ix2 (0 : Fin 1) k) = b3 (ix1 k)) (hbm1 : ∀ k : Fin 64, V c main_v75 (ix2 (0 : Fin 1) k) = bm1 (ix1 k))
    (hbm2 : ∀ k : Fin 16, V c main_v76 (ix2 (0 : Fin 1) k) = bm2 (ix1 k)) (hbm3 : ∀ k : Fin 10, V c main_v77 (ix2 (0 : Fin 1) k) = bm3 (ix1 k)) :
    (dat3 V c).arrAt 8 cfg3.N = Cert.Gcn.head (V c main_v73) b3 (V c main_arg8) bm1 (V c main_arg10) bm2 (V c main_arg12) bm3 :=
  (dat3 V c).arrAt_eq_of_cover 8 (Cert.Gcn.head (V c main_v73) b3 (V c main_arg8) bm1 (V c main_arg10) bm2 (V c main_arg12) bm3) (fun t _ => flushed3 V c t b3 bm1 bm2 bm3 hb3 hbm1 hbm2 hbm3) cover3

end Cert.KernelIdeal.GcnValue

end
-- ==== Proof.HostPrefix.lean ====
/-
  The kernel program's host prefix, read: before the first kernel region @main builds the two endpoint lists of the
  edges (sources and targets, every node appended once as a self loop), counts each node's in-degree by a
  scatter-add of ones, takes dinv = deg^(-1/2) where the degree is positive (0 elsewhere), and multiplies the two
  gathered dinv values of every edge into the edge's weight norm.  These are the same host operations the reference
  performs, so each buffer holds the shared vocabulary's term of the edge-list argument.  The prefix is three
  stretches of operations; each is read by itself, from the values the previous stretch left.
-/
import proofs.«139937_j4234837753913_1_alg».proof.Proof.Gen.KernelIdeal.Frame
import proofs.«139937_j4234837753913_1_alg».proof.Proof.Gen.ReferenceIdeal
import proofs.«139937_j4234837753913_1_alg».proof.Proof.Spec

import Idealize.ShloMosaic.Lib.StableHlo.Run
import Idealize.ShloMosaic.Lib.ValueIdx

set_option maxRecDepth 16384

noncomputable section

namespace Cert.KernelIdeal.GcnValue

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (ρ : Dev nD → PrngReg) (c : Dev nD)

/-! ## After the first stretch -/

theorem w1_v3 : W1 m ρ c (Proc.devRef .tc main_v3) = Cert.Gcn.ends0 (m ((c : Thread nD τ).loc main_arg1)) := by
  show StableHlo.after hostOps0 (W0 m ρ c) (Proc.devRef .tc main_v3) = _
  simp only [hostOps0]
  after_results
  rfl

theorem w1_v6 : W1 m ρ c (Proc.devRef .tc main_v6) = Cert.Gcn.ends1 (m ((c : Thread nD τ).loc main_arg1)) := by
  show StableHlo.after hostOps0 (W0 m ρ c) (Proc.devRef .tc main_v6) = _
  simp only [hostOps0]
  after_results
  rfl

/-- Where the degree is positive. -/
theorem w1_v12 : W1 m ρ c (Proc.devRef .tc main_v12)
    = cmpf .ogt (Cert.Gcn.deg (m ((c : Thread nD τ).loc main_arg1))) (broadcastInDim S100000 ![] bcast_S_S100000 (constant (F := Ideal) S_ .f32 0x00000000#32)) := by
  show StableHlo.after hostOps0 (W0 m ρ c) (Proc.devRef .tc main_v12) = _
  simp only [hostOps0]
  after_results
  rfl

/-- deg^(-1/2). -/
theorem w1_v13 : W1 m ρ c (Proc.devRef .tc main_v13) = Host.rsqrt (Cert.Gcn.deg (m ((c : Thread nD τ).loc main_arg1))) := by
  show StableHlo.after hostOps0 (W0 m ρ c) (Proc.devRef .tc main_v13) = _
  simp only [hostOps0]
  after_results
  rfl

theorem w1_cst2 : W1 m ρ c (Proc.devRef .tc main_cst_2) = constant (F := Ideal) S_ .f32 0x00000000#32 := by
  show StableHlo.after hostOps0 (W0 m ρ c) (Proc.devRef .tc main_cst_2) = _
  simp only [hostOps0]
  after_results

/-! ## After the second stretch (the select) -/

theorem w2_v14 : W2 m ρ c (Proc.devRef .tc main_v14) = Cert.Gcn.dinv (m ((c : Thread nD τ).loc main_arg1)) := by
  have h12 := w1_v12 m ρ c
  have h13 := w1_v13 m ρ c
  have hc := w1_cst2 m ρ c
  show StableHlo.after hostOps0_1 (W1 m ρ c) (Proc.devRef .tc main_v14) = _
  generalize W1 m ρ c = X at h12 h13 hc ⊢
  simp only [hostOps0_1]
  after_results
  dsimp only [StableHlo.TRef.of, StableHlo.TRef.toBuf, StableHlo.TRef.ofBuf]
  simp only [cast_eq]
  rw [h12, h13, hc]
  rfl

theorem w2_v3 : W2 m ρ c (Proc.devRef .tc main_v3) = Cert.Gcn.ends0 (m ((c : Thread nD τ).loc main_arg1)) := by
  have h := w1_v3 m ρ c
  show StableHlo.after hostOps0_1 (W1 m ρ c) (Proc.devRef .tc main_v3) = _
  generalize W1 m ρ c = X at h ⊢
  simp only [hostOps0_1]
  after_results
  exact h

theorem w2_v6 : W2 m ρ c (Proc.devRef .tc main_v6) = Cert.Gcn.ends1 (m ((c : Thread nD τ).loc main_arg1)) := by
  have h := w1_v6 m ρ c
  show StableHlo.after hostOps0_1 (W1 m ρ c) (Proc.devRef .tc main_v6) = _
  generalize W1 m ρ c = X at h ⊢
  simp only [hostOps0_1]
  after_results
  exact h

/-! ## After the third stretch: the first region's entry contents -/

set_option maxHeartbeats 2000000 in
theorem w3_v29 : W3 m ρ c (Proc.devRef .tc main_v29) = Cert.Gcn.norm (m ((c : Thread nD τ).loc main_arg1)) := by
  have h14 := w2_v14 m ρ c
  have h3 := w2_v3 m ρ c
  have h6 := w2_v6 m ρ c
  show StableHlo.after hostOps0_2 (W2 m ρ c) (Proc.devRef .tc main_v29) = _
  generalize W2 m ρ c = X at h14 h3 h6 ⊢
  simp only [hostOps0_2]
  after_results
  rw [h14, h3, h6]
  rfl

theorem w3_v3 : W3 m ρ c (Proc.devRef .tc main_v3) = Cert.Gcn.ends0 (m ((c : Thread nD τ).loc main_arg1)) := by
  have h := w2_v3 m ρ c
  show StableHlo.after hostOps0_2 (W2 m ρ c) (Proc.devRef .tc main_v3) = _
  generalize W2 m ρ c = X at h ⊢
  simp only [hostOps0_2]
  after_results
  exact h

theorem w3_v6 : W3 m ρ c (Proc.devRef .tc main_v6) = Cert.Gcn.ends1 (m ((c : Thread nD τ).loc main_arg1)) := by
  have h := w2_v6 m ρ c
  show StableHlo.after hostOps0_2 (W2 m ρ c) (Proc.devRef .tc main_v6) = _
  generalize W2 m ρ c = X at h ⊢
  simp only [hostOps0_2]
  after_results
  exact h

end Cert.KernelIdeal.GcnValue

end
-- ==== Proof.Keeps.lean ====
/-
  Buffers that pass through a stretch of host operations or a kernel region unchanged: no operation of the stretch
  writes them, and they are not among the region's arrays.  The endpoint lists and the edge weights computed by the
  prefix are read again before every later region, and every argument is read where it is first needed; each such
  read is walked back here, step by step, to the first region's entry contents or to the launch memory.
-/
import proofs.«139937_j4234837753913_1_alg».proof.Proof.Gen.KernelIdeal.Frame
import proofs.«139937_j4234837753913_1_alg».proof.Proof.Gen.ReferenceIdeal
import proofs.«139937_j4234837753913_1_alg».proof.Proof.Spec

import Idealize.ShloMosaic.Lib.StableHlo.Run
import Idealize.ShloMosaic.Lib.ValueIdx

set_option maxRecDepth 16384

noncomputable section

namespace Cert.KernelIdeal.GcnValue

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (ρ : Dev nD → PrngReg) (c : Dev nD)

/-- No operation of the stretch writes the buffer: the operations' result buffers are listed and each differs from it. -/
macro "not_written" : tactic => `(tactic| (refine List.forall_iff_forall_mem.mp ?_; simp only [hostOps0, hostOps0_1, hostOps0_2, hostOps1, hostOps2, hostOps3, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]; (repeat' apply And.intro) <;> exact StableHlo.devRef_ne_of_ne (by decide)))

/-! ## The endpoint lists and the edge weights, from each later stretch's start back to the first region's entry -/

theorem keep_v3_4_3 : W4 m ρ c (Proc.devRef .tc main_v3) = W3 m ρ c (Proc.devRef .tc main_v3) :=
  calc W4 m ρ c (Proc.devRef .tc main_v3)
    _ = W3 m ρ c (Proc.devRef .tc main_v3) := W4_of_ne m ρ c main_v3 (by decide)

theorem keep_v3_6_3 : W6 m ρ c (Proc.devRef .tc main_v3) = W3 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (by not_written)
    _ = W3 m ρ c (Proc.devRef .tc main_v3) := W4_of_ne m ρ c main_v3 (by decide)

theorem keep_v3_8_3 : W8 m ρ c (Proc.devRef .tc main_v3) = W3 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := StableHlo.after_of_forall_not_mem (b := Proc.devRef .tc main_v3) _ _ (by not_written)
    _ = W5 m ρ c (Proc.devRef .tc main_v3) := W6_of_ne m ρ c main_v3 (by decide)
    _ = W4 m ρ c (Proc.devRef .tc main_v3) := StableHlo.after_of_forall_not_mem (b := Proc.devRef .tc main_v3) _ _ (by not_written)
    _ = W3 m ρ c (Proc.devRef .tc main_v3) := W4_of_ne m ρ c main_v3 (by decide)

theorem keep_v6_4_3 : W4 m ρ c (Proc.devRef .tc main_v6) = W3 m ρ c (Proc.devRef .tc main_v6) :=
  calc W4 m ρ c (Proc.devRef .tc main_v6)
    _ = W3 m ρ c (Proc.devRef .tc main_v6) := W4_of_ne m ρ c main_v6 (by decide)

theorem keep_v6_6_3 : W6 m ρ c (Proc.devRef .tc main_v6) = W3 m ρ c (Proc.devRef .tc main_v6) :=
  calc W6 m ρ c (Proc.devRef .tc main_v6)
    _ = W5 m ρ c (Proc.devRef .tc main_v6) := W6_of_ne m ρ c main_v6 (by decide)
    _ = W4 m ρ c (Proc.devRef .tc main_v6) := StableHlo.after_of_forall_not_mem (b := Proc.devRef .tc main_v6) _ _ (by not_written)
    _ = W3 m ρ c (Proc.devRef .tc main_v6) := W4_of_ne m ρ c main_v6 (by decide)

theorem keep_v6_8_3 : W8 m ρ c (Proc.devRef .tc main_v6) = W3 m ρ c (Proc.devRef .tc main_v6) :=
  calc W8 m ρ c (Proc.devRef .tc main_v6)
    _ = W7 m ρ c (Proc.devRef .tc main_v6) := W8_of_ne m ρ c main_v6 (by decide)
    _ = W6 m ρ c (Proc.devRef .tc main_v6) := StableHlo.after_of_forall_not_mem (b := Proc.devRef .tc main_v6) _ _ (by not_written)
    _ = W5 m ρ c (Proc.devRef .tc main_v6) := W6_of_ne m ρ c main_v6 (by decide)
    _ = W4 m ρ c (Proc.devRef .tc main_v6) := StableHlo.after_of_forall_not_mem (b := Proc.devRef .tc main_v6) _ _ (by not_written)
    _ = W3 m ρ c (Proc.devRef .tc main_v6) := W4_of_ne m ρ c main_v6 (by decide)

theorem keep_v29_4_3 : W4 m ρ c (Proc.devRef .tc main_v29) = W3 m ρ c (Proc.devRef .tc main_v29) :=
  calc W4 m ρ c (Proc.devRef .tc main_v29)
    _ = W3 m ρ c (Proc.devRef .tc main_v29) := W4_of_ne m ρ c main_v29 (by decide)

theorem keep_v29_6_3 : W6 m ρ c (Proc.devRef .tc main_v29) = W3 m ρ c (Proc.devRef .tc main_v29) :=
  calc W6 m ρ c (Proc.devRef .tc main_v29)
    _ = W5 m ρ c (Proc.devRef .tc main_v29) := W6_of_ne m ρ c main_v29 (by decide)
    _ = W4 m ρ c (Proc.devRef .tc main_v29) := StableHlo.after_of_forall_not_mem (b := Proc.devRef .tc main_v29) _ _ (by not_written)
    _ = W3 m ρ c (Proc.devRef .tc main_v29) := W4_of_ne m ρ c main_v29 (by decide)

theorem keep_v29_8_3 : W8 m ρ c (Proc.devRef .tc main_v29) = W3 m ρ c (Proc.devRef .tc main_v29) :=
  calc W8 m ρ c (Proc.devRef .tc main_v29)
    _ = W7 m ρ c (Proc.devRef .tc main_v29) := W8_of_ne m ρ c main_v29 (by decide)
    _ = W6 m ρ c (Proc.devRef .tc main_v29) := StableHlo.after_of_forall_not_mem (b := Proc.devRef .tc main_v29) _ _ (by not_written)
    _ = W5 m ρ c (Proc.devRef .tc main_v29) := W6_of_ne m ρ c main_v29 (by decide)
    _ = W4 m ρ c (Proc.devRef .tc main_v29) := StableHlo.after_of_forall_not_mem (b := Proc.devRef .tc main_v29) _ _ (by not_written)
    _ = W3 m ρ c (Proc.devRef .tc main_v29) := W4_of_ne m ρ c main_v29 (by decide)

/-! ## The arguments, from where they are read back to the launch memory -/

theorem keep_arg0_3 : W3 m ρ c (Proc.devRef .tc main_arg0) = m ((c : Thread nD τ).loc main_arg0) :=
  calc W3 m ρ c (Proc.devRef .tc main_arg0)
    _ = W2 m ρ c (Proc.devRef .tc main_arg0) := StableHlo.after_of_forall_not_mem (b := Proc.devRef .tc main_arg0) _ _ (by not_written)
    _ = W1 m ρ c (Proc.devRef .tc main_arg0) := StableHlo.after_of_forall_not_mem (b := Proc.devRef .tc main_arg0) _ _ (by not_written)
    _ = W0 m ρ c (Proc.devRef .tc main_arg0) := StableHlo.after_of_forall_not_mem (b := Proc.devRef .tc main_arg0) _ _ (by not_written)
    _ = m ((c : Thread nD τ).loc main_arg0) := rfl

theorem keep_arg2_3 : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (by not_written)
    _ = W1 m ρ c (Proc.devRef .tc main_arg2) := StableHlo.after_of_forall_not_mem (b := Proc.devRef .tc main_arg2) _ _ (by not_written)
    _ = W0 m ρ c (Proc.devRef .tc main_arg2) := StableHlo.after_of_forall_not_mem (b := Proc.devRef .tc main_arg2) _ _ (by not_written)
    _ = m ((c : Thread nD τ).loc main_arg2) := rfl

theorem keep_arg3_4 : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (by not_written)
    _ = W1 m ρ c (Proc.devRef .tc main_arg3) := StableHlo.after_of_forall_not_mem (b := Proc.devRef .tc main_arg3) _ _ (by not_written)
    _ = W0 m ρ c (Proc.devRef .tc main_arg3) := StableHlo.after_of_forall_not_mem (b := Proc.devRef .tc main_arg3) _ _ (by not_written)
    _ = m ((c : Thread nD τ).loc main_arg3) := rfl

theorem keep_arg4_5 : W5 m ρ c (Proc.devRef .tc main_arg4) = m ((c : Thread nD τ).loc main_arg4) :=
  calc W5 m ρ c (Proc.devRef .tc main_arg4)
    _ = W4 m ρ c (Proc.devRef .tc main_arg4) := StableHlo.after_of_forall_not_mem (b := Proc.devRef .tc main_arg4) _ _ (by not_written)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (by not_written)
    _ = W1 m ρ c (Proc.devRef .tc main_arg4) := StableHlo.after_of_forall_not_mem (b := Proc.devRef .tc main_arg4) _ _ (by not_written)
    _ = W0 m ρ c (Proc.devRef .tc main_arg4) := StableHlo.after_of_forall_not_mem (b := Proc.devRef .tc main_arg4) _ _ (by not_written)
    _ = m ((c : Thread nD τ).loc main_arg4) := rfl

theorem keep_arg5_6 : W6 m ρ c (Proc.devRef .tc main_arg5) = m ((c : Thread nD τ).loc main_arg5) :=
  calc W6 m ρ c (Proc.devRef .tc main_arg5)
    _ = W5 m ρ c (Proc.devRef .tc main_arg5) := W6_of_ne m ρ c main_arg5 (by decide)
    _ = W4 m ρ c (Proc.devRef .tc main_arg5) := StableHlo.after_of_forall_not_mem (b := Proc.devRef .tc main_arg5) _ _ (by not_written)
    _ = W3 m ρ c (Proc.devRef .tc main_arg5) := W4_of_ne m ρ c main_arg5 (by decide)
    _ = W2 m ρ c (Proc.devRef .tc main_arg5) := StableHlo.after_of_forall_not_mem (b := Proc.devRef .tc main_arg5) _ _ (by not_written)
    _ = W1 m ρ c (Proc.devRef .tc main_arg5) := StableHlo.after_of_forall_not_mem (b := Proc.devRef .tc main_arg5) _ _ (by not_written)
    _ = W0 m ρ c (Proc.devRef .tc main_arg5) := StableHlo.after_of_forall_not_mem (b := Proc.devRef .tc main_arg5) _ _ (by not_written)
    _ = m ((c : Thread nD τ).loc main_arg5) := rfl

theorem keep_arg6_7 : W7 m ρ c (Proc.devRef .tc main_arg6) = m ((c : Thread nD τ).loc main_arg6) :=
  calc W7 m ρ c (Proc.devRef .tc main_arg6)
    _ = W6 m ρ c (Proc.devRef .tc main_arg6) := StableHlo.after_of_forall_not_mem (b := Proc.devRef .tc main_arg6) _ _ (by not_written)
    _ = W5 m ρ c (Proc.devRef .tc main_arg6) := W6_of_ne m ρ c main_arg6 (by decide)
    _ = W4 m ρ c (Proc.devRef .tc main_arg6) := StableHlo.after_of_forall_not_mem (b := Proc.devRef .tc main_arg6) _ _ (by not_written)
    _ = W3 m ρ c (Proc.devRef .tc main_arg6) := W4_of_ne m ρ c main_arg6 (by decide)
    _ = W2 m ρ c (Proc.devRef .tc main_arg6) := StableHlo.after_of_forall_not_mem (b := Proc.devRef .tc main_arg6) _ _ (by not_written)
    _ = W1 m ρ c (Proc.devRef .tc main_arg6) := StableHlo.after_of_forall_not_mem (b := Proc.devRef .tc main_arg6) _ _ (by not_written)
    _ = W0 m ρ c (Proc.devRef .tc main_arg6) := StableHlo.after_of_forall_not_mem (b := Proc.devRef .tc main_arg6) _ _ (by not_written)
    _ = m ((c : Thread nD τ).loc main_arg6) := rfl

theorem keep_arg7_8 : W8 m ρ c (Proc.devRef .tc main_arg7) = m ((c : Thread nD τ).loc main_arg7) :=
  calc W8 m ρ c (Proc.devRef .tc main_arg7)
    _ = W7 m ρ c (Proc.devRef .tc main_arg7) := W8_of_ne m ρ c main_arg7 (by decide)
    _ = W6 m ρ c (Proc.devRef .tc main_arg7) := StableHlo.after_of_forall_not_mem (b := Proc.devRef .tc main_arg7) _ _ (by not_written)
    _ = W5 m ρ c (Proc.devRef .tc main_arg7) := W6_of_ne m ρ c main_arg7 (by decide)
    _ = W4 m ρ c (Proc.devRef .tc main_arg7) := StableHlo.after_of_forall_not_mem (b := Proc.devRef .tc main_arg7) _ _ (by not_written)
    _ = W3 m ρ c (Proc.devRef .tc main_arg7) := W4_of_ne m ρ c main_arg7 (by decide)
    _ = W2 m ρ c (Proc.devRef .tc main_arg7) := StableHlo.after_of_forall_not_mem (b := Proc.devRef .tc main_arg7) _ _ (by not_written)
    _ = W1 m ρ c (Proc.devRef .tc main_arg7) := StableHlo.after_of_forall_not_mem (b := Proc.devRef .tc main_arg7) _ _ (by not_written)
    _ = W0 m ρ c (Proc.devRef .tc main_arg7) := StableHlo.after_of_forall_not_mem (b := Proc.devRef .tc main_arg7) _ _ (by not_written)
    _ = m ((c : Thread nD τ).loc main_arg7) := rfl

theorem keep_arg9_8 : W8 m ρ c (Proc.devRef .tc main_arg9) = m ((c : Thread nD τ).loc main_arg9) :=
  calc W8 m ρ c (Proc.devRef .tc main_arg9)
    _ = W7 m ρ c (Proc.devRef .tc main_arg9) := W8_of_ne m ρ c main_arg9 (by decide)
    _ = W6 m ρ c (Proc.devRef .tc main_arg9) := StableHlo.after_of_forall_not_mem (b := Proc.devRef .tc main_arg9) _ _ (by not_written)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (by not_written)
    _ = W3 m ρ c (Proc.devRef .tc main_arg9) := W4_of_ne m ρ c main_arg9 (by decide)
    _ = W2 m ρ c (Proc.devRef .tc main_arg9) := StableHlo.after_of_forall_not_mem (b := Proc.devRef .tc main_arg9) _ _ (by not_written)
    _ = W1 m ρ c (Proc.devRef .tc main_arg9) := StableHlo.after_of_forall_not_mem (b := Proc.devRef .tc main_arg9) _ _ (by not_written)
    _ = W0 m ρ c (Proc.devRef .tc main_arg9) := StableHlo.after_of_forall_not_mem (b := Proc.devRef .tc main_arg9) _ _ (by not_written)
    _ = m ((c : Thread nD τ).loc main_arg9) := rfl

theorem keep_arg11_8 : W8 m ρ c (Proc.devRef .tc main_arg11) = m ((c : Thread nD τ).loc main_arg11) :=
  calc W8 m ρ c (Proc.devRef .tc main_arg11)
    _ = W7 m ρ c (Proc.devRef .tc main_arg11) := W8_of_ne m ρ c main_arg11 (by decide)
    _ = W6 m ρ c (Proc.devRef .tc main_arg11) := StableHlo.after_of_forall_not_mem (b := Proc.devRef .tc main_arg11) _ _ (by not_written)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (by not_written)
    _ = W3 m ρ c (Proc.devRef .tc main_arg11) := W4_of_ne m ρ c main_arg11 (by decide)
    _ = W2 m ρ c (Proc.devRef .tc main_arg11) := StableHlo.after_of_forall_not_mem (b := Proc.devRef .tc main_arg11) _ _ (by not_written)
    _ = W1 m ρ c (Proc.devRef .tc main_arg11) := StableHlo.after_of_forall_not_mem (b := Proc.devRef .tc main_arg11) _ _ (by not_written)
    _ = W0 m ρ c (Proc.devRef .tc main_arg11) := StableHlo.after_of_forall_not_mem (b := Proc.devRef .tc main_arg11) _ _ (by not_written)
    _ = m ((c : Thread nD τ).loc main_arg11) := rfl

theorem keep_arg13_8 : W8 m ρ c (Proc.devRef .tc main_arg13) = m ((c : Thread nD τ).loc main_arg13) :=
  calc W8 m ρ c (Proc.devRef .tc main_arg13)
    _ = W7 m ρ c (Proc.devRef .tc main_arg13) := W8_of_ne m ρ c main_arg13 (by decide)
    _ = W6 m ρ c (Proc.devRef .tc main_arg13) := StableHlo.after_of_forall_not_mem (b := Proc.devRef .tc main_arg13) _ _ (by not_written)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (by not_written)
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (by not_written)
    _ = W1 m ρ c (Proc.devRef .tc main_arg13) := StableHlo.after_of_forall_not_mem (b := Proc.devRef .tc main_arg13) _ _ (by not_written)
    _ = W0 m ρ c (Proc.devRef .tc main_arg13) := StableHlo.after_of_forall_not_mem (b := Proc.devRef .tc main_arg13) _ _ (by not_written)
    _ = m ((c : Thread nD τ).loc main_arg13) := rfl

theorem keep_arg8_9 : W9 m ρ c (Proc.devRef .tc main_arg8) = m ((c : Thread nD τ).loc main_arg8) :=
  calc W9 m ρ c (Proc.devRef .tc main_arg8)
    _ = W8 m ρ c (Proc.devRef .tc main_arg8) := StableHlo.after_of_forall_not_mem (b := Proc.devRef .tc main_arg8) _ _ (by not_written)
    _ = W7 m ρ c (Proc.devRef .tc main_arg8) := W8_of_ne m ρ c main_arg8 (by decide)
    _ = W6 m ρ c (Proc.devRef .tc main_arg8) := StableHlo.after_of_forall_not_mem (b := Proc.devRef .tc main_arg8) _ _ (by not_written)
    _ = W5 m ρ c (Proc.devRef .tc main_arg8) := W6_of_ne m ρ c main_arg8 (by decide)
    _ = W4 m ρ c (Proc.devRef .tc main_arg8) := StableHlo.after_of_forall_not_mem (b := Proc.devRef .tc main_arg8) _ _ (by not_written)
    _ = W3 m ρ c (Proc.devRef .tc main_arg8) := W4_of_ne m ρ c main_arg8 (by decide)
    _ = W2 m ρ c (Proc.devRef .tc main_arg8) := StableHlo.after_of_forall_not_mem (b := Proc.devRef .tc main_arg8) _ _ (by not_written)
    _ = W1 m ρ c (Proc.devRef .tc main_arg8) := StableHlo.after_of_forall_not_mem (b := Proc.devRef .tc main_arg8) _ _ (by not_written)
    _ = W0 m ρ c (Proc.devRef .tc main_arg8) := StableHlo.after_of_forall_not_mem (b := Proc.devRef .tc main_arg8) _ _ (by not_written)
    _ = m ((c : Thread nD τ).loc main_arg8) := rfl

theorem keep_arg10_9 : W9 m ρ c (Proc.devRef .tc main_arg10) = m ((c : Thread nD τ).loc main_arg10) :=
  calc W9 m ρ c (Proc.devRef .tc main_arg10)
    _ = W8 m ρ c (Proc.devRef .tc main_arg10) := StableHlo.after_of_forall_not_mem (b := Proc.devRef .tc main_arg10) _ _ (by not_written)
    _ = W7 m ρ c (Proc.devRef .tc main_arg10) := W8_of_ne m ρ c main_arg10 (by decide)
    _ = W6 m ρ c (Proc.devRef .tc main_arg10) := StableHlo.after_of_forall_not_mem (b := Proc.devRef .tc main_arg10) _ _ (by not_written)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (by not_written)
    _ = W3 m ρ c (Proc.devRef .tc main_arg10) := W4_of_ne m ρ c main_arg10 (by decide)
    _ = W2 m ρ c (Proc.devRef .tc main_arg10) := StableHlo.after_of_forall_not_mem (b := Proc.devRef .tc main_arg10) _ _ (by not_written)
    _ = W1 m ρ c (Proc.devRef .tc main_arg10) := StableHlo.after_of_forall_not_mem (b := Proc.devRef .tc main_arg10) _ _ (by not_written)
    _ = W0 m ρ c (Proc.devRef .tc main_arg10) := StableHlo.after_of_forall_not_mem (b := Proc.devRef .tc main_arg10) _ _ (by not_written)
    _ = m ((c : Thread nD τ).loc main_arg10) := rfl

theorem keep_arg12_9 : W9 m ρ c (Proc.devRef .tc main_arg12) = m ((c : Thread nD τ).loc main_arg12) :=
  calc W9 m ρ c (Proc.devRef .tc main_arg12)
    _ = W8 m ρ c (Proc.devRef .tc main_arg12) := StableHlo.after_of_forall_not_mem (b := Proc.devRef .tc main_arg12) _ _ (by not_written)
    _ = W7 m ρ c (Proc.devRef .tc main_arg12) := W8_of_ne m ρ c main_arg12 (by decide)
    _ = W6 m ρ c (Proc.devRef .tc main_arg12) := StableHlo.after_of_forall_not_mem (b := Proc.devRef .tc main_arg12) _ _ (by not_written)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (by not_written)
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (by not_written)
    _ = W1 m ρ c (Proc.devRef .tc main_arg12) := StableHlo.after_of_forall_not_mem (b := Proc.devRef .tc main_arg12) _ _ (by not_written)
    _ = W0 m ρ c (Proc.devRef .tc main_arg12) := StableHlo.after_of_forall_not_mem (b := Proc.devRef .tc main_arg12) _ _ (by not_written)
    _ = m ((c : Thread nD τ).loc main_arg12) := rfl

end Cert.KernelIdeal.GcnValue

end
-- ==== Proof.KernelValue.lean ====
/-
  The kernel program's result as ONE function of its arguments.  The fold of @main's segments is walked from the
  result buffer back to the launch memory: the last region's output array is the perceptron head of the third
  aggregation; each aggregation is the host stretch before a region applied to the previous region's output array,
  with the endpoint lists and edge weights the prefix computed; each earlier region's output array is its dense step
  of the aggregation before it.  Composed, the result is the shared vocabulary's network with the aggregation whose
  gathered rows are the left factor.
-/
import proofs.«139937_j4234837753913_1_alg».proof.Proof.Gen.KernelIdeal.Frame
import proofs.«139937_j4234837753913_1_alg».proof.Proof.Gen.ReferenceIdeal
import proofs.«139937_j4234837753913_1_alg».proof.Proof.Spec
import proofs.«139937_j4234837753913_1_alg».proof.Proof.Region0
import proofs.«139937_j4234837753913_1_alg».proof.Proof.Region1
import proofs.«139937_j4234837753913_1_alg».proof.Proof.Region2
import proofs.«139937_j4234837753913_1_alg».proof.Proof.Region3
import proofs.«139937_j4234837753913_1_alg».proof.Proof.HostPrefix
import proofs.«139937_j4234837753913_1_alg».proof.Proof.Keeps
import proofs.«139937_j4234837753913_1_alg».proof.Proof.LibRowOps
import Idealize.ShloMosaic.Lib.StableHlo.Run
import Idealize.ShloMosaic.Lib.ValueIdx

set_option maxRecDepth 16384

noncomputable section

namespace Cert.KernelIdeal.GcnValue

open Idealize.ShloMosaic Idealize.ShloMosaic.TcCoe Idealize.ShloMosaic.ValueIdx Idealize.ShloMosaic.StableHlo
open Idealize.SL.Sem
open Cert.KernelIdeal Cert.KernelIdeal.Gen

variable (m : (ℓ : Loc nD τ sig) → Buf (Elt Ideal) ℓ) (ρ : Dev nD → PrngReg) (c : Dev nD)

/-- One aggregation as the host stretch spells it: gather the rows of h at the (wrapped) sources, multiply by the
    broadcast edge weights, scatter-add into the targets' rows. -/
def aggWith (e0 e1 : IVec S3300000 32) (nrm : FVec Ideal S3300000 .f32) (h : FVec Ideal S100000x16 .f32) : FVec Ideal S100000x16 .f32 :=
  Host.scatterAdd scatter_S100000x16_S3300000x1_S3300000x16_1_0_0_1
    (broadcastInDim S100000x16 ![] bcast_S_S100000x16 (constant (F := Ideal) S_ .f32 0x00000000#32))
    (broadcastInDim S3300000x1 ![0] bcast_S3300000_S3300000x1_0 e1)
    (mulf (Host.gather gather_S100000x16_S3300000x1_S3300000x16_1_0_n_n_0_1_116 h
        (broadcastInDim S3300000x1 ![0] bcast_S3300000_S3300000x1_0
          (select (cmpi .slt e0 (broadcastInDim S3300000 ![] bcast_S_S3300000 (constantI S_ 32 0#32)))
            (addi e0 (broadcastInDim S3300000 ![] bcast_S_S3300000 (constantI S_ 32 100000#32))) e0)))
      (broadcastInDim S3300000x16 ![0, 1] bcast_S3300000x1_S3300000x16_0_1 (broadcastInDim S3300000x1 ![0] bcast_S3300000_S3300000x1_0 nrm)))

/-- With the prefix's lists and weights it is the shared vocabulary's aggregation. -/
theorem aggWith_eq (ei : IVec S2x3200000 32) (h : FVec Ideal S100000x16 .f32) :
    aggWith (Cert.Gcn.ends0 ei) (Cert.Gcn.ends1 ei) (Cert.Gcn.norm ei) h = Cert.Gcn.aggL ei h := rfl

/-! ## The layers' values, as functions of the arguments -/

/-- x · W1. -/
def H1 : FVec Ideal S100000x16 .f32 := Cert.Gcn.lin (m ((c : Thread nD τ).loc main_arg0)) (m ((c : Thread nD τ).loc main_arg2))
/-- The first aggregation. -/
def A1 : FVec Ideal S100000x16 .f32 := Cert.Gcn.aggL (m ((c : Thread nD τ).loc main_arg1)) (H1 m c)
/-- max(A1 + b1, 0) · W2. -/
def H2 : FVec Ideal S100000x16 .f32 := Cert.Gcn.hidden (A1 m c) (m ((c : Thread nD τ).loc main_arg3)) (m ((c : Thread nD τ).loc main_arg4))
/-- The second aggregation. -/
def A2 : FVec Ideal S100000x16 .f32 := Cert.Gcn.aggL (m ((c : Thread nD τ).loc main_arg1)) (H2 m c)
/-- max(A2 + b2, 0) · W3. -/
def H3 : FVec Ideal S100000x16 .f32 := Cert.Gcn.hidden (A2 m c) (m ((c : Thread nD τ).loc main_arg5)) (m ((c : Thread nD τ).loc main_arg6))
/-- The third aggregation. -/
def A3 : FVec Ideal S100000x16 .f32 := Cert.Gcn.aggL (m ((c : Thread nD τ).loc main_arg1)) (H3 m c)

/-! ## Region 0 -/

theorem v30_eq : W4 m ρ c (Proc.devRef .tc main_v30) = H1 m c := by
  refine (W4_arr m ρ c 2).trans ((arr0 (V3 m ρ) c).trans ?_)
  show Cert.Gcn.lin (W3 m ρ c (Proc.devRef .tc main_arg0)) (W3 m ρ c (Proc.devRef .tc main_arg2)) = _
  rw [keep_arg0_3, keep_arg2_3]
  rfl

/-! ## The stretch before region 1, and region 1 -/

set_option maxHeartbeats 4000000 in
theorem v43_raw : W5 m ρ c (Proc.devRef .tc main_v43)
    = aggWith (W4 m ρ c (Proc.devRef .tc main_v3)) (W4 m ρ c (Proc.devRef .tc main_v6)) (W4 m ρ c (Proc.devRef .tc main_v29)) (W4 m ρ c (Proc.devRef .tc main_v30)) := by
  show StableHlo.after hostOps1 (W4 m ρ c) (Proc.devRef .tc main_v43) = _
  generalize W4 m ρ c = X
  simp only [hostOps1]
  after_results
  rfl

theorem v43_eq : W5 m ρ c (Proc.devRef .tc main_v43) = A1 m c := by
  rw [v43_raw, keep_v3_4_3, keep_v6_4_3, keep_v29_4_3, w3_v3, w3_v6, w3_v29, v30_eq, aggWith_eq]
  rfl

/-- The bias vector as the [1,16] row the next region's window holds. -/
theorem v44_row (k : Fin 16) : W5 m ρ c (Proc.devRef .tc main_v44) (ix2 (0 : Fin 1) k) = (m ((c : Thread nD τ).loc main_arg3)) (ix1 k) := by
  have e : W5 m ρ c (Proc.devRef .tc main_v44) = shapeCast S1x16 (W4 m ρ c (Proc.devRef .tc main_arg3)) shapeCasts_S16_S1x16 := by
    show StableHlo.after hostOps1 (W4 m ρ c) (Proc.devRef .tc main_v44) = _
    simp only [hostOps1]
    after_results
    rfl
  rw [e, keep_arg3_4]
  exact Cert.KernelBody.shapeCast_row_apply _ _ k

theorem v45_eq : W6 m ρ c (Proc.devRef .tc main_v45) = H2 m c := by
  refine (W6_arr m ρ c 3).trans ((arr1 (V5 m ρ) c (m ((c : Thread nD τ).loc main_arg3)) (v44_row m ρ c)).trans ?_)
  show Cert.Gcn.hidden (W5 m ρ c (Proc.devRef .tc main_v43)) _ (W5 m ρ c (Proc.devRef .tc main_arg4)) = _
  rw [v43_eq, keep_arg4_5]
  rfl

/-! ## The stretch before region 2, and region 2 -/

set_option maxHeartbeats 4000000 in
theorem v58_raw : W7 m ρ c (Proc.devRef .tc main_v58)
    = aggWith (W6 m ρ c (Proc.devRef .tc main_v3)) (W6 m ρ c (Proc.devRef .tc main_v6)) (W6 m ρ c (Proc.devRef .tc main_v29)) (W6 m ρ c (Proc.devRef .tc main_v45)) := by
  show StableHlo.after hostOps2 (W6 m ρ c) (Proc.devRef .tc main_v58) = _
  generalize W6 m ρ c = X
  simp only [hostOps2]
  after_results
  rfl

theorem v58_eq : W7 m ρ c (Proc.devRef .tc main_v58) = A2 m c := by
  rw [v58_raw, keep_v3_6_3, keep_v6_6_3, keep_v29_6_3, w3_v3, w3_v6, w3_v29, v45_eq, aggWith_eq]
  rfl

/-- The bias vector as the [1,16] row the next region's window holds. -/
theorem v59_row (k : Fin 16) : W7 m ρ c (Proc.devRef .tc main_v59) (ix2 (0 : Fin 1) k) = (m ((c : Thread nD τ).loc main_arg5)) (ix1 k) := by
  have e : W7 m ρ c (Proc.devRef .tc main_v59) = shapeCast S1x16 (W6 m ρ c (Proc.devRef .tc main_arg5)) shapeCasts_S16_S1x16 := by
    show StableHlo.after hostOps2 (W6 m ρ c) (Proc.devRef .tc main_v59) = _
    simp only [hostOps2]
    after_results
    rfl
  rw [e, keep_arg5_6]
  exact Cert.KernelBody.shapeCast_row_apply _ _ k

theorem v60_eq : W8 m ρ c (Proc.devRef .tc main_v60) = H3 m c := by
  refine (W8_arr m ρ c 3).trans ((arr2 (V7 m ρ) c (m ((c : Thread nD τ).loc main_arg5)) (v59_row m ρ c)).trans ?_)
  show Cert.Gcn.hidden (W7 m ρ c (Proc.devRef .tc main_v58)) _ (W7 m ρ c (Proc.devRef .tc main_arg6)) = _
  rw [v58_eq, keep_arg6_7]
  rfl

/-! ## The stretch before region 3, and region 3 -/

set_option maxHeartbeats 4000000 in
theorem v73_raw : W9 m ρ c (Proc.devRef .tc main_v73)
    = aggWith (W8 m ρ c (Proc.devRef .tc main_v3)) (W8 m ρ c (Proc.devRef .tc main_v6)) (W8 m ρ c (Proc.devRef .tc main_v29)) (W8 m ρ c (Proc.devRef .tc main_v60)) := by
  show StableHlo.after hostOps3 (W8 m ρ c) (Proc.devRef .tc main_v73) = _
  generalize W8 m ρ c = X
  simp only [hostOps3]
  after_results
  rfl

theorem v73_eq : W9 m ρ c (Proc.devRef .tc main_v73) = A3 m c := by
  rw [v73_raw, keep_v3_8_3, keep_v6_8_3, keep_v29_8_3, w3_v3, w3_v6, w3_v29, v60_eq, aggWith_eq]
  rfl

/-- The bias vector as the [1,16] row the next region's window holds. -/
theorem v74_row (k : Fin 16) : W9 m ρ c (Proc.devRef .tc main_v74) (ix2 (0 : Fin 1) k) = (m ((c : Thread nD τ).loc main_arg7)) (ix1 k) := by
  have e : W9 m ρ c (Proc.devRef .tc main_v74) = shapeCast S1x16 (W8 m ρ c (Proc.devRef .tc main_arg7)) shapeCasts_S16_S1x16 := by
    show StableHlo.after hostOps3 (W8 m ρ c) (Proc.devRef .tc main_v74) = _
    simp only [hostOps3]
    after_results
    rfl
  rw [e, keep_arg7_8]
  exact Cert.KernelBody.shapeCast_row_apply _ _ k

/-- The bias vector as the [1,64] row the next region's window holds. -/
theorem v75_row (k : Fin 64) : W9 m ρ c (Proc.devRef .tc main_v75) (ix2 (0 : Fin 1) k) = (m ((c : Thread nD τ).loc main_arg9)) (ix1 k) := by
  have e : W9 m ρ c (Proc.devRef .tc main_v75) = shapeCast S1x64 (W8 m ρ c (Proc.devRef .tc main_arg9)) shapeCasts_S64_S1x64 := by
    show StableHlo.after hostOps3 (W8 m ρ c) (Proc.devRef .tc main_v75) = _
    simp only [hostOps3]
    after_results
    rfl
  rw [e, keep_arg9_8]
  exact Cert.KernelBody.shapeCast_row_apply _ _ k

/-- The bias vector as the [1,16] row the next region's window holds. -/
theorem v76_row (k : Fin 16) : W9 m ρ c (Proc.devRef .tc main_v76) (ix2 (0 : Fin 1) k) = (m ((c : Thread nD τ).loc main_arg11)) (ix1 k) := by
  have e : W9 m ρ c (Proc.devRef .tc main_v76) = shapeCast S1x16 (W8 m ρ c (Proc.devRef .tc main_arg11)) shapeCasts_S16_S1x16 := by
    show StableHlo.after hostOps3 (W8 m ρ c) (Proc.devRef .tc main_v76) = _
    simp only [hostOps3]
    after_results
    rfl
  rw [e, keep_arg11_8]
  exact Cert.KernelBody.shapeCast_row_apply _ _ k

/-- The bias vector as the [1,10] row the next region's window holds. -/
theorem v77_row (k : Fin 10) : W9 m ρ c (Proc.devRef .tc main_v77) (ix2 (0 : Fin 1) k) = (m ((c : Thread nD τ).loc main_arg13)) (ix1 k) := by
  have e : W9 m ρ c (Proc.devRef .tc main_v77) = shapeCast S1x10 (W8 m ρ c (Proc.devRef .tc main_arg13)) shapeCasts_S10_S1x10 := by
    show StableHlo.after hostOps3 (W8 m ρ c) (Proc.devRef .tc main_v77) = _
    simp only [hostOps3]
    after_results
    rfl
  rw [e, keep_arg13_8]
  exact Cert.KernelBody.shapeCast_row_apply _ _ k

/-- THE RESULT: the fold's contents of the result buffer after the last region is the network of the arguments. -/
theorem out_eq : W10 m ρ c (Proc.devRef .tc main_v78)
    = Cert.Gcn.net (Cert.Gcn.aggL (m ((c : Thread nD τ).loc main_arg1))) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6))
        (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (W10_arr m ρ c 8).trans ((arr3 (V9 m ρ) c (m ((c : Thread nD τ).loc main_arg7)) (m ((c : Thread nD τ).loc main_arg9)) (m ((c : Thread nD τ).loc main_arg11)) (m ((c : Thread nD τ).loc main_arg13))
    (v74_row m ρ c) (v75_row m ρ c) (v76_row m ρ c) (v77_row m ρ c)).trans ?_)
  show Cert.Gcn.head (W9 m ρ c (Proc.devRef .tc main_v73)) _ (W9 m ρ c (Proc.devRef .tc main_arg8)) _ (W9 m ρ c (Proc.devRef .tc main_arg10)) _ (W9 m ρ c (Proc.devRef .tc main_arg12)) _ = _
  rw [v73_eq, keep_arg8_9, keep_arg10_9, keep_arg12_9]
  rfl

end Cert.KernelIdeal.GcnValue

end
-- ==== Proof.RefRunOps0.lean ====
/-
  The reference's @main, statements of window 0: its host operations as a list, the outlined functions' operations
  written inline at their call sites over the call's own buffer record, and the window as the sequence of that list.
-/
import proofs.«139937_j4234837753913_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 64 operations of window 0, in order (a call's operations in place of the call). -/
abbrev ops0 : List (HloOp τ sig (Elt F)) :=
  [ binary main_arg0 main_arg2 main_v0 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)),
    nullary main_v1 (iotaInDim S100000 32 0),
    unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of main_cst_2 : TRef sig ⟨S_, .f32⟩) main_call0.v0 id,
    TRef.unary main_call0.v0 main_call0.v1 (broadcastInDim S100000 ![] bcast_S_S100000),
    TRef.ternary (TRef.of main_v13 : TRef sig ⟨S100000, .i1⟩) (TRef.of main_v14 : TRef sig ⟨S100000, .f32⟩) main_call0.v1 main_call0.v2 select,
    nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v4 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v4 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)),
    unary main_v30 main_v31 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v4 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v4 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v4 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v0 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x00000000#32),
    TRef.unary main_call1.cst main_call1.v0 (broadcastInDim S100000x16 ![] bcast_S_S100000x16),
    TRef.binary (TRef.of main_v46 : TRef sig ⟨S100000x16, .f32⟩) main_call1.v0 main_call1.v1 maximumf,
    binary main_v47 main_arg4 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

set_option maxRecDepth 8192 in
set_option maxHeartbeats 4000000 in
/-- Window 0 is that straight line: the callees unfolded at their calls, sequencing reassociated. -/
theorem main_part0_eq (c : Dev nD) : main_part0 (F := F) c = seq ops0 := by
  simp only [main_part0, fn_where.body, fn_relu.body, seq, bind_assoc, pure_bind] <;> rfl

set_option maxRecDepth 8192 in
theorem ops0_sub : (ops0 : List (HloOp τ sig (Elt F))).Forall fun op => op.bufs ⊆ tcRefs τ sig :=
  ⟨binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub ..⟩

end Cert.ReferenceIdeal.HandRun

end
-- ==== Proof.RefRunBase.lean ====
/-
  Two facts about a straight line of host operations used by every window of the reference's run:
  the contents after two lines run in turn, and the inclusion that says which buffers a line writes.
-/
import proofs.«139937_j4234837753913_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {Val : EltTy → Type}

/-- The contents after two lines run one after the other. -/
theorem after_app : ∀ (l₁ l₂ : List (HloOp τ sig Val)) (V : Valuation τ sig Val), after (l₁ ++ l₂) V = after l₂ (after l₁ V)
  | [], _, _ => rfl
  | op :: l₁, l₂, V => by rw [List.cons_append, after_cons, after_cons, after_app l₁ l₂]

/-- A single written buffer lies in the image of any list of references that holds its reference. -/
theorem wr {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

end Cert.ReferenceIdeal.HandRun

end
-- ==== Proof.RefRunSeg0.lean ====
/-
  Window 0 of the reference's run, cut at the values the shared vocabulary names: each stretch of operations read
  back from any contents whose input buffers hold given values, and the buffers each stretch writes.
-/
import proofs.«139937_j4234837753913_1_alg».proof.Proof.RefRunOps0
import proofs.«139937_j4234837753913_1_alg».proof.Proof.RefRunBase
import proofs.«139937_j4234837753913_1_alg».proof.Proof.Spec

noncomputable section

namespace Cert.ReferenceIdeal.HandRun

open Cert.ReferenceIdeal Cert.ReferenceIdeal.Gen Idealize.ShloMosaic Idealize.ShloMosaic.TcCoe Idealize.SL.Sem Idealize.ShloMosaic.StableHlo

set_option pp.maxSteps 3000
set_option pp.deepTerms false
set_option pp.proofs false

variable {F : FTy → Type} [FloatOps F]

/-- Operations 1 … 1 of the 229. -/
abbrev sg_L1a : List (HloOp τ sig (Elt F)) :=
  [ binary main_arg0 main_arg2 main_v0 ((fun l r => Host.dotGeneral dot_S100000x256_S256x16_S100000x16_1_0_0_1_n_n none l r) : (⟨S100000x256, .f32⟩ : BufTy).Contents (Elt F) → (⟨S256x16, .f32⟩ : BufTy).Contents (Elt F) → (⟨S100000x16, .f32⟩ : BufTy).Contents (Elt F)) ]

/-- The buffers they write. -/
abbrev sw_L1a : List (Ref sig .tc) := [main_v0]

theorem sg_L1a_writes : (sg_L1a : List (HloOp τ sig (Elt F))).Forall fun op =>
    op.writes ⊆ (sw_L1a.map (Proc.devRef (τ := τ) .tc)).toFinset :=
  wr (y := main_v0) (by decide)

/-- A buffer they do not write keeps its contents. -/
theorem keep_L1a (V : Valuation τ sig (Elt F)) (r : Ref sig .tc) (h : r ∉ sw_L1a) :
    after (sg_L1a (F := F)) V (Proc.devRef .tc r) = V (Proc.devRef .tc r) :=
  after_of_writes_sub sg_L1a V sg_L1a_writes h

set_option maxRecDepth 100000 in
set_option maxHeartbeats 1000000 in
theorem val_L1a_main_v0 (V : Valuation τ sig (Elt Ideal)) (x : FVec Ideal S100000x256 .f32) (W : FVec Ideal S256x16 .f32) (q0 : V (main_arg0 : DevRef τ sig) = x) (q1 : V (main_arg2 : DevRef τ sig) = W) :
    after (sg_L1a (F := Ideal)) V (main_v0 : DevRef τ sig) = Cert.Gcn.lin x W := by
  simp (disch := decide) only [after_cons, after_nil, nullary_result', unary_result', binary_result', ternary_result', reshape_result', nullary_result_ne', unary_result_ne', binary_result_ne', ternary_result_ne', reshape_result_ne']
  simp only [cast_eq, q0, q1]
  unfold Cert.Gcn.lin
  first | (with_reducible rfl) | fail "comparison failed: L1a main_v0"

/-- Operations 2 … 8 of the 229. -/
abbrev sg_L1b : List (HloOp τ sig (Elt F)) :=
  [ nullary main_v1 (iotaInDim S100000 32 0),
    unary main_arg1 main_v2 ((extractStridedSlice S1x3200000 ![0, 0] · slices_S2x3200000_S1x3200000_0_0) : (⟨S2x3200000, .i32⟩ : BufTy).Contents (Elt F) → (⟨S1x3200000, .i32⟩ : BufTy).Contents (Elt F)),
    reshape main_v2 main_v3 rfl shapeCasts_S1x3200000_S3200000,
    binary main_v3 main_v1 main_v4 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v5 ((extractStridedSlice S1x3200000 ![1, 0] · slices_S2x3200000_S1x3200000_1_0) : (⟨S2x3200000, .i32⟩ : BufTy).Contents (Elt F) → (⟨S1x3200000, .i32⟩ : BufTy).Contents (Elt F)),
    reshape main_v5 main_v6 rfl shapeCasts_S1x3200000_S3200000,
    binary main_v6 main_v1 main_v7 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The buffers they write. -/
abbrev sw_L1b : List (Ref sig .tc) := [main_v1, main_v2, main_v3, main_v4, main_v5, main_v6, main_v7]

theorem sg_L1b_writes : (sg_L1b : List (HloOp τ sig (Elt F))).Forall fun op =>
    op.writes ⊆ (sw_L1b.map (Proc.devRef (τ := τ) .tc)).toFinset :=
  ⟨wr (y := main_v1) (by decide), wr (y := main_v2) (by decide), wr (y := main_v3) (by decide), wr (y := main_v4) (by decide), wr (y := main_v5) (by decide), wr (y := main_v6) (by decide), wr (y := main_v7) (by decide)⟩

/-- A buffer they do not write keeps its contents. -/
theorem keep_L1b (V : Valuation τ sig (Elt F)) (r : Ref sig .tc) (h : r ∉ sw_L1b) :
    after (sg_L1b (F := F)) V (Proc.devRef .tc r) = V (Proc.devRef .tc r) :=
  after_of_writes_sub sg_L1b V sg_L1b_writes h

set_option maxRecDepth 100000 in
set_option maxHeartbeats 1000000 in
theorem val_L1b_main_v4 (V : Valuation τ sig (Elt Ideal))   :
    after (sg_L1b (F := Ideal)) V (main_v4 : DevRef τ sig) = Cert.Gcn.ends0 (V (main_arg1 : DevRef τ sig)) := by
  after_results
  unfold Cert.Gcn.ends0
  first | (with_reducible rfl) | rfl

set_option maxRecDepth 100000 in
set_option maxHeartbeats 1000000 in
theorem val_L1b_main_v7 (V : Valuation τ sig (Elt Ideal))   :
    after (sg_L1b (F := Ideal)) V (main_v7 : DevRef τ sig) = Cert.Gcn.ends1 (V (main_arg1 : DevRef τ sig)) := by
  after_results
  unfold Cert.Gcn.ends1
  first | (with_reducible rfl) | rfl

/-- Operations 9 … 14 of the 229. -/
abbrev sg_L1c : List (HloOp τ sig (Elt F)) :=
  [ nullary main_cst (constant S_ .f32 0x3F800000#32),
    unary main_cst main_v8 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v9 (broadcastInDim S100000 ![] bcast_S_S100000 : (⟨S_, .f32⟩ : BufTy).Contents (Elt F) → (⟨S100000, .f32⟩ : BufTy).Contents (Elt F)),
    unary main_v7 main_v10 (broadcastInDim S3300000x1 ![0] bcast_S3300000_S3300000x1_0 : (⟨S3300000, .i32⟩ : BufTy).Contents (Elt F) → (⟨S3300000x1, .i32⟩ : BufTy).Contents (Elt F)),
    ternary main_v9 main_v10 main_v8 main_v11 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ]

/-- The buffers they write. -/
abbrev sw_L1c : List (Ref sig .tc) := [main_cst, main_v8, main_cst_0, main_v9, main_v10, main_v11]

theorem sg_L1c_writes : (sg_L1c : List (HloOp τ sig (Elt F))).Forall fun op =>
    op.writes ⊆ (sw_L1c.map (Proc.devRef (τ := τ) .tc)).toFinset :=
  ⟨wr (y := main_cst) (by decide), wr (y := main_v8) (by decide), wr (y := main_cst_0) (by decide), wr (y := main_v9) (by decide), wr (y := main_v10) (by decide), wr (y := main_v11) (by decide)⟩

/-- A buffer they do not write keeps its contents. -/
theorem keep_L1c (V : Valuation τ sig (Elt F)) (r : Ref sig .tc) (h : r ∉ sw_L1c) :
    after (sg_L1c (F := F)) V (Proc.devRef .tc r) = V (Proc.devRef .tc r) :=
  after_of_writes_sub sg_L1c V sg_L1c_writes h

set_option maxRecDepth 100000 in
set_option maxHeartbeats 1000000 in
theorem val_L1c_main_v11 (V : Valuation τ sig (Elt Ideal)) (ei : IVec S2x3200000 32) (q0 : V (main_v7 : DevRef τ sig) = Cert.Gcn.ends1 ei) :
    after (sg_L1c (F := Ideal)) V (main_v11 : DevRef τ sig) = Cert.Gcn.deg ei := by
  simp (disch := decide) only [after_cons, after_nil, nullary_result', unary_result', binary_result', ternary_result', reshape_result', nullary_result_ne', unary_result_ne', binary_result_ne', ternary_result_ne', reshape_result_ne']
  simp only [cast_eq, q0]
  unfold Cert.Gcn.deg Cert.Gcn.col
  first | (with_reducible rfl) | fail "comparison failed: L1c main_v11"

/-- Operations 15 … 22 of the 229. -/
abbrev sg_L1d : List (HloOp τ sig (Elt F)) :=
  [ nullary main_cst_1 (constant S_ .f32 0x00000000#32),
    unary main_cst_1 main_v12 (broadcastInDim S100000 ![] bcast_S_S100000 : (⟨S_, .f32⟩ : BufTy).Contents (Elt F) → (⟨S100000, .f32⟩ : BufTy).Contents (Elt F)),
    binary main_v11 main_v12 main_v13 (cmpf .ogt : (⟨S100000, .f32⟩ : BufTy).Contents (Elt F) → (⟨S100000, .f32⟩ : BufTy).Contents (Elt F) → (⟨S100000, .i1⟩ : BufTy).Contents (Elt F)),
    unary main_v11 main_v14 (Host.rsqrt : (⟨S100000, .f32⟩ : BufTy).Contents (Elt F) → (⟨S100000, .f32⟩ : BufTy).Contents (Elt F)),
    nullary main_cst_2 (constant S_ .f32 0x00000000#32),
    TRef.unary (TRef.of main_cst_2 : TRef sig ⟨S_, .f32⟩) main_call0.v0 id,
    TRef.unary main_call0.v0 main_call0.v1 (broadcastInDim S100000 ![] bcast_S_S100000),
    TRef.ternary (TRef.of main_v13 : TRef sig ⟨S100000, .i1⟩) (TRef.of main_v14 : TRef sig ⟨S100000, .f32⟩) main_call0.v1 main_call0.v2 select ]

/-- The buffers they write. -/
abbrev sw_L1d : List (Ref sig .tc) := [main_cst_1, main_v12, main_v13, main_v14, main_cst_2, main_call0.v0.ref, main_call0.v1.ref, main_call0.v2.ref]

theorem sg_L1d_writes : (sg_L1d : List (HloOp τ sig (Elt F))).Forall fun op =>
    op.writes ⊆ (sw_L1d.map (Proc.devRef (τ := τ) .tc)).toFinset :=
  ⟨wr (y := main_cst_1) (by decide), wr (y := main_v12) (by decide), wr (y := main_v13) (by decide), wr (y := main_v14) (by decide), wr (y := main_cst_2) (by decide), wr (y := main_call0.v0.ref) (by decide), wr (y := main_call0.v1.ref) (by decide), wr (y := main_call0.v2.ref) (by decide)⟩

/-- A buffer they do not write keeps its contents. -/
theorem keep_L1d (V : Valuation τ sig (Elt F)) (r : Ref sig .tc) (h : r ∉ sw_L1d) :
    after (sg_L1d (F := F)) V (Proc.devRef .tc r) = V (Proc.devRef .tc r) :=
  after_of_writes_sub sg_L1d V sg_L1d_writes h

set_option maxRecDepth 100000 in
set_option maxHeartbeats 1000000 in
theorem val_L1d_main_v15 (V : Valuation τ sig (Elt Ideal)) (ei : IVec S2x3200000 32) (q0 : V (main_v11 : DevRef τ sig) = Cert.Gcn.deg ei) :
    after (sg_L1d (F := Ideal)) V (main_v15 : DevRef τ sig) = Cert.Gcn.dinv ei := by
  simp (disch := decide) only [after_cons, after_nil, nullary_result', unary_result', binary_result', ternary_result', reshape_result', nullary_result_ne', unary_result_ne', binary_result_ne', ternary_result_ne', reshape_result_ne']
  simp only [cast_eq, q0]
  unfold Cert.Gcn.dinv
  first | (with_reducible rfl) | fail "comparison failed: L1d main_v15"

/-- Operations 23 … 41 of the 229. -/
abbrev sg_L1e : List (HloOp τ sig (Elt F)) :=
  [ nullary main_c (constantI S_ 32 0#32),
    unary main_c main_v16 (broadcastInDim S3300000 ![] bcast_S_S3300000 : (⟨S_, .i32⟩ : BufTy).Contents (Elt F) → (⟨S3300000, .i32⟩ : BufTy).Contents (Elt F)),
    binary main_v4 main_v16 main_v17 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v18 (broadcastInDim S3300000 ![] bcast_S_S3300000 : (⟨S_, .i32⟩ : BufTy).Contents (Elt F) → (⟨S3300000, .i32⟩ : BufTy).Contents (Elt F)),
    binary main_v4 main_v18 main_v19 (addi : (⟨S3300000, .i32⟩ : BufTy).Contents (Elt F) → (⟨S3300000, .i32⟩ : BufTy).Contents (Elt F) → (⟨S3300000, .i32⟩ : BufTy).Contents (Elt F)),
    ternary main_v17 main_v19 main_v4 main_v20 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v20 main_v21 (broadcastInDim S3300000x1 ![0] bcast_S3300000_S3300000x1_0 : (⟨S3300000, .i32⟩ : BufTy).Contents (Elt F) → (⟨S3300000x1, .i32⟩ : BufTy).Contents (Elt F)),
    binary main_v15 main_v21 main_v22 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v23 (broadcastInDim S3300000 ![] bcast_S_S3300000 : (⟨S_, .i32⟩ : BufTy).Contents (Elt F) → (⟨S3300000, .i32⟩ : BufTy).Contents (Elt F)),
    binary main_v7 main_v23 main_v24 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v25 (broadcastInDim S3300000 ![] bcast_S_S3300000 : (⟨S_, .i32⟩ : BufTy).Contents (Elt F) → (⟨S3300000, .i32⟩ : BufTy).Contents (Elt F)),
    binary main_v7 main_v25 main_v26 (addi : (⟨S3300000, .i32⟩ : BufTy).Contents (Elt F) → (⟨S3300000, .i32⟩ : BufTy).Contents (Elt F) → (⟨S3300000, .i32⟩ : BufTy).Contents (Elt F)),
    ternary main_v24 main_v26 main_v7 main_v27 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v27 main_v28 (broadcastInDim S3300000x1 ![0] bcast_S3300000_S3300000x1_0 : (⟨S3300000, .i32⟩ : BufTy).Contents (Elt F) → (⟨S3300000x1, .i32⟩ : BufTy).Contents (Elt F)),
    binary main_v15 main_v28 main_v29 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v22 main_v29 main_v30 (mulf : (⟨S3300000, .f32⟩ : BufTy).Contents (Elt F) → (⟨S3300000, .f32⟩ : BufTy).Contents (Elt F) → (⟨S3300000, .f32⟩ : BufTy).Contents (Elt F)) ]

/-- The buffers they write. -/
abbrev sw_L1e : List (Ref sig .tc) := [main_c, main_v16, main_v17, main_c_3, main_v18, main_v19, main_v20, main_v21, main_v22, main_c_4, main_v23, main_v24, main_c_5, main_v25, main_v26, main_v27, main_v28, main_v29, main_v30]

theorem sg_L1e_writes : (sg_L1e : List (HloOp τ sig (Elt F))).Forall fun op =>
    op.writes ⊆ (sw_L1e.map (Proc.devRef (τ := τ) .tc)).toFinset :=
  ⟨wr (y := main_c) (by decide), wr (y := main_v16) (by decide), wr (y := main_v17) (by decide), wr (y := main_c_3) (by decide), wr (y := main_v18) (by decide), wr (y := main_v19) (by decide), wr (y := main_v20) (by decide), wr (y := main_v21) (by decide), wr (y := main_v22) (by decide), wr (y := main_c_4) (by decide), wr (y := main_v23) (by decide), wr (y := main_v24) (by decide), wr (y := main_c_5) (by decide), wr (y := main_v25) (by decide), wr (y := main_v26) (by decide), wr (y := main_v27) (by decide), wr (y := main_v28) (by decide), wr (y := main_v29) (by decide), wr (y := main_v30) (by decide)⟩

/-- A buffer they do not write keeps its contents. -/
theorem keep_L1e (V : Valuation τ sig (Elt F)) (r : Ref sig .tc) (h : r ∉ sw_L1e) :
    after (sg_L1e (F := F)) V (Proc.devRef .tc r) = V (Proc.devRef .tc r) :=
  after_of_writes_sub sg_L1e V sg_L1e_writes h

set_option maxRecDepth 100000 in
set_option maxHeartbeats 1000000 in
theorem val_L1e_main_v30 (V : Valuation τ sig (Elt Ideal)) (ei : IVec S2x3200000 32) (q0 : V (main_v4 : DevRef τ sig) = Cert.Gcn.ends0 ei) (q1 : V (main_v7 : DevRef τ sig) = Cert.Gcn.ends1 ei) (q2 : V (main_v15 : DevRef τ sig) = Cert.Gcn.dinv ei) :
    after (sg_L1e (F := Ideal)) V (main_v30 : DevRef τ sig) = Cert.Gcn.norm ei := by
  simp (disch := decide) only [after_cons, after_nil, nullary_result', unary_result', binary_result', ternary_result', reshape_result', nullary_result_ne', unary_result_ne', binary_result_ne', ternary_result_ne', reshape_result_ne']
  simp only [cast_eq, q0, q1, q2]
  unfold Cert.Gcn.norm Cert.Gcn.wrapCol Cert.Gcn.col
  first | (with_reducible rfl) | fail "comparison failed: L1e main_v30"

/-- Operations 42 … 57 of the 229. -/
abbrev sg_L1f : List (HloOp τ sig (Elt F)) :=
  [ unary main_v30 main_v31 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v4 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v4 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v4 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v0 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v7 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- The buffers they write. -/
abbrev sw_L1f : List (Ref sig .tc) := [main_v31, main_c_6, main_v32, main_v33, main_c_7, main_v34, main_v35, main_v36, main_v37, main_v38, main_v39, main_v40, main_cst_8, main_v41, main_v42, main_v43]

theorem sg_L1f_writes : (sg_L1f : List (HloOp τ sig (Elt F))).Forall fun op =>
    op.writes ⊆ (sw_L1f.map (Proc.devRef (τ := τ) .tc)).toFinset :=
  ⟨wr (y := main_v31) (by decide), wr (y := main_c_6) (by decide), wr (y := main_v32) (by decide), wr (y := main_v33) (by decide), wr (y := main_c_7) (by decide), wr (y := main_v34) (by decide), wr (y := main_v35) (by decide), wr (y := main_v36) (by decide), wr (y := main_v37) (by decide), wr (y := main_v38) (by decide), wr (y := main_v39) (by decide), wr (y := main_v40) (by decide), wr (y := main_cst_8) (by decide), wr (y := main_v41) (by decide), wr (y := main_v42) (by decide), wr (y := main_v43) (by decide)⟩

/-- A buffer they do not write keeps its contents. -/
theorem keep_L1f (V : Valuation τ sig (Elt F)) (r : Ref sig .tc) (h : r ∉ sw_L1f) :
    after (sg_L1f (F := F)) V (Proc.devRef .tc r) = V (Proc.devRef .tc r) :=
  after_of_writes_sub sg_L1f V sg_L1f_writes h

set_option maxRecDepth 100000 in
set_option maxHeartbeats 1000000 in
theorem val_L1f_main_v43 (V : Valuation τ sig (Elt Ideal)) (ei : IVec S2x3200000 32) (h : FVec Ideal S100000x16 .f32) (q0 : V (main_v30 : DevRef τ sig) = Cert.Gcn.norm ei) (q1 : V (main_v4 : DevRef τ sig) = Cert.Gcn.ends0 ei) (q2 : V (main_v7 : DevRef τ sig) = Cert.Gcn.ends1 ei) (q3 : V (main_v0 : DevRef τ sig) = h) :
    after (sg_L1f (F := Ideal)) V (main_v43 : DevRef τ sig) = Cert.Gcn.aggR ei h := by
  simp (disch := decide) only [after_cons, after_nil, nullary_result', unary_result', binary_result', ternary_result', reshape_result', nullary_result_ne', unary_result_ne', binary_result_ne', ternary_result_ne', reshape_result_ne']
  simp only [cast_eq, q0, q1, q2, q3]
  unfold Cert.Gcn.aggR Cert.Gcn.scat Cert.Gcn.normMat Cert.Gcn.rows Cert.Gcn.wrapCol Cert.Gcn.col
  first | (with_reducible rfl) | fail "comparison failed: L1f main_v43"

/-- Operations 58 … 64 of the 229. -/
abbrev sg_L1g : List (HloOp τ sig (Elt F)) :=
  [ unary main_arg3 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary main_call1.cst (constant S_ .f32 0x00000000#32),
    TRef.unary main_call1.cst main_call1.v0 (broadcastInDim S100000x16 ![] bcast_S_S100000x16),
    TRef.binary (TRef.of main_v46 : TRef sig ⟨S100000x16, .f32⟩) main_call1.v0 main_call1.v1 maximumf,
    binary main_v47 main_arg4 main_v48 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- The buffers they write. -/
abbrev sw_L1g : List (Ref sig .tc) := [main_v44, main_v45, main_v46, main_call1.cst.ref, main_call1.v0.ref, main_call1.v1.ref, main_v48]

theorem sg_L1g_writes : (sg_L1g : List (HloOp τ sig (Elt F))).Forall fun op =>
    op.writes ⊆ (sw_L1g.map (Proc.devRef (τ := τ) .tc)).toFinset :=
  ⟨wr (y := main_v44) (by decide), wr (y := main_v45) (by decide), wr (y := main_v46) (by decide), wr (y := main_call1.cst.ref) (by decide), wr (y := main_call1.v0.ref) (by decide), wr (y := main_call1.v1.ref) (by decide), wr (y := main_v48) (by decide)⟩

/-- A buffer they do not write keeps its contents. -/
theorem keep_L1g (V : Valuation τ sig (Elt F)) (r : Ref sig .tc) (h : r ∉ sw_L1g) :
    after (sg_L1g (F := F)) V (Proc.devRef .tc r) = V (Proc.devRef .tc r) :=
  after_of_writes_sub sg_L1g V sg_L1g_writes h

set_option maxRecDepth 100000 in
set_option maxHeartbeats 1000000 in
theorem val_L1g_main_v48 (V : Valuation τ sig (Elt Ideal)) (a : FVec Ideal S100000x16 .f32) (b : FVec Ideal S16 .f32) (W : FVec Ideal S16x16 .f32) (q0 : V (main_v43 : DevRef τ sig) = a) (q1 : V (main_arg3 : DevRef τ sig) = b) (q2 : V (main_arg4 : DevRef τ sig) = W) :
    after (sg_L1g (F := Ideal)) V (main_v48 : DevRef τ sig) = Cert.Gcn.hidden a b W := by
  simp (disch := decide) only [after_cons, after_nil, nullary_result', unary_result', binary_result', ternary_result', reshape_result', nullary_result_ne', unary_result_ne', binary_result_ne', ternary_result_ne', reshape_result_ne']
  simp only [cast_eq, q0, q1, q2]
  unfold Cert.Gcn.hidden Cert.Gcn.relu16 Cert.Gcn.addRow16
  first | (with_reducible rfl) | fail "comparison failed: L1g main_v48"

set_option maxRecDepth 100000 in
/-- Window 0's list is these in order. -/
theorem ops0_split : (ops0 : List (HloOp τ sig (Elt F))) = sg_L1a ++ (sg_L1b ++ (sg_L1c ++ (sg_L1d ++ (sg_L1e ++ (sg_L1f ++ (sg_L1g)))))) := rfl

end Cert.ReferenceIdeal.HandRun

end
-- ==== Proof.RefRunOps1.lean ====
/-
  The reference's @main, statements of window 1: its host operations as a list, the outlined functions' operations
  written inline at their call sites over the call's own buffer record, and the window as the sequence of that list.
-/
import proofs.«139937_j4234837753913_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 64 operations of window 1, in order (a call's operations in place of the call). -/
abbrev ops1 : List (HloOp τ sig (Elt F)) :=
  [ nullary main_v49 (iotaInDim S100000 32 0),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32),
    TRef.unary (TRef.of main_cst_12 : TRef sig ⟨S_, .f32⟩) main_call2.v0 id,
    TRef.unary main_call2.v0 main_call2.v1 (broadcastInDim S100000 ![] bcast_S_S100000),
    TRef.ternary (TRef.of main_v61 : TRef sig ⟨S100000, .i1⟩) (TRef.of main_v62 : TRef sig ⟨S100000, .f32⟩) main_call2.v1 main_call2.v2 select,
    nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v52 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v52 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)),
    unary main_v78 main_v79 (broadcastInDim S3300000x1 ![0] bcast_S3300000_S3300000x1_0 : (⟨S3300000, .f32⟩ : BufTy).Contents (Elt F) → (⟨S3300000x1, .f32⟩ : BufTy).Contents (Elt F)),
    nullary main_c_17 (constantI S_ 32 0#32),
    unary main_c_17 main_v80 (broadcastInDim S3300000 ![] bcast_S_S3300000 : (⟨S_, .i32⟩ : BufTy).Contents (Elt F) → (⟨S3300000, .i32⟩ : BufTy).Contents (Elt F)),
    binary main_v52 main_v80 main_v81 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v82 (broadcastInDim S3300000 ![] bcast_S_S3300000 : (⟨S_, .i32⟩ : BufTy).Contents (Elt F) → (⟨S3300000, .i32⟩ : BufTy).Contents (Elt F)),
    binary main_v52 main_v82 main_v83 (addi : (⟨S3300000, .i32⟩ : BufTy).Contents (Elt F) → (⟨S3300000, .i32⟩ : BufTy).Contents (Elt F) → (⟨S3300000, .i32⟩ : BufTy).Contents (Elt F)),
    ternary main_v81 main_v83 main_v52 main_v84 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v84 main_v85 (broadcastInDim S3300000x1 ![0] bcast_S3300000_S3300000x1_0 : (⟨S3300000, .i32⟩ : BufTy).Contents (Elt F) → (⟨S3300000x1, .i32⟩ : BufTy).Contents (Elt F)),
    binary main_v48 main_v85 main_v86 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v79 main_v87 (broadcastInDim S3300000x16 ![0, 1] bcast_S3300000x1_S3300000x16_0_1 : (⟨S3300000x1, .f32⟩ : BufTy).Contents (Elt F) → (⟨S3300000x16, .f32⟩ : BufTy).Contents (Elt F)),
    binary main_v87 main_v86 main_v88 (mulf : (⟨S3300000x16, .f32⟩ : BufTy).Contents (Elt F) → (⟨S3300000x16, .f32⟩ : BufTy).Contents (Elt F) → (⟨S3300000x16, .f32⟩ : BufTy).Contents (Elt F)),
    nullary main_cst_19 (constant S_ .f32 0x00000000#32),
    unary main_cst_19 main_v89 (broadcastInDim S100000x16 ![] bcast_S_S100000x16 : (⟨S_, .f32⟩ : BufTy).Contents (Elt F) → (⟨S100000x16, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg5 main_v92 (broadcastInDim S1x16 ![1] bcast_S16_S1x16_1 : (⟨S16, .f32⟩ : BufTy).Contents (Elt F) → (⟨S1x16, .f32⟩ : BufTy).Contents (Elt F)),
    unary main_v92 main_v93 (broadcastInDim S100000x16 ![0, 1] bcast_S1x16_S100000x16_0_1 : (⟨S1x16, .f32⟩ : BufTy).Contents (Elt F) → (⟨S100000x16, .f32⟩ : BufTy).Contents (Elt F)),
    binary main_v91 main_v93 main_v94 (addf : (⟨S100000x16, .f32⟩ : BufTy).Contents (Elt F) → (⟨S100000x16, .f32⟩ : BufTy).Contents (Elt F) → (⟨S100000x16, .f32⟩ : BufTy).Contents (Elt F)),
    TRef.nullary main_call3.cst (constant S_ .f32 0x00000000#32),
    TRef.unary main_call3.cst main_call3.v0 (broadcastInDim S100000x16 ![] bcast_S_S100000x16),
    TRef.binary (TRef.of main_v94 : TRef sig ⟨S100000x16, .f32⟩) main_call3.v0 main_call3.v1 maximumf,
    binary main_v95 main_arg6 main_v96 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)),
    nullary main_v97 (iotaInDim S100000 32 0) ]

set_option maxRecDepth 8192 in
set_option maxHeartbeats 4000000 in
/-- Window 1 is that straight line: the callees unfolded at their calls, sequencing reassociated. -/
theorem main_part1_eq (c : Dev nD) : main_part1 (F := F) c = seq ops1 := by
  simp only [main_part1, fn_where.body, fn_relu.body, seq, bind_assoc, pure_bind] <;> rfl

set_option maxRecDepth 8192 in
theorem ops1_sub : (ops1 : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., nullary_bufs_sub ..⟩

end Cert.ReferenceIdeal.HandRun

end
-- ==== Proof.RefRunSeg1.lean ====
/-
  Window 1 of the reference's run, cut at the values the shared vocabulary names: each stretch of operations read
  back from any contents whose input buffers hold given values, and the buffers each stretch writes.
-/
import proofs.«139937_j4234837753913_1_alg».proof.Proof.RefRunOps1
import proofs.«139937_j4234837753913_1_alg».proof.Proof.RefRunBase
import proofs.«139937_j4234837753913_1_alg».proof.Proof.Spec

noncomputable section

namespace Cert.ReferenceIdeal.HandRun

open Cert.ReferenceIdeal Cert.ReferenceIdeal.Gen Idealize.ShloMosaic Idealize.ShloMosaic.TcCoe Idealize.SL.Sem Idealize.ShloMosaic.StableHlo

set_option pp.maxSteps 3000
set_option pp.deepTerms false
set_option pp.proofs false

variable {F : FTy → Type} [FloatOps F]

/-- Operations 65 … 71 of the 229. -/
abbrev sg_L2b : List (HloOp τ sig (Elt F)) :=
  [ nullary main_v49 (iotaInDim S100000 32 0),
    unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    reshape main_v50 main_v51 rfl shapeCasts_S1x3200000_S3200000,
    binary main_v51 main_v49 main_v52 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v53 ((extractStridedSlice S1x3200000 ![1, 0] · slices_S2x3200000_S1x3200000_1_0) : (⟨S2x3200000, .i32⟩ : BufTy).Contents (Elt F) → (⟨S1x3200000, .i32⟩ : BufTy).Contents (Elt F)),
    reshape main_v53 main_v54 rfl shapeCasts_S1x3200000_S3200000,
    binary main_v54 main_v49 main_v55 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The buffers they write. -/
abbrev sw_L2b : List (Ref sig .tc) := [main_v49, main_v50, main_v51, main_v52, main_v53, main_v54, main_v55]

theorem sg_L2b_writes : (sg_L2b : List (HloOp τ sig (Elt F))).Forall fun op =>
    op.writes ⊆ (sw_L2b.map (Proc.devRef (τ := τ) .tc)).toFinset :=
  ⟨wr (y := main_v49) (by decide), wr (y := main_v50) (by decide), wr (y := main_v51) (by decide), wr (y := main_v52) (by decide), wr (y := main_v53) (by decide), wr (y := main_v54) (by decide), wr (y := main_v55) (by decide)⟩

/-- A buffer they do not write keeps its contents. -/
theorem keep_L2b (V : Valuation τ sig (Elt F)) (r : Ref sig .tc) (h : r ∉ sw_L2b) :
    after (sg_L2b (F := F)) V (Proc.devRef .tc r) = V (Proc.devRef .tc r) :=
  after_of_writes_sub sg_L2b V sg_L2b_writes h

set_option maxRecDepth 100000 in
set_option maxHeartbeats 1000000 in
theorem val_L2b_main_v52 (V : Valuation τ sig (Elt Ideal))   :
    after (sg_L2b (F := Ideal)) V (main_v52 : DevRef τ sig) = Cert.Gcn.ends0 (V (main_arg1 : DevRef τ sig)) := by
  after_results
  unfold Cert.Gcn.ends0
  first | (with_reducible rfl) | rfl

set_option maxRecDepth 100000 in
set_option maxHeartbeats 1000000 in
theorem val_L2b_main_v55 (V : Valuation τ sig (Elt Ideal))   :
    after (sg_L2b (F := Ideal)) V (main_v55 : DevRef τ sig) = Cert.Gcn.ends1 (V (main_arg1 : DevRef τ sig)) := by
  after_results
  unfold Cert.Gcn.ends1
  first | (with_reducible rfl) | rfl

/-- Operations 72 … 77 of the 229. -/
abbrev sg_L2c : List (HloOp τ sig (Elt F)) :=
  [ nullary main_cst_9 (constant S_ .f32 0x3F800000#32),
    unary main_cst_9 main_v56 (broadcastInDim S3300000 ![] bcast_S_S3300000 : (⟨S_, .f32⟩ : BufTy).Contents (Elt F) → (⟨S3300000, .f32⟩ : BufTy).Contents (Elt F)),
    nullary main_cst_10 (constant S_ .f32 0x00000000#32),
    unary main_cst_10 main_v57 (broadcastInDim S100000 ![] bcast_S_S100000 : (⟨S_, .f32⟩ : BufTy).Contents (Elt F) → (⟨S100000, .f32⟩ : BufTy).Contents (Elt F)),
    unary main_v55 main_v58 (broadcastInDim S3300000x1 ![0] bcast_S3300000_S3300000x1_0 : (⟨S3300000, .i32⟩ : BufTy).Contents (Elt F) → (⟨S3300000x1, .i32⟩ : BufTy).Contents (Elt F)),
    ternary main_v57 main_v58 main_v56 main_v59 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ]

/-- The buffers they write. -/
abbrev sw_L2c : List (Ref sig .tc) := [main_cst_9, main_v56, main_cst_10, main_v57, main_v58, main_v59]

theorem sg_L2c_writes : (sg_L2c : List (HloOp τ sig (Elt F))).Forall fun op =>
    op.writes ⊆ (sw_L2c.map (Proc.devRef (τ := τ) .tc)).toFinset :=
  ⟨wr (y := main_cst_9) (by decide), wr (y := main_v56) (by decide), wr (y := main_cst_10) (by decide), wr (y := main_v57) (by decide), wr (y := main_v58) (by decide), wr (y := main_v59) (by decide)⟩

/-- A buffer they do not write keeps its contents. -/
theorem keep_L2c (V : Valuation τ sig (Elt F)) (r : Ref sig .tc) (h : r ∉ sw_L2c) :
    after (sg_L2c (F := F)) V (Proc.devRef .tc r) = V (Proc.devRef .tc r) :=
  after_of_writes_sub sg_L2c V sg_L2c_writes h

set_option maxRecDepth 100000 in
set_option maxHeartbeats 1000000 in
theorem val_L2c_main_v59 (V : Valuation τ sig (Elt Ideal)) (ei : IVec S2x3200000 32) (q0 : V (main_v55 : DevRef τ sig) = Cert.Gcn.ends1 ei) :
    after (sg_L2c (F := Ideal)) V (main_v59 : DevRef τ sig) = Cert.Gcn.deg ei := by
  simp (disch := decide) only [after_cons, after_nil, nullary_result', unary_result', binary_result', ternary_result', reshape_result', nullary_result_ne', unary_result_ne', binary_result_ne', ternary_result_ne', reshape_result_ne']
  simp only [cast_eq, q0]
  unfold Cert.Gcn.deg Cert.Gcn.col
  first | (with_reducible rfl) | fail "comparison failed: L2c main_v59"

/-- Operations 78 … 85 of the 229. -/
abbrev sg_L2d : List (HloOp τ sig (Elt F)) :=
  [ nullary main_cst_11 (constant S_ .f32 0x00000000#32),
    unary main_cst_11 main_v60 (broadcastInDim S100000 ![] bcast_S_S100000 : (⟨S_, .f32⟩ : BufTy).Contents (Elt F) → (⟨S100000, .f32⟩ : BufTy).Contents (Elt F)),
    binary main_v59 main_v60 main_v61 (cmpf .ogt : (⟨S100000, .f32⟩ : BufTy).Contents (Elt F) → (⟨S100000, .f32⟩ : BufTy).Contents (Elt F) → (⟨S100000, .i1⟩ : BufTy).Contents (Elt F)),
    unary main_v59 main_v62 (Host.rsqrt : (⟨S100000, .f32⟩ : BufTy).Contents (Elt F) → (⟨S100000, .f32⟩ : BufTy).Contents (Elt F)),
    nullary main_cst_12 (constant S_ .f32 0x00000000#32),
    TRef.unary (TRef.of main_cst_12 : TRef sig ⟨S_, .f32⟩) main_call2.v0 id,
    TRef.unary main_call2.v0 main_call2.v1 (broadcastInDim S100000 ![] bcast_S_S100000),
    TRef.ternary (TRef.of main_v61 : TRef sig ⟨S100000, .i1⟩) (TRef.of main_v62 : TRef sig ⟨S100000, .f32⟩) main_call2.v1 main_call2.v2 select ]

/-- The buffers they write. -/
abbrev sw_L2d : List (Ref sig .tc) := [main_cst_11, main_v60, main_v61, main_v62, main_cst_12, main_call2.v0.ref, main_call2.v1.ref, main_call2.v2.ref]

theorem sg_L2d_writes : (sg_L2d : List (HloOp τ sig (Elt F))).Forall fun op =>
    op.writes ⊆ (sw_L2d.map (Proc.devRef (τ := τ) .tc)).toFinset :=
  ⟨wr (y := main_cst_11) (by decide), wr (y := main_v60) (by decide), wr (y := main_v61) (by decide), wr (y := main_v62) (by decide), wr (y := main_cst_12) (by decide), wr (y := main_call2.v0.ref) (by decide), wr (y := main_call2.v1.ref) (by decide), wr (y := main_call2.v2.ref) (by decide)⟩

/-- A buffer they do not write keeps its contents. -/
theorem keep_L2d (V : Valuation τ sig (Elt F)) (r : Ref sig .tc) (h : r ∉ sw_L2d) :
    after (sg_L2d (F := F)) V (Proc.devRef .tc r) = V (Proc.devRef .tc r) :=
  after_of_writes_sub sg_L2d V sg_L2d_writes h

set_option maxRecDepth 100000 in
set_option maxHeartbeats 1000000 in
theorem val_L2d_main_v63 (V : Valuation τ sig (Elt Ideal)) (ei : IVec S2x3200000 32) (q0 : V (main_v59 : DevRef τ sig) = Cert.Gcn.deg ei) :
    after (sg_L2d (F := Ideal)) V (main_v63 : DevRef τ sig) = Cert.Gcn.dinv ei := by
  simp (disch := decide) only [after_cons, after_nil, nullary_result', unary_result', binary_result', ternary_result', reshape_result', nullary_result_ne', unary_result_ne', binary_result_ne', ternary_result_ne', reshape_result_ne']
  simp only [cast_eq, q0]
  unfold Cert.Gcn.dinv
  first | (with_reducible rfl) | fail "comparison failed: L2d main_v63"

/-- Operations 86 … 104 of the 229. -/
abbrev sg_L2e : List (HloOp τ sig (Elt F)) :=
  [ nullary main_c_13 (constantI S_ 32 0#32),
    unary main_c_13 main_v64 (broadcastInDim S3300000 ![] bcast_S_S3300000 : (⟨S_, .i32⟩ : BufTy).Contents (Elt F) → (⟨S3300000, .i32⟩ : BufTy).Contents (Elt F)),
    binary main_v52 main_v64 main_v65 (cmpi .slt : (⟨S3300000, .i32⟩ : BufTy).Contents (Elt F) → (⟨S3300000, .i32⟩ : BufTy).Contents (Elt F) → (⟨S3300000, .i1⟩ : BufTy).Contents (Elt F)),
    nullary main_c_14 (constantI S_ 32 100000#32),
    unary main_c_14 main_v66 (broadcastInDim S3300000 ![] bcast_S_S3300000 : (⟨S_, .i32⟩ : BufTy).Contents (Elt F) → (⟨S3300000, .i32⟩ : BufTy).Contents (Elt F)),
    binary main_v52 main_v66 main_v67 (addi : (⟨S3300000, .i32⟩ : BufTy).Contents (Elt F) → (⟨S3300000, .i32⟩ : BufTy).Contents (Elt F) → (⟨S3300000, .i32⟩ : BufTy).Contents (Elt F)),
    ternary main_v65 main_v67 main_v52 main_v68 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v68 main_v69 (broadcastInDim S3300000x1 ![0] bcast_S3300000_S3300000x1_0 : (⟨S3300000, .i32⟩ : BufTy).Contents (Elt F) → (⟨S3300000x1, .i32⟩ : BufTy).Contents (Elt F)),
    binary main_v63 main_v69 main_v70 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_15 (constantI S_ 32 0#32),
    unary main_c_15 main_v71 (broadcastInDim S3300000 ![] bcast_S_S3300000 : (⟨S_, .i32⟩ : BufTy).Contents (Elt F) → (⟨S3300000, .i32⟩ : BufTy).Contents (Elt F)),
    binary main_v55 main_v71 main_v72 (cmpi .slt : (⟨S3300000, .i32⟩ : BufTy).Contents (Elt F) → (⟨S3300000, .i32⟩ : BufTy).Contents (Elt F) → (⟨S3300000, .i1⟩ : BufTy).Contents (Elt F)),
    nullary main_c_16 (constantI S_ 32 100000#32),
    unary main_c_16 main_v73 (broadcastInDim S3300000 ![] bcast_S_S3300000 : (⟨S_, .i32⟩ : BufTy).Contents (Elt F) → (⟨S3300000, .i32⟩ : BufTy).Contents (Elt F)),
    binary main_v55 main_v73 main_v74 (addi : (⟨S3300000, .i32⟩ : BufTy).Contents (Elt F) → (⟨S3300000, .i32⟩ : BufTy).Contents (Elt F) → (⟨S3300000, .i32⟩ : BufTy).Contents (Elt F)),
    ternary main_v72 main_v74 main_v55 main_v75 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v75 main_v76 (broadcastInDim S3300000x1 ![0] bcast_S3300000_S3300000x1_0 : (⟨S3300000, .i32⟩ : BufTy).Contents (Elt F) → (⟨S3300000x1, .i32⟩ : BufTy).Contents (Elt F)),
    binary main_v63 main_v76 main_v77 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v70 main_v77 main_v78 (mulf : (⟨S3300000, .f32⟩ : BufTy).Contents (Elt F) → (⟨S3300000, .f32⟩ : BufTy).Contents (Elt F) → (⟨S3300000, .f32⟩ : BufTy).Contents (Elt F)) ]

/-- The buffers they write. -/
abbrev sw_L2e : List (Ref sig .tc) := [main_c_13, main_v64, main_v65, main_c_14, main_v66, main_v67, main_v68, main_v69, main_v70, main_c_15, main_v71, main_v72, main_c_16, main_v73, main_v74, main_v75, main_v76, main_v77, main_v78]

theorem sg_L2e_writes : (sg_L2e : List (HloOp τ sig (Elt F))).Forall fun op =>
    op.writes ⊆ (sw_L2e.map (Proc.devRef (τ := τ) .tc)).toFinset :=
  ⟨wr (y := main_c_13) (by decide), wr (y := main_v64) (by decide), wr (y := main_v65) (by decide), wr (y := main_c_14) (by decide), wr (y := main_v66) (by decide), wr (y := main_v67) (by decide), wr (y := main_v68) (by decide), wr (y := main_v69) (by decide), wr (y := main_v70) (by decide), wr (y := main_c_15) (by decide), wr (y := main_v71) (by decide), wr (y := main_v72) (by decide), wr (y := main_c_16) (by decide), wr (y := main_v73) (by decide), wr (y := main_v74) (by decide), wr (y := main_v75) (by decide), wr (y := main_v76) (by decide), wr (y := main_v77) (by decide), wr (y := main_v78) (by decide)⟩

/-- A buffer they do not write keeps its contents. -/
theorem keep_L2e (V : Valuation τ sig (Elt F)) (r : Ref sig .tc) (h : r ∉ sw_L2e) :
    after (sg_L2e (F := F)) V (Proc.devRef .tc r) = V (Proc.devRef .tc r) :=
  after_of_writes_sub sg_L2e V sg_L2e_writes h

set_option maxRecDepth 100000 in
set_option maxHeartbeats 1000000 in
theorem val_L2e_main_v78 (V : Valuation τ sig (Elt Ideal)) (ei : IVec S2x3200000 32) (q0 : V (main_v52 : DevRef τ sig) = Cert.Gcn.ends0 ei) (q1 : V (main_v55 : DevRef τ sig) = Cert.Gcn.ends1 ei) (q2 : V (main_v63 : DevRef τ sig) = Cert.Gcn.dinv ei) :
    after (sg_L2e (F := Ideal)) V (main_v78 : DevRef τ sig) = Cert.Gcn.norm ei := by
  simp (disch := decide) only [after_cons, after_nil, nullary_result', unary_result', binary_result', ternary_result', reshape_result', nullary_result_ne', unary_result_ne', binary_result_ne', ternary_result_ne', reshape_result_ne']
  simp only [cast_eq, q0, q1, q2]
  unfold Cert.Gcn.norm Cert.Gcn.wrapCol Cert.Gcn.col
  first | (with_reducible rfl) | fail "comparison failed: L2e main_v78"

/-- Operations 105 … 120 of the 229. -/
abbrev sg_L2f : List (HloOp τ sig (Elt F)) :=
  [ unary main_v78 main_v79 (broadcastInDim S3300000x1 ![0] bcast_S3300000_S3300000x1_0 : (⟨S3300000, .f32⟩ : BufTy).Contents (Elt F) → (⟨S3300000x1, .f32⟩ : BufTy).Contents (Elt F)),
    nullary main_c_17 (constantI S_ 32 0#32),
    unary main_c_17 main_v80 (broadcastInDim S3300000 ![] bcast_S_S3300000 : (⟨S_, .i32⟩ : BufTy).Contents (Elt F) → (⟨S3300000, .i32⟩ : BufTy).Contents (Elt F)),
    binary main_v52 main_v80 main_v81 (cmpi .slt : (⟨S3300000, .i32⟩ : BufTy).Contents (Elt F) → (⟨S3300000, .i32⟩ : BufTy).Contents (Elt F) → (⟨S3300000, .i1⟩ : BufTy).Contents (Elt F)),
    nullary main_c_18 (constantI S_ 32 100000#32),
    unary main_c_18 main_v82 (broadcastInDim S3300000 ![] bcast_S_S3300000 : (⟨S_, .i32⟩ : BufTy).Contents (Elt F) → (⟨S3300000, .i32⟩ : BufTy).Contents (Elt F)),
    binary main_v52 main_v82 main_v83 (addi : (⟨S3300000, .i32⟩ : BufTy).Contents (Elt F) → (⟨S3300000, .i32⟩ : BufTy).Contents (Elt F) → (⟨S3300000, .i32⟩ : BufTy).Contents (Elt F)),
    ternary main_v81 main_v83 main_v52 main_v84 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v84 main_v85 (broadcastInDim S3300000x1 ![0] bcast_S3300000_S3300000x1_0 : (⟨S3300000, .i32⟩ : BufTy).Contents (Elt F) → (⟨S3300000x1, .i32⟩ : BufTy).Contents (Elt F)),
    binary main_v48 main_v85 main_v86 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v79 main_v87 (broadcastInDim S3300000x16 ![0, 1] bcast_S3300000x1_S3300000x16_0_1 : (⟨S3300000x1, .f32⟩ : BufTy).Contents (Elt F) → (⟨S3300000x16, .f32⟩ : BufTy).Contents (Elt F)),
    binary main_v87 main_v86 main_v88 (mulf : (⟨S3300000x16, .f32⟩ : BufTy).Contents (Elt F) → (⟨S3300000x16, .f32⟩ : BufTy).Contents (Elt F) → (⟨S3300000x16, .f32⟩ : BufTy).Contents (Elt F)),
    nullary main_cst_19 (constant S_ .f32 0x00000000#32),
    unary main_cst_19 main_v89 (broadcastInDim S100000x16 ![] bcast_S_S100000x16 : (⟨S_, .f32⟩ : BufTy).Contents (Elt F) → (⟨S100000x16, .f32⟩ : BufTy).Contents (Elt F)),
    unary main_v55 main_v90 (broadcastInDim S3300000x1 ![0] bcast_S3300000_S3300000x1_0 : (⟨S3300000, .i32⟩ : BufTy).Contents (Elt F) → (⟨S3300000x1, .i32⟩ : BufTy).Contents (Elt F)),
    ternary main_v89 main_v90 main_v88 main_v91 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- The buffers they write. -/
abbrev sw_L2f : List (Ref sig .tc) := [main_v79, main_c_17, main_v80, main_v81, main_c_18, main_v82, main_v83, main_v84, main_v85, main_v86, main_v87, main_v88, main_cst_19, main_v89, main_v90, main_v91]

theorem sg_L2f_writes : (sg_L2f : List (HloOp τ sig (Elt F))).Forall fun op =>
    op.writes ⊆ (sw_L2f.map (Proc.devRef (τ := τ) .tc)).toFinset :=
  ⟨wr (y := main_v79) (by decide), wr (y := main_c_17) (by decide), wr (y := main_v80) (by decide), wr (y := main_v81) (by decide), wr (y := main_c_18) (by decide), wr (y := main_v82) (by decide), wr (y := main_v83) (by decide), wr (y := main_v84) (by decide), wr (y := main_v85) (by decide), wr (y := main_v86) (by decide), wr (y := main_v87) (by decide), wr (y := main_v88) (by decide), wr (y := main_cst_19) (by decide), wr (y := main_v89) (by decide), wr (y := main_v90) (by decide), wr (y := main_v91) (by decide)⟩

/-- A buffer they do not write keeps its contents. -/
theorem keep_L2f (V : Valuation τ sig (Elt F)) (r : Ref sig .tc) (h : r ∉ sw_L2f) :
    after (sg_L2f (F := F)) V (Proc.devRef .tc r) = V (Proc.devRef .tc r) :=
  after_of_writes_sub sg_L2f V sg_L2f_writes h

set_option maxRecDepth 100000 in
set_option maxHeartbeats 1000000 in
theorem val_L2f_main_v91 (V : Valuation τ sig (Elt Ideal)) (ei : IVec S2x3200000 32) (h : FVec Ideal S100000x16 .f32) (q0 : V (main_v78 : DevRef τ sig) = Cert.Gcn.norm ei) (q1 : V (main_v52 : DevRef τ sig) = Cert.Gcn.ends0 ei) (q2 : V (main_v55 : DevRef τ sig) = Cert.Gcn.ends1 ei) (q3 : V (main_v48 : DevRef τ sig) = h) :
    after (sg_L2f (F := Ideal)) V (main_v91 : DevRef τ sig) = Cert.Gcn.aggR ei h := by
  simp (disch := decide) only [after_cons, after_nil, nullary_result', unary_result', binary_result', ternary_result', reshape_result', nullary_result_ne', unary_result_ne', binary_result_ne', ternary_result_ne', reshape_result_ne']
  simp only [cast_eq, q0, q1, q2, q3]
  unfold Cert.Gcn.aggR Cert.Gcn.scat Cert.Gcn.normMat Cert.Gcn.rows Cert.Gcn.wrapCol Cert.Gcn.col
  first | (with_reducible rfl) | fail "comparison failed: L2f main_v91"

/-- Operations 121 … 127 of the 229. -/
abbrev sg_L2g : List (HloOp τ sig (Elt F)) :=
  [ unary main_arg5 main_v92 (broadcastInDim S1x16 ![1] bcast_S16_S1x16_1 : (⟨S16, .f32⟩ : BufTy).Contents (Elt F) → (⟨S1x16, .f32⟩ : BufTy).Contents (Elt F)),
    unary main_v92 main_v93 (broadcastInDim S100000x16 ![0, 1] bcast_S1x16_S100000x16_0_1 : (⟨S1x16, .f32⟩ : BufTy).Contents (Elt F) → (⟨S100000x16, .f32⟩ : BufTy).Contents (Elt F)),
    binary main_v91 main_v93 main_v94 (addf : (⟨S100000x16, .f32⟩ : BufTy).Contents (Elt F) → (⟨S100000x16, .f32⟩ : BufTy).Contents (Elt F) → (⟨S100000x16, .f32⟩ : BufTy).Contents (Elt F)),
    TRef.nullary main_call3.cst (constant S_ .f32 0x00000000#32),
    TRef.unary main_call3.cst main_call3.v0 (broadcastInDim S100000x16 ![] bcast_S_S100000x16),
    TRef.binary (TRef.of main_v94 : TRef sig ⟨S100000x16, .f32⟩) main_call3.v0 main_call3.v1 maximumf,
    binary main_v95 main_arg6 main_v96 ((fun l r => Host.dotGeneral dot_S100000x16_S16x16_S100000x16_1_0_0_1_n_n none l r) : (⟨S100000x16, .f32⟩ : BufTy).Contents (Elt F) → (⟨S16x16, .f32⟩ : BufTy).Contents (Elt F) → (⟨S100000x16, .f32⟩ : BufTy).Contents (Elt F)) ]

/-- The buffers they write. -/
abbrev sw_L2g : List (Ref sig .tc) := [main_v92, main_v93, main_v94, main_call3.cst.ref, main_call3.v0.ref, main_call3.v1.ref, main_v96]

theorem sg_L2g_writes : (sg_L2g : List (HloOp τ sig (Elt F))).Forall fun op =>
    op.writes ⊆ (sw_L2g.map (Proc.devRef (τ := τ) .tc)).toFinset :=
  ⟨wr (y := main_v92) (by decide), wr (y := main_v93) (by decide), wr (y := main_v94) (by decide), wr (y := main_call3.cst.ref) (by decide), wr (y := main_call3.v0.ref) (by decide), wr (y := main_call3.v1.ref) (by decide), wr (y := main_v96) (by decide)⟩

/-- A buffer they do not write keeps its contents. -/
theorem keep_L2g (V : Valuation τ sig (Elt F)) (r : Ref sig .tc) (h : r ∉ sw_L2g) :
    after (sg_L2g (F := F)) V (Proc.devRef .tc r) = V (Proc.devRef .tc r) :=
  after_of_writes_sub sg_L2g V sg_L2g_writes h

set_option maxRecDepth 100000 in
set_option maxHeartbeats 1000000 in
theorem val_L2g_main_v96 (V : Valuation τ sig (Elt Ideal)) (a : FVec Ideal S100000x16 .f32) (b : FVec Ideal S16 .f32) (W : FVec Ideal S16x16 .f32) (q0 : V (main_v91 : DevRef τ sig) = a) (q1 : V (main_arg5 : DevRef τ sig) = b) (q2 : V (main_arg6 : DevRef τ sig) = W) :
    after (sg_L2g (F := Ideal)) V (main_v96 : DevRef τ sig) = Cert.Gcn.hidden a b W := by
  simp (disch := decide) only [after_cons, after_nil, nullary_result', unary_result', binary_result', ternary_result', reshape_result', nullary_result_ne', unary_result_ne', binary_result_ne', ternary_result_ne', reshape_result_ne']
  simp only [cast_eq, q0, q1, q2]
  unfold Cert.Gcn.hidden Cert.Gcn.relu16 Cert.Gcn.addRow16
  first | (with_reducible rfl) | fail "comparison failed: L2g main_v96"

/-- Operations 128 … 128 of the 229. -/
abbrev sg_L2h : List (HloOp τ sig (Elt F)) :=
  [ nullary main_v97 (iotaInDim S100000 32 0) ]

/-- The buffers they write. -/
abbrev sw_L2h : List (Ref sig .tc) := [main_v97]

theorem sg_L2h_writes : (sg_L2h : List (HloOp τ sig (Elt F))).Forall fun op =>
    op.writes ⊆ (sw_L2h.map (Proc.devRef (τ := τ) .tc)).toFinset :=
  wr (y := main_v97) (by decide)

/-- A buffer they do not write keeps its contents. -/
theorem keep_L2h (V : Valuation τ sig (Elt F)) (r : Ref sig .tc) (h : r ∉ sw_L2h) :
    after (sg_L2h (F := F)) V (Proc.devRef .tc r) = V (Proc.devRef .tc r) :=
  after_of_writes_sub sg_L2h V sg_L2h_writes h

set_option maxRecDepth 100000 in
set_option maxHeartbeats 1000000 in
theorem val_L2h_main_v97 (V : Valuation τ sig (Elt Ideal))   :
    after (sg_L2h (F := Ideal)) V (main_v97 : DevRef τ sig) = iotaInDim S100000 32 0 := by
  simp (disch := decide) only [after_cons, after_nil, nullary_result', unary_result', binary_result', ternary_result', reshape_result', nullary_result_ne', unary_result_ne', binary_result_ne', ternary_result_ne', reshape_result_ne']

set_option maxRecDepth 100000 in
/-- Window 1's list is these in order. -/
theorem ops1_split : (ops1 : List (HloOp τ sig (Elt F))) = sg_L2b ++ (sg_L2c ++ (sg_L2d ++ (sg_L2e ++ (sg_L2f ++ (sg_L2g ++ (sg_L2h)))))) := rfl

end Cert.ReferenceIdeal.HandRun

end
-- ==== Proof.RefRunOps2.lean ====
/-
  The reference's @main, statements of window 2: its host operations as a list, the outlined functions' operations
  written inline at their call sites over the call's own buffer record, and the window as the sequence of that list.
-/
import proofs.«139937_j4234837753913_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 62 operations of window 2, in order (a call's operations in place of the call). -/
abbrev ops2 : List (HloOp τ sig (Elt F)) :=
  [ unary main_arg1 main_v98 ((extractStridedSlice S1x3200000 ![0, 0] · slices_S2x3200000_S1x3200000_0_0) : (⟨S2x3200000, .i32⟩ : BufTy).Contents (Elt F) → (⟨S1x3200000, .i32⟩ : BufTy).Contents (Elt F)),
    reshape main_v98 main_v99 rfl shapeCasts_S1x3200000_S3200000,
    binary main_v99 main_v97 main_v100 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v101 ((extractStridedSlice S1x3200000 ![1, 0] · slices_S2x3200000_S1x3200000_1_0) : (⟨S2x3200000, .i32⟩ : BufTy).Contents (Elt F) → (⟨S1x3200000, .i32⟩ : BufTy).Contents (Elt F)),
    reshape main_v101 main_v102 rfl shapeCasts_S1x3200000_S3200000,
    binary main_v102 main_v97 main_v103 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_20 (constant S_ .f32 0x3F800000#32),
    unary main_cst_20 main_v104 (broadcastInDim S3300000 ![] bcast_S_S3300000 : (⟨S_, .f32⟩ : BufTy).Contents (Elt F) → (⟨S3300000, .f32⟩ : BufTy).Contents (Elt F)),
    nullary main_cst_21 (constant S_ .f32 0x00000000#32),
    unary main_cst_21 main_v105 (broadcastInDim S100000 ![] bcast_S_S100000 : (⟨S_, .f32⟩ : BufTy).Contents (Elt F) → (⟨S100000, .f32⟩ : BufTy).Contents (Elt F)),
    unary main_v103 main_v106 (broadcastInDim S3300000x1 ![0] bcast_S3300000_S3300000x1_0 : (⟨S3300000, .i32⟩ : BufTy).Contents (Elt F) → (⟨S3300000x1, .i32⟩ : BufTy).Contents (Elt F)),
    ternary main_v105 main_v106 main_v104 main_v107 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_22 (constant S_ .f32 0x00000000#32),
    unary main_cst_22 main_v108 (broadcastInDim S100000 ![] bcast_S_S100000 : (⟨S_, .f32⟩ : BufTy).Contents (Elt F) → (⟨S100000, .f32⟩ : BufTy).Contents (Elt F)),
    binary main_v107 main_v108 main_v109 (cmpf .ogt : (⟨S100000, .f32⟩ : BufTy).Contents (Elt F) → (⟨S100000, .f32⟩ : BufTy).Contents (Elt F) → (⟨S100000, .i1⟩ : BufTy).Contents (Elt F)),
    unary main_v107 main_v110 (Host.rsqrt : (⟨S100000, .f32⟩ : BufTy).Contents (Elt F) → (⟨S100000, .f32⟩ : BufTy).Contents (Elt F)),
    nullary main_cst_23 (constant S_ .f32 0x00000000#32),
    TRef.unary (TRef.of main_cst_23 : TRef sig ⟨S_, .f32⟩) main_call4.v0 id,
    TRef.unary main_call4.v0 main_call4.v1 (broadcastInDim S100000 ![] bcast_S_S100000),
    TRef.ternary (TRef.of main_v109 : TRef sig ⟨S100000, .i1⟩) (TRef.of main_v110 : TRef sig ⟨S100000, .f32⟩) main_call4.v1 main_call4.v2 select,
    nullary main_c_24 (constantI S_ 32 0#32),
    unary main_c_24 main_v112 (broadcastInDim S3300000 ![] bcast_S_S3300000 : (⟨S_, .i32⟩ : BufTy).Contents (Elt F) → (⟨S3300000, .i32⟩ : BufTy).Contents (Elt F)),
    binary main_v100 main_v112 main_v113 (cmpi .slt : (⟨S3300000, .i32⟩ : BufTy).Contents (Elt F) → (⟨S3300000, .i32⟩ : BufTy).Contents (Elt F) → (⟨S3300000, .i1⟩ : BufTy).Contents (Elt F)),
    nullary main_c_25 (constantI S_ 32 100000#32),
    unary main_c_25 main_v114 (broadcastInDim S3300000 ![] bcast_S_S3300000 : (⟨S_, .i32⟩ : BufTy).Contents (Elt F) → (⟨S3300000, .i32⟩ : BufTy).Contents (Elt F)),
    binary main_v100 main_v114 main_v115 (addi : (⟨S3300000, .i32⟩ : BufTy).Contents (Elt F) → (⟨S3300000, .i32⟩ : BufTy).Contents (Elt F) → (⟨S3300000, .i32⟩ : BufTy).Contents (Elt F)),
    ternary main_v113 main_v115 main_v100 main_v116 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v116 main_v117 (broadcastInDim S3300000x1 ![0] bcast_S3300000_S3300000x1_0 : (⟨S3300000, .i32⟩ : BufTy).Contents (Elt F) → (⟨S3300000x1, .i32⟩ : BufTy).Contents (Elt F)),
    binary main_v111 main_v117 main_v118 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_26 (constantI S_ 32 0#32),
    unary main_c_26 main_v119 (broadcastInDim S3300000 ![] bcast_S_S3300000 : (⟨S_, .i32⟩ : BufTy).Contents (Elt F) → (⟨S3300000, .i32⟩ : BufTy).Contents (Elt F)),
    binary main_v103 main_v119 main_v120 (cmpi .slt : (⟨S3300000, .i32⟩ : BufTy).Contents (Elt F) → (⟨S3300000, .i32⟩ : BufTy).Contents (Elt F) → (⟨S3300000, .i1⟩ : BufTy).Contents (Elt F)),
    nullary main_c_27 (constantI S_ 32 100000#32),
    unary main_c_27 main_v121 (broadcastInDim S3300000 ![] bcast_S_S3300000 : (⟨S_, .i32⟩ : BufTy).Contents (Elt F) → (⟨S3300000, .i32⟩ : BufTy).Contents (Elt F)),
    binary main_v103 main_v121 main_v122 (addi : (⟨S3300000, .i32⟩ : BufTy).Contents (Elt F) → (⟨S3300000, .i32⟩ : BufTy).Contents (Elt F) → (⟨S3300000, .i32⟩ : BufTy).Contents (Elt F)),
    ternary main_v120 main_v122 main_v103 main_v123 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v123 main_v124 (broadcastInDim S3300000x1 ![0] bcast_S3300000_S3300000x1_0 : (⟨S3300000, .i32⟩ : BufTy).Contents (Elt F) → (⟨S3300000x1, .i32⟩ : BufTy).Contents (Elt F)),
    binary main_v111 main_v124 main_v125 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v118 main_v125 main_v126 (mulf : (⟨S3300000, .f32⟩ : BufTy).Contents (Elt F) → (⟨S3300000, .f32⟩ : BufTy).Contents (Elt F) → (⟨S3300000, .f32⟩ : BufTy).Contents (Elt F)),
    unary main_v126 main_v127 (broadcastInDim S3300000x1 ![0] bcast_S3300000_S3300000x1_0 : (⟨S3300000, .f32⟩ : BufTy).Contents (Elt F) → (⟨S3300000x1, .f32⟩ : BufTy).Contents (Elt F)),
    nullary main_c_28 (constantI S_ 32 0#32),
    unary main_c_28 main_v128 (broadcastInDim S3300000 ![] bcast_S_S3300000 : (⟨S_, .i32⟩ : BufTy).Contents (Elt F) → (⟨S3300000, .i32⟩ : BufTy).Contents (Elt F)),
    binary main_v100 main_v128 main_v129 (cmpi .slt : (⟨S3300000, .i32⟩ : BufTy).Contents (Elt F) → (⟨S3300000, .i32⟩ : BufTy).Contents (Elt F) → (⟨S3300000, .i1⟩ : BufTy).Contents (Elt F)),
    nullary main_c_29 (constantI S_ 32 100000#32),
    unary main_c_29 main_v130 (broadcastInDim S3300000 ![] bcast_S_S3300000 : (⟨S_, .i32⟩ : BufTy).Contents (Elt F) → (⟨S3300000, .i32⟩ : BufTy).Contents (Elt F)),
    binary main_v100 main_v130 main_v131 (addi : (⟨S3300000, .i32⟩ : BufTy).Contents (Elt F) → (⟨S3300000, .i32⟩ : BufTy).Contents (Elt F) → (⟨S3300000, .i32⟩ : BufTy).Contents (Elt F)),
    ternary main_v129 main_v131 main_v100 main_v132 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v132 main_v133 (broadcastInDim S3300000x1 ![0] bcast_S3300000_S3300000x1_0 : (⟨S3300000, .i32⟩ : BufTy).Contents (Elt F) → (⟨S3300000x1, .i32⟩ : BufTy).Contents (Elt F)),
    binary main_v96 main_v133 main_v134 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v127 main_v135 (broadcastInDim S3300000x16 ![0, 1] bcast_S3300000x1_S3300000x16_0_1 : (⟨S3300000x1, .f32⟩ : BufTy).Contents (Elt F) → (⟨S3300000x16, .f32⟩ : BufTy).Contents (Elt F)),
    binary main_v135 main_v134 main_v136 (mulf : (⟨S3300000x16, .f32⟩ : BufTy).Contents (Elt F) → (⟨S3300000x16, .f32⟩ : BufTy).Contents (Elt F) → (⟨S3300000x16, .f32⟩ : BufTy).Contents (Elt F)),
    nullary main_cst_30 (constant S_ .f32 0x00000000#32),
    unary main_cst_30 main_v137 (broadcastInDim S100000x16 ![] bcast_S_S100000x16 : (⟨S_, .f32⟩ : BufTy).Contents (Elt F) → (⟨S100000x16, .f32⟩ : BufTy).Contents (Elt F)),
    unary main_v103 main_v138 (broadcastInDim S3300000x1 ![0] bcast_S3300000_S3300000x1_0 : (⟨S3300000, .i32⟩ : BufTy).Contents (Elt F) → (⟨S3300000x1, .i32⟩ : BufTy).Contents (Elt F)),
    ternary main_v137 main_v138 main_v136 main_v139 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)),
    unary main_arg7 main_v140 (broadcastInDim S1x16 ![1] bcast_S16_S1x16_1 : (⟨S16, .f32⟩ : BufTy).Contents (Elt F) → (⟨S1x16, .f32⟩ : BufTy).Contents (Elt F)),
    unary main_v140 main_v141 (broadcastInDim S100000x16 ![0, 1] bcast_S1x16_S100000x16_0_1 : (⟨S1x16, .f32⟩ : BufTy).Contents (Elt F) → (⟨S100000x16, .f32⟩ : BufTy).Contents (Elt F)),
    binary main_v139 main_v141 main_v142 (addf : (⟨S100000x16, .f32⟩ : BufTy).Contents (Elt F) → (⟨S100000x16, .f32⟩ : BufTy).Contents (Elt F) → (⟨S100000x16, .f32⟩ : BufTy).Contents (Elt F)),
    binary main_v142 main_arg8 main_v143 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    unary main_arg9 main_v144 (broadcastInDim S1x64 ![1] bcast_S64_S1x64_1 : (⟨S64, .f32⟩ : BufTy).Contents (Elt F) → (⟨S1x64, .f32⟩ : BufTy).Contents (Elt F)),
    unary main_v144 main_v145 (broadcastInDim S100000x64 ![0, 1] bcast_S1x64_S100000x64_0_1 : (⟨S1x64, .f32⟩ : BufTy).Contents (Elt F) → (⟨S100000x64, .f32⟩ : BufTy).Contents (Elt F)),
    binary main_v143 main_v145 main_v146 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- Window 2 is that straight line: the callees unfolded at their calls, sequencing reassociated. -/
theorem main_part2_eq (c : Dev nD) : main_part2 (F := F) c = seq ops2 := by
  simp only [main_part2, fn_where.body, seq, bind_assoc, pure_bind] <;> rfl

set_option maxRecDepth 8192 in
theorem ops2_sub : (ops2 : List (HloOp τ sig (Elt F))).Forall fun op => op.bufs ⊆ tcRefs τ sig :=
  ⟨unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub .., binary_bufs_sub .., unary_bufs_sub .., unary_bufs_sub .., binary_bufs_sub ..⟩

end Cert.ReferenceIdeal.HandRun

end
-- ==== Proof.RefRunSeg2.lean ====
/-
  Window 2 of the reference's run, cut at the values the shared vocabulary names: each stretch of operations read
  back from any contents whose input buffers hold given values, and the buffers each stretch writes.
-/
import proofs.«139937_j4234837753913_1_alg».proof.Proof.RefRunOps2
import proofs.«139937_j4234837753913_1_alg».proof.Proof.RefRunBase
import proofs.«139937_j4234837753913_1_alg».proof.Proof.Spec

noncomputable section

namespace Cert.ReferenceIdeal.HandRun

open Cert.ReferenceIdeal Cert.ReferenceIdeal.Gen Idealize.ShloMosaic Idealize.ShloMosaic.TcCoe Idealize.SL.Sem Idealize.ShloMosaic.StableHlo

set_option pp.maxSteps 3000
set_option pp.deepTerms false
set_option pp.proofs false

variable {F : FTy → Type} [FloatOps F]

/-- Operations 129 … 134 of the 229. -/
abbrev sg_L3b : List (HloOp τ sig (Elt F)) :=
  [ unary main_arg1 main_v98 ((extractStridedSlice S1x3200000 ![0, 0] · slices_S2x3200000_S1x3200000_0_0) : (⟨S2x3200000, .i32⟩ : BufTy).Contents (Elt F) → (⟨S1x3200000, .i32⟩ : BufTy).Contents (Elt F)),
    reshape main_v98 main_v99 rfl shapeCasts_S1x3200000_S3200000,
    binary main_v99 main_v97 main_v100 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg1 main_v101 ((extractStridedSlice S1x3200000 ![1, 0] · slices_S2x3200000_S1x3200000_1_0) : (⟨S2x3200000, .i32⟩ : BufTy).Contents (Elt F) → (⟨S1x3200000, .i32⟩ : BufTy).Contents (Elt F)),
    reshape main_v101 main_v102 rfl shapeCasts_S1x3200000_S3200000,
    binary main_v102 main_v97 main_v103 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)) ]

/-- The buffers they write. -/
abbrev sw_L3b : List (Ref sig .tc) := [main_v98, main_v99, main_v100, main_v101, main_v102, main_v103]

theorem sg_L3b_writes : (sg_L3b : List (HloOp τ sig (Elt F))).Forall fun op =>
    op.writes ⊆ (sw_L3b.map (Proc.devRef (τ := τ) .tc)).toFinset :=
  ⟨wr (y := main_v98) (by decide), wr (y := main_v99) (by decide), wr (y := main_v100) (by decide), wr (y := main_v101) (by decide), wr (y := main_v102) (by decide), wr (y := main_v103) (by decide)⟩

/-- A buffer they do not write keeps its contents. -/
theorem keep_L3b (V : Valuation τ sig (Elt F)) (r : Ref sig .tc) (h : r ∉ sw_L3b) :
    after (sg_L3b (F := F)) V (Proc.devRef .tc r) = V (Proc.devRef .tc r) :=
  after_of_writes_sub sg_L3b V sg_L3b_writes h

set_option maxRecDepth 100000 in
set_option maxHeartbeats 1000000 in
theorem val_L3b_main_v100 (V : Valuation τ sig (Elt Ideal))  (q0 : V (main_v97 : DevRef τ sig) = iotaInDim S100000 32 0) :
    after (sg_L3b (F := Ideal)) V (main_v100 : DevRef τ sig) = Cert.Gcn.ends0 (V (main_arg1 : DevRef τ sig)) := by
  after_results
  rw [q0]
  unfold Cert.Gcn.ends0
  first | (with_reducible rfl) | rfl

set_option maxRecDepth 100000 in
set_option maxHeartbeats 1000000 in
theorem val_L3b_main_v103 (V : Valuation τ sig (Elt Ideal))  (q0 : V (main_v97 : DevRef τ sig) = iotaInDim S100000 32 0) :
    after (sg_L3b (F := Ideal)) V (main_v103 : DevRef τ sig) = Cert.Gcn.ends1 (V (main_arg1 : DevRef τ sig)) := by
  after_results
  rw [q0]
  unfold Cert.Gcn.ends1
  first | (with_reducible rfl) | rfl

/-- Operations 135 … 140 of the 229. -/
abbrev sg_L3c : List (HloOp τ sig (Elt F)) :=
  [ nullary main_cst_20 (constant S_ .f32 0x3F800000#32),
    unary main_cst_20 main_v104 (broadcastInDim S3300000 ![] bcast_S_S3300000 : (⟨S_, .f32⟩ : BufTy).Contents (Elt F) → (⟨S3300000, .f32⟩ : BufTy).Contents (Elt F)),
    nullary main_cst_21 (constant S_ .f32 0x00000000#32),
    unary main_cst_21 main_v105 (broadcastInDim S100000 ![] bcast_S_S100000 : (⟨S_, .f32⟩ : BufTy).Contents (Elt F) → (⟨S100000, .f32⟩ : BufTy).Contents (Elt F)),
    unary main_v103 main_v106 (broadcastInDim S3300000x1 ![0] bcast_S3300000_S3300000x1_0 : (⟨S3300000, .i32⟩ : BufTy).Contents (Elt F) → (⟨S3300000x1, .i32⟩ : BufTy).Contents (Elt F)),
    ternary main_v105 main_v106 main_v104 main_v107 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)) ]

/-- The buffers they write. -/
abbrev sw_L3c : List (Ref sig .tc) := [main_cst_20, main_v104, main_cst_21, main_v105, main_v106, main_v107]

theorem sg_L3c_writes : (sg_L3c : List (HloOp τ sig (Elt F))).Forall fun op =>
    op.writes ⊆ (sw_L3c.map (Proc.devRef (τ := τ) .tc)).toFinset :=
  ⟨wr (y := main_cst_20) (by decide), wr (y := main_v104) (by decide), wr (y := main_cst_21) (by decide), wr (y := main_v105) (by decide), wr (y := main_v106) (by decide), wr (y := main_v107) (by decide)⟩

/-- A buffer they do not write keeps its contents. -/
theorem keep_L3c (V : Valuation τ sig (Elt F)) (r : Ref sig .tc) (h : r ∉ sw_L3c) :
    after (sg_L3c (F := F)) V (Proc.devRef .tc r) = V (Proc.devRef .tc r) :=
  after_of_writes_sub sg_L3c V sg_L3c_writes h

set_option maxRecDepth 100000 in
set_option maxHeartbeats 1000000 in
theorem val_L3c_main_v107 (V : Valuation τ sig (Elt Ideal)) (ei : IVec S2x3200000 32) (q0 : V (main_v103 : DevRef τ sig) = Cert.Gcn.ends1 ei) :
    after (sg_L3c (F := Ideal)) V (main_v107 : DevRef τ sig) = Cert.Gcn.deg ei := by
  simp (disch := decide) only [after_cons, after_nil, nullary_result', unary_result', binary_result', ternary_result', reshape_result', nullary_result_ne', unary_result_ne', binary_result_ne', ternary_result_ne', reshape_result_ne']
  simp only [cast_eq, q0]
  unfold Cert.Gcn.deg Cert.Gcn.col
  first | (with_reducible rfl) | fail "comparison failed: L3c main_v107"

/-- Operations 141 … 148 of the 229. -/
abbrev sg_L3d : List (HloOp τ sig (Elt F)) :=
  [ nullary main_cst_22 (constant S_ .f32 0x00000000#32),
    unary main_cst_22 main_v108 (broadcastInDim S100000 ![] bcast_S_S100000 : (⟨S_, .f32⟩ : BufTy).Contents (Elt F) → (⟨S100000, .f32⟩ : BufTy).Contents (Elt F)),
    binary main_v107 main_v108 main_v109 (cmpf .ogt : (⟨S100000, .f32⟩ : BufTy).Contents (Elt F) → (⟨S100000, .f32⟩ : BufTy).Contents (Elt F) → (⟨S100000, .i1⟩ : BufTy).Contents (Elt F)),
    unary main_v107 main_v110 (Host.rsqrt : (⟨S100000, .f32⟩ : BufTy).Contents (Elt F) → (⟨S100000, .f32⟩ : BufTy).Contents (Elt F)),
    nullary main_cst_23 (constant S_ .f32 0x00000000#32),
    TRef.unary (TRef.of main_cst_23 : TRef sig ⟨S_, .f32⟩) main_call4.v0 id,
    TRef.unary main_call4.v0 main_call4.v1 (broadcastInDim S100000 ![] bcast_S_S100000),
    TRef.ternary (TRef.of main_v109 : TRef sig ⟨S100000, .i1⟩) (TRef.of main_v110 : TRef sig ⟨S100000, .f32⟩) main_call4.v1 main_call4.v2 select ]

/-- The buffers they write. -/
abbrev sw_L3d : List (Ref sig .tc) := [main_cst_22, main_v108, main_v109, main_v110, main_cst_23, main_call4.v0.ref, main_call4.v1.ref, main_call4.v2.ref]

theorem sg_L3d_writes : (sg_L3d : List (HloOp τ sig (Elt F))).Forall fun op =>
    op.writes ⊆ (sw_L3d.map (Proc.devRef (τ := τ) .tc)).toFinset :=
  ⟨wr (y := main_cst_22) (by decide), wr (y := main_v108) (by decide), wr (y := main_v109) (by decide), wr (y := main_v110) (by decide), wr (y := main_cst_23) (by decide), wr (y := main_call4.v0.ref) (by decide), wr (y := main_call4.v1.ref) (by decide), wr (y := main_call4.v2.ref) (by decide)⟩

/-- A buffer they do not write keeps its contents. -/
theorem keep_L3d (V : Valuation τ sig (Elt F)) (r : Ref sig .tc) (h : r ∉ sw_L3d) :
    after (sg_L3d (F := F)) V (Proc.devRef .tc r) = V (Proc.devRef .tc r) :=
  after_of_writes_sub sg_L3d V sg_L3d_writes h

set_option maxRecDepth 100000 in
set_option maxHeartbeats 1000000 in
theorem val_L3d_main_v111 (V : Valuation τ sig (Elt Ideal)) (ei : IVec S2x3200000 32) (q0 : V (main_v107 : DevRef τ sig) = Cert.Gcn.deg ei) :
    after (sg_L3d (F := Ideal)) V (main_v111 : DevRef τ sig) = Cert.Gcn.dinv ei := by
  simp (disch := decide) only [after_cons, after_nil, nullary_result', unary_result', binary_result', ternary_result', reshape_result', nullary_result_ne', unary_result_ne', binary_result_ne', ternary_result_ne', reshape_result_ne']
  simp only [cast_eq, q0]
  unfold Cert.Gcn.dinv
  first | (with_reducible rfl) | fail "comparison failed: L3d main_v111"

/-- Operations 149 … 167 of the 229. -/
abbrev sg_L3e : List (HloOp τ sig (Elt F)) :=
  [ nullary main_c_24 (constantI S_ 32 0#32),
    unary main_c_24 main_v112 (broadcastInDim S3300000 ![] bcast_S_S3300000 : (⟨S_, .i32⟩ : BufTy).Contents (Elt F) → (⟨S3300000, .i32⟩ : BufTy).Contents (Elt F)),
    binary main_v100 main_v112 main_v113 (cmpi .slt : (⟨S3300000, .i32⟩ : BufTy).Contents (Elt F) → (⟨S3300000, .i32⟩ : BufTy).Contents (Elt F) → (⟨S3300000, .i1⟩ : BufTy).Contents (Elt F)),
    nullary main_c_25 (constantI S_ 32 100000#32),
    unary main_c_25 main_v114 (broadcastInDim S3300000 ![] bcast_S_S3300000 : (⟨S_, .i32⟩ : BufTy).Contents (Elt F) → (⟨S3300000, .i32⟩ : BufTy).Contents (Elt F)),
    binary main_v100 main_v114 main_v115 (addi : (⟨S3300000, .i32⟩ : BufTy).Contents (Elt F) → (⟨S3300000, .i32⟩ : BufTy).Contents (Elt F) → (⟨S3300000, .i32⟩ : BufTy).Contents (Elt F)),
    ternary main_v113 main_v115 main_v100 main_v116 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v116 main_v117 (broadcastInDim S3300000x1 ![0] bcast_S3300000_S3300000x1_0 : (⟨S3300000, .i32⟩ : BufTy).Contents (Elt F) → (⟨S3300000x1, .i32⟩ : BufTy).Contents (Elt F)),
    binary main_v111 main_v117 main_v118 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_26 (constantI S_ 32 0#32),
    unary main_c_26 main_v119 (broadcastInDim S3300000 ![] bcast_S_S3300000 : (⟨S_, .i32⟩ : BufTy).Contents (Elt F) → (⟨S3300000, .i32⟩ : BufTy).Contents (Elt F)),
    binary main_v103 main_v119 main_v120 (cmpi .slt : (⟨S3300000, .i32⟩ : BufTy).Contents (Elt F) → (⟨S3300000, .i32⟩ : BufTy).Contents (Elt F) → (⟨S3300000, .i1⟩ : BufTy).Contents (Elt F)),
    nullary main_c_27 (constantI S_ 32 100000#32),
    unary main_c_27 main_v121 (broadcastInDim S3300000 ![] bcast_S_S3300000 : (⟨S_, .i32⟩ : BufTy).Contents (Elt F) → (⟨S3300000, .i32⟩ : BufTy).Contents (Elt F)),
    binary main_v103 main_v121 main_v122 (addi : (⟨S3300000, .i32⟩ : BufTy).Contents (Elt F) → (⟨S3300000, .i32⟩ : BufTy).Contents (Elt F) → (⟨S3300000, .i32⟩ : BufTy).Contents (Elt F)),
    ternary main_v120 main_v122 main_v103 main_v123 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v123 main_v124 (broadcastInDim S3300000x1 ![0] bcast_S3300000_S3300000x1_0 : (⟨S3300000, .i32⟩ : BufTy).Contents (Elt F) → (⟨S3300000x1, .i32⟩ : BufTy).Contents (Elt F)),
    binary main_v111 main_v124 main_v125 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v118 main_v125 main_v126 (mulf : (⟨S3300000, .f32⟩ : BufTy).Contents (Elt F) → (⟨S3300000, .f32⟩ : BufTy).Contents (Elt F) → (⟨S3300000, .f32⟩ : BufTy).Contents (Elt F)) ]

/-- The buffers they write. -/
abbrev sw_L3e : List (Ref sig .tc) := [main_c_24, main_v112, main_v113, main_c_25, main_v114, main_v115, main_v116, main_v117, main_v118, main_c_26, main_v119, main_v120, main_c_27, main_v121, main_v122, main_v123, main_v124, main_v125, main_v126]

theorem sg_L3e_writes : (sg_L3e : List (HloOp τ sig (Elt F))).Forall fun op =>
    op.writes ⊆ (sw_L3e.map (Proc.devRef (τ := τ) .tc)).toFinset :=
  ⟨wr (y := main_c_24) (by decide), wr (y := main_v112) (by decide), wr (y := main_v113) (by decide), wr (y := main_c_25) (by decide), wr (y := main_v114) (by decide), wr (y := main_v115) (by decide), wr (y := main_v116) (by decide), wr (y := main_v117) (by decide), wr (y := main_v118) (by decide), wr (y := main_c_26) (by decide), wr (y := main_v119) (by decide), wr (y := main_v120) (by decide), wr (y := main_c_27) (by decide), wr (y := main_v121) (by decide), wr (y := main_v122) (by decide), wr (y := main_v123) (by decide), wr (y := main_v124) (by decide), wr (y := main_v125) (by decide), wr (y := main_v126) (by decide)⟩

/-- A buffer they do not write keeps its contents. -/
theorem keep_L3e (V : Valuation τ sig (Elt F)) (r : Ref sig .tc) (h : r ∉ sw_L3e) :
    after (sg_L3e (F := F)) V (Proc.devRef .tc r) = V (Proc.devRef .tc r) :=
  after_of_writes_sub sg_L3e V sg_L3e_writes h

set_option maxRecDepth 100000 in
set_option maxHeartbeats 1000000 in
theorem val_L3e_main_v126 (V : Valuation τ sig (Elt Ideal)) (ei : IVec S2x3200000 32) (q0 : V (main_v100 : DevRef τ sig) = Cert.Gcn.ends0 ei) (q1 : V (main_v103 : DevRef τ sig) = Cert.Gcn.ends1 ei) (q2 : V (main_v111 : DevRef τ sig) = Cert.Gcn.dinv ei) :
    after (sg_L3e (F := Ideal)) V (main_v126 : DevRef τ sig) = Cert.Gcn.norm ei := by
  simp (disch := decide) only [after_cons, after_nil, nullary_result', unary_result', binary_result', ternary_result', reshape_result', nullary_result_ne', unary_result_ne', binary_result_ne', ternary_result_ne', reshape_result_ne']
  simp only [cast_eq, q0, q1, q2]
  unfold Cert.Gcn.norm Cert.Gcn.wrapCol Cert.Gcn.col
  first | (with_reducible rfl) | fail "comparison failed: L3e main_v126"

/-- Operations 168 … 183 of the 229. -/
abbrev sg_L3f : List (HloOp τ sig (Elt F)) :=
  [ unary main_v126 main_v127 (broadcastInDim S3300000x1 ![0] bcast_S3300000_S3300000x1_0 : (⟨S3300000, .f32⟩ : BufTy).Contents (Elt F) → (⟨S3300000x1, .f32⟩ : BufTy).Contents (Elt F)),
    nullary main_c_28 (constantI S_ 32 0#32),
    unary main_c_28 main_v128 (broadcastInDim S3300000 ![] bcast_S_S3300000 : (⟨S_, .i32⟩ : BufTy).Contents (Elt F) → (⟨S3300000, .i32⟩ : BufTy).Contents (Elt F)),
    binary main_v100 main_v128 main_v129 (cmpi .slt : (⟨S3300000, .i32⟩ : BufTy).Contents (Elt F) → (⟨S3300000, .i32⟩ : BufTy).Contents (Elt F) → (⟨S3300000, .i1⟩ : BufTy).Contents (Elt F)),
    nullary main_c_29 (constantI S_ 32 100000#32),
    unary main_c_29 main_v130 (broadcastInDim S3300000 ![] bcast_S_S3300000 : (⟨S_, .i32⟩ : BufTy).Contents (Elt F) → (⟨S3300000, .i32⟩ : BufTy).Contents (Elt F)),
    binary main_v100 main_v130 main_v131 (addi : (⟨S3300000, .i32⟩ : BufTy).Contents (Elt F) → (⟨S3300000, .i32⟩ : BufTy).Contents (Elt F) → (⟨S3300000, .i32⟩ : BufTy).Contents (Elt F)),
    ternary main_v129 main_v131 main_v100 main_v132 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v132 main_v133 (broadcastInDim S3300000x1 ![0] bcast_S3300000_S3300000x1_0 : (⟨S3300000, .i32⟩ : BufTy).Contents (Elt F) → (⟨S3300000x1, .i32⟩ : BufTy).Contents (Elt F)),
    binary main_v96 main_v133 main_v134 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v127 main_v135 (broadcastInDim S3300000x16 ![0, 1] bcast_S3300000x1_S3300000x16_0_1 : (⟨S3300000x1, .f32⟩ : BufTy).Contents (Elt F) → (⟨S3300000x16, .f32⟩ : BufTy).Contents (Elt F)),
    binary main_v135 main_v134 main_v136 (mulf : (⟨S3300000x16, .f32⟩ : BufTy).Contents (Elt F) → (⟨S3300000x16, .f32⟩ : BufTy).Contents (Elt F) → (⟨S3300000x16, .f32⟩ : BufTy).Contents (Elt F)),
    nullary main_cst_30 (constant S_ .f32 0x00000000#32),
    unary main_cst_30 main_v137 (broadcastInDim S100000x16 ![] bcast_S_S100000x16 : (⟨S_, .f32⟩ : BufTy).Contents (Elt F) → (⟨S100000x16, .f32⟩ : BufTy).Contents (Elt F)),
    unary main_v103 main_v138 (broadcastInDim S3300000x1 ![0] bcast_S3300000_S3300000x1_0 : (⟨S3300000, .i32⟩ : BufTy).Contents (Elt F) → (⟨S3300000x1, .i32⟩ : BufTy).Contents (Elt F)),
    ternary main_v137 main_v138 main_v136 main_v139 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- The buffers they write. -/
abbrev sw_L3f : List (Ref sig .tc) := [main_v127, main_c_28, main_v128, main_v129, main_c_29, main_v130, main_v131, main_v132, main_v133, main_v134, main_v135, main_v136, main_cst_30, main_v137, main_v138, main_v139]

theorem sg_L3f_writes : (sg_L3f : List (HloOp τ sig (Elt F))).Forall fun op =>
    op.writes ⊆ (sw_L3f.map (Proc.devRef (τ := τ) .tc)).toFinset :=
  ⟨wr (y := main_v127) (by decide), wr (y := main_c_28) (by decide), wr (y := main_v128) (by decide), wr (y := main_v129) (by decide), wr (y := main_c_29) (by decide), wr (y := main_v130) (by decide), wr (y := main_v131) (by decide), wr (y := main_v132) (by decide), wr (y := main_v133) (by decide), wr (y := main_v134) (by decide), wr (y := main_v135) (by decide), wr (y := main_v136) (by decide), wr (y := main_cst_30) (by decide), wr (y := main_v137) (by decide), wr (y := main_v138) (by decide), wr (y := main_v139) (by decide)⟩

/-- A buffer they do not write keeps its contents. -/
theorem keep_L3f (V : Valuation τ sig (Elt F)) (r : Ref sig .tc) (h : r ∉ sw_L3f) :
    after (sg_L3f (F := F)) V (Proc.devRef .tc r) = V (Proc.devRef .tc r) :=
  after_of_writes_sub sg_L3f V sg_L3f_writes h

set_option maxRecDepth 100000 in
set_option maxHeartbeats 1000000 in
theorem val_L3f_main_v139 (V : Valuation τ sig (Elt Ideal)) (ei : IVec S2x3200000 32) (h : FVec Ideal S100000x16 .f32) (q0 : V (main_v126 : DevRef τ sig) = Cert.Gcn.norm ei) (q1 : V (main_v100 : DevRef τ sig) = Cert.Gcn.ends0 ei) (q2 : V (main_v103 : DevRef τ sig) = Cert.Gcn.ends1 ei) (q3 : V (main_v96 : DevRef τ sig) = h) :
    after (sg_L3f (F := Ideal)) V (main_v139 : DevRef τ sig) = Cert.Gcn.aggR ei h := by
  simp (disch := decide) only [after_cons, after_nil, nullary_result', unary_result', binary_result', ternary_result', reshape_result', nullary_result_ne', unary_result_ne', binary_result_ne', ternary_result_ne', reshape_result_ne']
  simp only [cast_eq, q0, q1, q2, q3]
  unfold Cert.Gcn.aggR Cert.Gcn.scat Cert.Gcn.normMat Cert.Gcn.rows Cert.Gcn.wrapCol Cert.Gcn.col
  first | (with_reducible rfl) | fail "comparison failed: L3f main_v139"

/-- Operations 184 … 190 of the 229. -/
abbrev sg_L3g : List (HloOp τ sig (Elt F)) :=
  [ unary main_arg7 main_v140 (broadcastInDim S1x16 ![1] bcast_S16_S1x16_1 : (⟨S16, .f32⟩ : BufTy).Contents (Elt F) → (⟨S1x16, .f32⟩ : BufTy).Contents (Elt F)),
    unary main_v140 main_v141 (broadcastInDim S100000x16 ![0, 1] bcast_S1x16_S100000x16_0_1 : (⟨S1x16, .f32⟩ : BufTy).Contents (Elt F) → (⟨S100000x16, .f32⟩ : BufTy).Contents (Elt F)),
    binary main_v139 main_v141 main_v142 (addf : (⟨S100000x16, .f32⟩ : BufTy).Contents (Elt F) → (⟨S100000x16, .f32⟩ : BufTy).Contents (Elt F) → (⟨S100000x16, .f32⟩ : BufTy).Contents (Elt F)),
    binary main_v142 main_arg8 main_v143 ((fun l r => Host.dotGeneral dot_S100000x16_S16x64_S100000x64_1_0_0_1_n_n none l r) : (⟨S100000x16, .f32⟩ : BufTy).Contents (Elt F) → (⟨S16x64, .f32⟩ : BufTy).Contents (Elt F) → (⟨S100000x64, .f32⟩ : BufTy).Contents (Elt F)),
    unary main_arg9 main_v144 (broadcastInDim S1x64 ![1] bcast_S64_S1x64_1 : (⟨S64, .f32⟩ : BufTy).Contents (Elt F) → (⟨S1x64, .f32⟩ : BufTy).Contents (Elt F)),
    unary main_v144 main_v145 (broadcastInDim S100000x64 ![0, 1] bcast_S1x64_S100000x64_0_1 : (⟨S1x64, .f32⟩ : BufTy).Contents (Elt F) → (⟨S100000x64, .f32⟩ : BufTy).Contents (Elt F)),
    binary main_v143 main_v145 main_v146 (addf : (⟨S100000x64, .f32⟩ : BufTy).Contents (Elt F) → (⟨S100000x64, .f32⟩ : BufTy).Contents (Elt F) → (⟨S100000x64, .f32⟩ : BufTy).Contents (Elt F)) ]

/-- The buffers they write. -/
abbrev sw_L3g : List (Ref sig .tc) := [main_v140, main_v141, main_v142, main_v143, main_v144, main_v145, main_v146]

theorem sg_L3g_writes : (sg_L3g : List (HloOp τ sig (Elt F))).Forall fun op =>
    op.writes ⊆ (sw_L3g.map (Proc.devRef (τ := τ) .tc)).toFinset :=
  ⟨wr (y := main_v140) (by decide), wr (y := main_v141) (by decide), wr (y := main_v142) (by decide), wr (y := main_v143) (by decide), wr (y := main_v144) (by decide), wr (y := main_v145) (by decide), wr (y := main_v146) (by decide)⟩

/-- A buffer they do not write keeps its contents. -/
theorem keep_L3g (V : Valuation τ sig (Elt F)) (r : Ref sig .tc) (h : r ∉ sw_L3g) :
    after (sg_L3g (F := F)) V (Proc.devRef .tc r) = V (Proc.devRef .tc r) :=
  after_of_writes_sub sg_L3g V sg_L3g_writes h

set_option maxRecDepth 100000 in
set_option maxHeartbeats 1000000 in
theorem val_L3g_main_v146 (V : Valuation τ sig (Elt Ideal)) (a : FVec Ideal S100000x16 .f32) (b : FVec Ideal S16 .f32) (W : FVec Ideal S16x64 .f32) (bm : FVec Ideal S64 .f32) (q0 : V (main_v139 : DevRef τ sig) = a) (q1 : V (main_arg7 : DevRef τ sig) = b) (q2 : V (main_arg8 : DevRef τ sig) = W) (q3 : V (main_arg9 : DevRef τ sig) = bm) :
    after (sg_L3g (F := Ideal)) V (main_v146 : DevRef τ sig) = Cert.Gcn.pre1 a b W bm := by
  simp (disch := decide) only [after_cons, after_nil, nullary_result', unary_result', binary_result', ternary_result', reshape_result', nullary_result_ne', unary_result_ne', binary_result_ne', ternary_result_ne', reshape_result_ne']
  simp only [cast_eq, q0, q1, q2, q3]
  unfold Cert.Gcn.pre1 Cert.Gcn.addRow16
  first | (with_reducible rfl) | fail "comparison failed: L3g main_v146"

set_option maxRecDepth 100000 in
/-- Window 2's list is these in order. -/
theorem ops2_split : (ops2 : List (HloOp τ sig (Elt F))) = sg_L3b ++ (sg_L3c ++ (sg_L3d ++ (sg_L3e ++ (sg_L3f ++ (sg_L3g))))) := rfl

end Cert.ReferenceIdeal.HandRun

end
-- ==== Proof.RefRunOps3.lean ====
/-
  The reference's @main, statements of window 3: its host operations as a list, the outlined functions' operations
  written inline at their call sites over the call's own buffer record, and the window as the sequence of that list.
-/
import proofs.«139937_j4234837753913_1_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The 39 operations of window 3, in order (a call's operations in place of the call). -/
abbrev ops3 : List (HloOp τ sig (Elt F)) :=
  [ nullary main_cst_31 (constant S_ .f32 0x3CA3D70A#32),
    TRef.nullary main_call5.cst (constant S_ .f32 0x00000000#32),
    TRef.unary main_call5.cst main_call5.v0 (broadcastInDim S100000x64 ![] bcast_S_S100000x64),
    TRef.binary (TRef.of main_v146 : TRef sig ⟨S100000x64, .f32⟩) main_call5.v0 main_call5.v1 (cmpf .oge),
    TRef.unary (TRef.of main_cst_31 : TRef sig ⟨S_, .f32⟩) main_call5.v2 id,
    TRef.unary main_call5.v2 main_call5.v3 (broadcastInDim S100000x64 ![] bcast_S_S100000x64),
    TRef.binary main_call5.v3 (TRef.of main_v146 : TRef sig ⟨S100000x64, .f32⟩) main_call5.v4 mulf,
    TRef.ternary main_call5.v1 (TRef.of main_v146 : TRef sig ⟨S100000x64, .f32⟩) main_call5.v4 main_call5.call0.v0 select,
    binary main_v147 main_arg10 main_v148 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg11 main_v149 (broadcastInDim S1x16 ![1] bcast_S16_S1x16_1 : (⟨S16, .f32⟩ : BufTy).Contents (Elt F) → (⟨S1x16, .f32⟩ : BufTy).Contents (Elt F)),
    unary main_v149 main_v150 (broadcastInDim S100000x16 ![0, 1] bcast_S1x16_S100000x16_0_1 : (⟨S1x16, .f32⟩ : BufTy).Contents (Elt F) → (⟨S100000x16, .f32⟩ : BufTy).Contents (Elt F)),
    binary main_v148 main_v150 main_v151 (addf : (⟨S100000x16, .f32⟩ : BufTy).Contents (Elt F) → (⟨S100000x16, .f32⟩ : BufTy).Contents (Elt F) → (⟨S100000x16, .f32⟩ : BufTy).Contents (Elt F)),
    nullary main_cst_32 (constant S_ .f32 0x3CA3D70A#32),
    TRef.nullary main_call6.cst (constant S_ .f32 0x00000000#32),
    TRef.unary main_call6.cst main_call6.v0 (broadcastInDim S100000x16 ![] bcast_S_S100000x16),
    TRef.binary (TRef.of main_v151 : TRef sig ⟨S100000x16, .f32⟩) main_call6.v0 main_call6.v1 (cmpf .oge),
    TRef.unary (TRef.of main_cst_32 : TRef sig ⟨S_, .f32⟩) main_call6.v2 id,
    TRef.unary main_call6.v2 main_call6.v3 (broadcastInDim S100000x16 ![] bcast_S_S100000x16),
    TRef.binary main_call6.v3 (TRef.of main_v151 : TRef sig ⟨S100000x16, .f32⟩) main_call6.v4 mulf,
    TRef.ternary main_call6.v1 (TRef.of main_v151 : TRef sig ⟨S100000x16, .f32⟩) main_call6.v4 main_call6.call0.v0 select,
    binary main_v152 main_arg12 main_v153 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    unary main_arg13 main_v154 (broadcastInDim S1x10 ![1] bcast_S10_S1x10_1 : (⟨S10, .f32⟩ : BufTy).Contents (Elt F) → (⟨S1x10, .f32⟩ : BufTy).Contents (Elt F)),
    unary main_v154 main_v155 (broadcastInDim S100000x10 ![0, 1] bcast_S1x10_S100000x10_0_1 : (⟨S1x10, .f32⟩ : BufTy).Contents (Elt F) → (⟨S100000x10, .f32⟩ : BufTy).Contents (Elt F)),
    binary main_v153 main_v155 main_v156 (addf : (⟨S100000x10, .f32⟩ : BufTy).Contents (Elt F) → (⟨S100000x10, .f32⟩ : BufTy).Contents (Elt F) → (⟨S100000x10, .f32⟩ : BufTy).Contents (Elt F)),
    TRef.nullary main_call7.cst (constant S_ .f32 0xFF800000#32),
    TRef.binary (TRef.of main_v156 : TRef sig ⟨S100000x10, .f32⟩) main_call7.cst main_call7.v0 (fun x v => Host.reduce FloatOps.maximumf x v reducesTo_S100000x10_S100000_d1 h_S_),
    TRef.nullary main_call7.cst_0 (constant S_ .f32 0xFF800000#32),
    TRef.unary main_call7.cst_0 main_call7.v1 (broadcastInDim S100000 ![] bcast_S_S100000),
    TRef.binary main_call7.v1 main_call7.v0 main_call7.v2 maximumf,
    TRef.unary main_call7.v2 main_call7.v3 (broadcastInDim S100000x1 ![0] bcast_S100000_S100000x1_0),
    TRef.unary main_call7.v3 main_call7.v4 (broadcastInDim S100000x10 ![0, 1] bcast_S100000x1_S100000x10_0_1),
    TRef.binary (TRef.of main_v156 : TRef sig ⟨S100000x10, .f32⟩) main_call7.v4 main_call7.v5 subf,
    TRef.unary main_call7.v5 main_call7.v6 Host.exp,
    TRef.nullary main_call7.cst_1 (constant S_ .f32 0x00000000#32),
    TRef.binary main_call7.v6 main_call7.cst_1 main_call7.v7 (fun x v => Host.reduceAdd x v reducesTo_S100000x10_S100000_d1 h_S_),
    TRef.unary main_call7.v7 main_call7.v8 (broadcastInDim S100000x1 ![0] bcast_S100000_S100000x1_0),
    TRef.unary main_call7.v8 main_call7.v9 Host.log,
    TRef.unary main_call7.v9 main_call7.v10 (broadcastInDim S100000x10 ![0, 1] bcast_S100000x1_S100000x10_0_1),
    TRef.binary main_call7.v5 main_call7.v10 main_call7.v11 subf ]

set_option maxRecDepth 8192 in
set_option maxHeartbeats 4000000 in
/-- Window 3 is that straight line: the callees unfolded at their calls, sequencing reassociated. -/
theorem main_part3_eq (c : Dev nD) : main_part3 (F := F) c = seq ops3 := by
  simp only [main_part3, fn_leaky_relu.body, fn_where_0.body, fn_leaky_relu_1.body, fn_where_2.body, fn_log_softmax.body, seq, bind_assoc, pure_bind] <;> rfl

set_option maxRecDepth 8192 in
theorem ops3_sub : (ops3 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

end Cert.ReferenceIdeal.HandRun

end
-- ==== Proof.RefRunSeg3.lean ====
/-
  Window 3 of the reference's run, cut at the values the shared vocabulary names: each stretch of operations read
  back from any contents whose input buffers hold given values, and the buffers each stretch writes.
-/
import proofs.«139937_j4234837753913_1_alg».proof.Proof.RefRunOps3
import proofs.«139937_j4234837753913_1_alg».proof.Proof.RefRunBase
import proofs.«139937_j4234837753913_1_alg».proof.Proof.Spec

noncomputable section

namespace Cert.ReferenceIdeal.HandRun

open Cert.ReferenceIdeal Cert.ReferenceIdeal.Gen Idealize.ShloMosaic Idealize.ShloMosaic.TcCoe Idealize.SL.Sem Idealize.ShloMosaic.StableHlo

set_option pp.maxSteps 3000
set_option pp.deepTerms false
set_option pp.proofs false

variable {F : FTy → Type} [FloatOps F]

/-- Operations 191 … 198 of the 229. -/
abbrev sg_HA : List (HloOp τ sig (Elt F)) :=
  [ nullary main_cst_31 (constant S_ .f32 0x3CA3D70A#32),
    TRef.nullary main_call5.cst (constant S_ .f32 0x00000000#32),
    TRef.unary main_call5.cst main_call5.v0 (broadcastInDim S100000x64 ![] bcast_S_S100000x64),
    TRef.binary (TRef.of main_v146 : TRef sig ⟨S100000x64, .f32⟩) main_call5.v0 main_call5.v1 (cmpf .oge),
    TRef.unary (TRef.of main_cst_31 : TRef sig ⟨S_, .f32⟩) main_call5.v2 id,
    TRef.unary main_call5.v2 main_call5.v3 (broadcastInDim S100000x64 ![] bcast_S_S100000x64),
    TRef.binary main_call5.v3 (TRef.of main_v146 : TRef sig ⟨S100000x64, .f32⟩) main_call5.v4 mulf,
    TRef.ternary main_call5.v1 (TRef.of main_v146 : TRef sig ⟨S100000x64, .f32⟩) main_call5.v4 main_call5.call0.v0 select ]

/-- The buffers they write. -/
abbrev sw_HA : List (Ref sig .tc) := [main_cst_31, main_call5.cst.ref, main_call5.v0.ref, main_call5.v1.ref, main_call5.v2.ref, main_call5.v3.ref, main_call5.v4.ref, main_call5.call0.v0.ref]

theorem sg_HA_writes : (sg_HA : List (HloOp τ sig (Elt F))).Forall fun op =>
    op.writes ⊆ (sw_HA.map (Proc.devRef (τ := τ) .tc)).toFinset :=
  ⟨wr (y := main_cst_31) (by decide), wr (y := main_call5.cst.ref) (by decide), wr (y := main_call5.v0.ref) (by decide), wr (y := main_call5.v1.ref) (by decide), wr (y := main_call5.v2.ref) (by decide), wr (y := main_call5.v3.ref) (by decide), wr (y := main_call5.v4.ref) (by decide), wr (y := main_call5.call0.v0.ref) (by decide)⟩

/-- A buffer they do not write keeps its contents. -/
theorem keep_HA (V : Valuation τ sig (Elt F)) (r : Ref sig .tc) (h : r ∉ sw_HA) :
    after (sg_HA (F := F)) V (Proc.devRef .tc r) = V (Proc.devRef .tc r) :=
  after_of_writes_sub sg_HA V sg_HA_writes h

set_option maxRecDepth 100000 in
set_option maxHeartbeats 1000000 in
theorem val_HA_main_v147 (V : Valuation τ sig (Elt Ideal)) (z : FVec Ideal S100000x64 .f32) (q0 : V (main_v146 : DevRef τ sig) = z) :
    after (sg_HA (F := Ideal)) V (main_v147 : DevRef τ sig) = Cert.Gcn.leaky64 z := by
  simp (disch := decide) only [after_cons, after_nil, nullary_result', unary_result', binary_result', ternary_result', reshape_result', nullary_result_ne', unary_result_ne', binary_result_ne', ternary_result_ne', reshape_result_ne']
  simp only [cast_eq, q0]
  unfold Cert.Gcn.leaky64
  first | (with_reducible rfl) | fail "comparison failed: HA main_v147"

/-- Operations 199 … 202 of the 229. -/
abbrev sg_HB : List (HloOp τ sig (Elt F)) :=
  [ binary main_v147 main_arg10 main_v148 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)),
    unary main_arg11 main_v149 (broadcastInDim S1x16 ![1] bcast_S16_S1x16_1 : (⟨S16, .f32⟩ : BufTy).Contents (Elt F) → (⟨S1x16, .f32⟩ : BufTy).Contents (Elt F)),
    unary main_v149 main_v150 (broadcastInDim S100000x16 ![0, 1] bcast_S1x16_S100000x16_0_1 : (⟨S1x16, .f32⟩ : BufTy).Contents (Elt F) → (⟨S100000x16, .f32⟩ : BufTy).Contents (Elt F)),
    binary main_v148 main_v150 main_v151 (addf : (⟨S100000x16, .f32⟩ : BufTy).Contents (Elt F) → (⟨S100000x16, .f32⟩ : BufTy).Contents (Elt F) → (⟨S100000x16, .f32⟩ : BufTy).Contents (Elt F)) ]

/-- The buffers they write. -/
abbrev sw_HB : List (Ref sig .tc) := [main_v148, main_v149, main_v150, main_v151]

theorem sg_HB_writes : (sg_HB : List (HloOp τ sig (Elt F))).Forall fun op =>
    op.writes ⊆ (sw_HB.map (Proc.devRef (τ := τ) .tc)).toFinset :=
  ⟨wr (y := main_v148) (by decide), wr (y := main_v149) (by decide), wr (y := main_v150) (by decide), wr (y := main_v151) (by decide)⟩

/-- A buffer they do not write keeps its contents. -/
theorem keep_HB (V : Valuation τ sig (Elt F)) (r : Ref sig .tc) (h : r ∉ sw_HB) :
    after (sg_HB (F := F)) V (Proc.devRef .tc r) = V (Proc.devRef .tc r) :=
  after_of_writes_sub sg_HB V sg_HB_writes h

set_option maxRecDepth 100000 in
set_option maxHeartbeats 1000000 in
theorem val_HB_main_v151 (V : Valuation τ sig (Elt Ideal)) (h1 : FVec Ideal S100000x64 .f32) (W : FVec Ideal S64x16 .f32) (b : FVec Ideal S16 .f32) (q0 : V (main_v147 : DevRef τ sig) = h1) (q1 : V (main_arg10 : DevRef τ sig) = W) (q2 : V (main_arg11 : DevRef τ sig) = b) :
    after (sg_HB (F := Ideal)) V (main_v151 : DevRef τ sig) = Cert.Gcn.pre2 h1 W b := by
  simp (disch := decide) only [after_cons, after_nil, nullary_result', unary_result', binary_result', ternary_result', reshape_result', nullary_result_ne', unary_result_ne', binary_result_ne', ternary_result_ne', reshape_result_ne']
  simp only [cast_eq, q0, q1, q2]
  unfold Cert.Gcn.pre2 Cert.Gcn.addRow16
  first | (with_reducible rfl) | fail "comparison failed: HB main_v151"

/-- Operations 203 … 210 of the 229. -/
abbrev sg_HC : List (HloOp τ sig (Elt F)) :=
  [ nullary main_cst_32 (constant S_ .f32 0x3CA3D70A#32),
    TRef.nullary main_call6.cst (constant S_ .f32 0x00000000#32),
    TRef.unary main_call6.cst main_call6.v0 (broadcastInDim S100000x16 ![] bcast_S_S100000x16),
    TRef.binary (TRef.of main_v151 : TRef sig ⟨S100000x16, .f32⟩) main_call6.v0 main_call6.v1 (cmpf .oge),
    TRef.unary (TRef.of main_cst_32 : TRef sig ⟨S_, .f32⟩) main_call6.v2 id,
    TRef.unary main_call6.v2 main_call6.v3 (broadcastInDim S100000x16 ![] bcast_S_S100000x16),
    TRef.binary main_call6.v3 (TRef.of main_v151 : TRef sig ⟨S100000x16, .f32⟩) main_call6.v4 mulf,
    TRef.ternary main_call6.v1 (TRef.of main_v151 : TRef sig ⟨S100000x16, .f32⟩) main_call6.v4 main_call6.call0.v0 select ]

/-- The buffers they write. -/
abbrev sw_HC : List (Ref sig .tc) := [main_cst_32, main_call6.cst.ref, main_call6.v0.ref, main_call6.v1.ref, main_call6.v2.ref, main_call6.v3.ref, main_call6.v4.ref, main_call6.call0.v0.ref]

theorem sg_HC_writes : (sg_HC : List (HloOp τ sig (Elt F))).Forall fun op =>
    op.writes ⊆ (sw_HC.map (Proc.devRef (τ := τ) .tc)).toFinset :=
  ⟨wr (y := main_cst_32) (by decide), wr (y := main_call6.cst.ref) (by decide), wr (y := main_call6.v0.ref) (by decide), wr (y := main_call6.v1.ref) (by decide), wr (y := main_call6.v2.ref) (by decide), wr (y := main_call6.v3.ref) (by decide), wr (y := main_call6.v4.ref) (by decide), wr (y := main_call6.call0.v0.ref) (by decide)⟩

/-- A buffer they do not write keeps its contents. -/
theorem keep_HC (V : Valuation τ sig (Elt F)) (r : Ref sig .tc) (h : r ∉ sw_HC) :
    after (sg_HC (F := F)) V (Proc.devRef .tc r) = V (Proc.devRef .tc r) :=
  after_of_writes_sub sg_HC V sg_HC_writes h

set_option maxRecDepth 100000 in
set_option maxHeartbeats 1000000 in
theorem val_HC_main_v152 (V : Valuation τ sig (Elt Ideal)) (z : FVec Ideal S100000x16 .f32) (q0 : V (main_v151 : DevRef τ sig) = z) :
    after (sg_HC (F := Ideal)) V (main_v152 : DevRef τ sig) = Cert.Gcn.leaky16 z := by
  simp (disch := decide) only [after_cons, after_nil, nullary_result', unary_result', binary_result', ternary_result', reshape_result', nullary_result_ne', unary_result_ne', binary_result_ne', ternary_result_ne', reshape_result_ne']
  simp only [cast_eq, q0]
  unfold Cert.Gcn.leaky16
  first | (with_reducible rfl) | fail "comparison failed: HC main_v152"

/-- Operations 211 … 214 of the 229. -/
abbrev sg_HD : List (HloOp τ sig (Elt F)) :=
  [ binary main_v152 main_arg12 main_v153 ((fun l r => Host.dotGeneral dot_S100000x16_S16x10_S100000x10_1_0_0_1_n_n none l r) : (⟨S100000x16, .f32⟩ : BufTy).Contents (Elt F) → (⟨S16x10, .f32⟩ : BufTy).Contents (Elt F) → (⟨S100000x10, .f32⟩ : BufTy).Contents (Elt F)),
    unary main_arg13 main_v154 (broadcastInDim S1x10 ![1] bcast_S10_S1x10_1 : (⟨S10, .f32⟩ : BufTy).Contents (Elt F) → (⟨S1x10, .f32⟩ : BufTy).Contents (Elt F)),
    unary main_v154 main_v155 (broadcastInDim S100000x10 ![0, 1] bcast_S1x10_S100000x10_0_1 : (⟨S1x10, .f32⟩ : BufTy).Contents (Elt F) → (⟨S100000x10, .f32⟩ : BufTy).Contents (Elt F)),
    binary main_v153 main_v155 main_v156 (addf : (⟨S100000x10, .f32⟩ : BufTy).Contents (Elt F) → (⟨S100000x10, .f32⟩ : BufTy).Contents (Elt F) → (⟨S100000x10, .f32⟩ : BufTy).Contents (Elt F)) ]

/-- The buffers they write. -/
abbrev sw_HD : List (Ref sig .tc) := [main_v153, main_v154, main_v155, main_v156]

theorem sg_HD_writes : (sg_HD : List (HloOp τ sig (Elt F))).Forall fun op =>
    op.writes ⊆ (sw_HD.map (Proc.devRef (τ := τ) .tc)).toFinset :=
  ⟨wr (y := main_v153) (by decide), wr (y := main_v154) (by decide), wr (y := main_v155) (by decide), wr (y := main_v156) (by decide)⟩

/-- A buffer they do not write keeps its contents. -/
theorem keep_HD (V : Valuation τ sig (Elt F)) (r : Ref sig .tc) (h : r ∉ sw_HD) :
    after (sg_HD (F := F)) V (Proc.devRef .tc r) = V (Proc.devRef .tc r) :=
  after_of_writes_sub sg_HD V sg_HD_writes h

set_option maxRecDepth 100000 in
set_option maxHeartbeats 1000000 in
theorem val_HD_main_v156 (V : Valuation τ sig (Elt Ideal)) (h2 : FVec Ideal S100000x16 .f32) (W : FVec Ideal S16x10 .f32) (b : FVec Ideal S10 .f32) (q0 : V (main_v152 : DevRef τ sig) = h2) (q1 : V (main_arg12 : DevRef τ sig) = W) (q2 : V (main_arg13 : DevRef τ sig) = b) :
    after (sg_HD (F := Ideal)) V (main_v156 : DevRef τ sig) = Cert.Gcn.logits h2 W b := by
  simp (disch := decide) only [after_cons, after_nil, nullary_result', unary_result', binary_result', ternary_result', reshape_result', nullary_result_ne', unary_result_ne', binary_result_ne', ternary_result_ne', reshape_result_ne']
  simp only [cast_eq, q0, q1, q2]
  unfold Cert.Gcn.logits
  first | (with_reducible rfl) | fail "comparison failed: HD main_v156"

/-- Operations 215 … 229 of the 229. -/
abbrev sg_HE : List (HloOp τ sig (Elt F)) :=
  [ TRef.nullary main_call7.cst (constant S_ .f32 0xFF800000#32),
    TRef.binary (TRef.of main_v156 : TRef sig ⟨S100000x10, .f32⟩) main_call7.cst main_call7.v0 (fun x v => Host.reduce FloatOps.maximumf x v reducesTo_S100000x10_S100000_d1 h_S_),
    TRef.nullary main_call7.cst_0 (constant S_ .f32 0xFF800000#32),
    TRef.unary main_call7.cst_0 main_call7.v1 (broadcastInDim S100000 ![] bcast_S_S100000),
    TRef.binary main_call7.v1 main_call7.v0 main_call7.v2 maximumf,
    TRef.unary main_call7.v2 main_call7.v3 (broadcastInDim S100000x1 ![0] bcast_S100000_S100000x1_0),
    TRef.unary main_call7.v3 main_call7.v4 (broadcastInDim S100000x10 ![0, 1] bcast_S100000x1_S100000x10_0_1),
    TRef.binary (TRef.of main_v156 : TRef sig ⟨S100000x10, .f32⟩) main_call7.v4 main_call7.v5 subf,
    TRef.unary main_call7.v5 main_call7.v6 Host.exp,
    TRef.nullary main_call7.cst_1 (constant S_ .f32 0x00000000#32),
    TRef.binary main_call7.v6 main_call7.cst_1 main_call7.v7 (fun x v => Host.reduceAdd x v reducesTo_S100000x10_S100000_d1 h_S_),
    TRef.unary main_call7.v7 main_call7.v8 (broadcastInDim S100000x1 ![0] bcast_S100000_S100000x1_0),
    TRef.unary main_call7.v8 main_call7.v9 Host.log,
    TRef.unary main_call7.v9 main_call7.v10 (broadcastInDim S100000x10 ![0, 1] bcast_S100000x1_S100000x10_0_1),
    TRef.binary main_call7.v5 main_call7.v10 main_call7.v11 subf ]

/-- The buffers they write. -/
abbrev sw_HE : List (Ref sig .tc) := [main_call7.cst.ref, main_call7.v0.ref, main_call7.cst_0.ref, main_call7.v1.ref, main_call7.v2.ref, main_call7.v3.ref, main_call7.v4.ref, main_call7.v5.ref, main_call7.v6.ref, main_call7.cst_1.ref, main_call7.v7.ref, main_call7.v8.ref, main_call7.v9.ref, main_call7.v10.ref, main_call7.v11.ref]

theorem sg_HE_writes : (sg_HE : List (HloOp τ sig (Elt F))).Forall fun op =>
    op.writes ⊆ (sw_HE.map (Proc.devRef (τ := τ) .tc)).toFinset :=
  ⟨wr (y := main_call7.cst.ref) (by decide), wr (y := main_call7.v0.ref) (by decide), wr (y := main_call7.cst_0.ref) (by decide), wr (y := main_call7.v1.ref) (by decide), wr (y := main_call7.v2.ref) (by decide), wr (y := main_call7.v3.ref) (by decide), wr (y := main_call7.v4.ref) (by decide), wr (y := main_call7.v5.ref) (by decide), wr (y := main_call7.v6.ref) (by decide), wr (y := main_call7.cst_1.ref) (by decide), wr (y := main_call7.v7.ref) (by decide), wr (y := main_call7.v8.ref) (by decide), wr (y := main_call7.v9.ref) (by decide), wr (y := main_call7.v10.ref) (by decide), wr (y := main_call7.v11.ref) (by decide)⟩

/-- A buffer they do not write keeps its contents. -/
theorem keep_HE (V : Valuation τ sig (Elt F)) (r : Ref sig .tc) (h : r ∉ sw_HE) :
    after (sg_HE (F := F)) V (Proc.devRef .tc r) = V (Proc.devRef .tc r) :=
  after_of_writes_sub sg_HE V sg_HE_writes h

set_option maxRecDepth 100000 in
set_option maxHeartbeats 1000000 in
theorem val_HE_main_v157 (V : Valuation τ sig (Elt Ideal)) (z : FVec Ideal S100000x10 .f32) (q0 : V (main_v156 : DevRef τ sig) = z) :
    after (sg_HE (F := Ideal)) V (main_v157 : DevRef τ sig) = Cert.Gcn.logSoftmax z := by
  simp (disch := decide) only [after_cons, after_nil, nullary_result', unary_result', binary_result', ternary_result', reshape_result', nullary_result_ne', unary_result_ne', binary_result_ne', ternary_result_ne', reshape_result_ne']
  simp only [cast_eq, q0]
  unfold Cert.Gcn.logSoftmax
  first | (with_reducible rfl) | fail "comparison failed: HE main_v157"

set_option maxRecDepth 100000 in
/-- Window 3's list is these in order. -/
theorem ops3_split : (ops3 : List (HloOp τ sig (Elt F))) = sg_HA ++ (sg_HB ++ (sg_HC ++ (sg_HD ++ (sg_HE)))) := rfl

end Cert.ReferenceIdeal.HandRun

end
-- ==== Proof.RefRun.lean ====
/-
  The reference's run: @main is the sequence of its four windows' operations; run from the launch memory, every
  weakly fair execution ends with the result buffer at the network of the shared vocabulary applied to the arguments'
  launch contents, and the argument buffers unchanged.  The value is read stretch by stretch: each stretch's lemma
  gives one named value from the values of its inputs, and a buffer a stretch does not write is carried across it.
-/
import proofs.«139937_j4234837753913_1_alg».proof.Proof.RefRunSeg0
import proofs.«139937_j4234837753913_1_alg».proof.Proof.RefRunSeg1
import proofs.«139937_j4234837753913_1_alg».proof.Proof.RefRunSeg2
import proofs.«139937_j4234837753913_1_alg».proof.Proof.RefRunSeg3

noncomputable section

namespace Cert.ReferenceIdeal.HandRun

open Cert.ReferenceIdeal Cert.ReferenceIdeal.Gen Idealize.ShloMosaic Idealize.ShloMosaic.TcCoe Idealize.SL.Sem Idealize.ShloMosaic.StableHlo

set_option pp.maxSteps 3000
set_option pp.deepTerms false
set_option pp.proofs false

variable {F : FTy → Type} [FloatOps F]

/-- @main's 229 operations, in order: the four windows' lists. -/
abbrev ops : List (HloOp τ sig (Elt F)) := ops0 ++ (ops1 ++ (ops2 ++ ops3))

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

/-- The contents after @main's operations: the stretches run in turn. -/
theorem after_ops (V : Valuation τ sig (Elt F)) :
    after (ops (F := F)) V = after sg_HE (after sg_HD (after sg_HC (after sg_HB (after sg_HA (after sg_L3g (after sg_L3f (after sg_L3e (after sg_L3d (after sg_L3c (after sg_L3b (after sg_L2h (after sg_L2g (after sg_L2f (after sg_L2e (after sg_L2d (after sg_L2c (after sg_L2b (after sg_L1g (after sg_L1f (after sg_L1e (after sg_L1d (after sg_L1c (after sg_L1b (after sg_L1a (V))))))))))))))))))))))))) := by
  show after (ops0 ++ (ops1 ++ (ops2 ++ ops3))) V = _
  rw [ops0_split, ops1_split, ops2_split, ops3_split]
  simp only [after_app]

set_option maxRecDepth 100000 in
set_option maxHeartbeats 4000000 in
/-- From any contents: the result buffer ends at the network of the arguments' contents, the arguments unchanged.
    Each line below is one fact about one buffer after one stretch: a new value from the stretch's lemma, or a value
    carried across a stretch that does not write its buffer. -/
theorem ops_eq (V : Valuation τ sig (Elt Ideal)) :
    after (ops (F := Ideal)) V (main_v157 : DevRef τ sig) = Cert.Gcn.net (Cert.Gcn.aggR (V (main_arg1 : DevRef τ sig))) (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig))
      ∧ after (ops (F := Ideal)) V (main_arg0 : DevRef τ sig) = V (main_arg0 : DevRef τ sig)
      ∧ after (ops (F := Ideal)) V (main_arg1 : DevRef τ sig) = V (main_arg1 : DevRef τ sig)
      ∧ after (ops (F := Ideal)) V (main_arg2 : DevRef τ sig) = V (main_arg2 : DevRef τ sig)
      ∧ after (ops (F := Ideal)) V (main_arg3 : DevRef τ sig) = V (main_arg3 : DevRef τ sig)
      ∧ after (ops (F := Ideal)) V (main_arg4 : DevRef τ sig) = V (main_arg4 : DevRef τ sig)
      ∧ after (ops (F := Ideal)) V (main_arg5 : DevRef τ sig) = V (main_arg5 : DevRef τ sig)
      ∧ after (ops (F := Ideal)) V (main_arg6 : DevRef τ sig) = V (main_arg6 : DevRef τ sig)
      ∧ after (ops (F := Ideal)) V (main_arg7 : DevRef τ sig) = V (main_arg7 : DevRef τ sig)
      ∧ after (ops (F := Ideal)) V (main_arg8 : DevRef τ sig) = V (main_arg8 : DevRef τ sig)
      ∧ after (ops (F := Ideal)) V (main_arg9 : DevRef τ sig) = V (main_arg9 : DevRef τ sig)
      ∧ after (ops (F := Ideal)) V (main_arg10 : DevRef τ sig) = V (main_arg10 : DevRef τ sig)
      ∧ after (ops (F := Ideal)) V (main_arg11 : DevRef τ sig) = V (main_arg11 : DevRef τ sig)
      ∧ after (ops (F := Ideal)) V (main_arg12 : DevRef τ sig) = V (main_arg12 : DevRef τ sig)
      ∧ after (ops (F := Ideal)) V (main_arg13 : DevRef τ sig) = V (main_arg13 : DevRef τ sig) := by
  rw [after_ops]
  unfold Cert.Gcn.net Cert.Gcn.head
  have f0_main_arg0 : V (main_arg0 : DevRef τ sig) = V (main_arg0 : DevRef τ sig) := rfl
  have f0_main_arg1 : V (main_arg1 : DevRef τ sig) = V (main_arg1 : DevRef τ sig) := rfl
  have f0_main_arg2 : V (main_arg2 : DevRef τ sig) = V (main_arg2 : DevRef τ sig) := rfl
  have f0_main_arg3 : V (main_arg3 : DevRef τ sig) = V (main_arg3 : DevRef τ sig) := rfl
  have f0_main_arg4 : V (main_arg4 : DevRef τ sig) = V (main_arg4 : DevRef τ sig) := rfl
  have f0_main_arg5 : V (main_arg5 : DevRef τ sig) = V (main_arg5 : DevRef τ sig) := rfl
  have f0_main_arg6 : V (main_arg6 : DevRef τ sig) = V (main_arg6 : DevRef τ sig) := rfl
  have f0_main_arg7 : V (main_arg7 : DevRef τ sig) = V (main_arg7 : DevRef τ sig) := rfl
  have f0_main_arg8 : V (main_arg8 : DevRef τ sig) = V (main_arg8 : DevRef τ sig) := rfl
  have f0_main_arg9 : V (main_arg9 : DevRef τ sig) = V (main_arg9 : DevRef τ sig) := rfl
  have f0_main_arg10 : V (main_arg10 : DevRef τ sig) = V (main_arg10 : DevRef τ sig) := rfl
  have f0_main_arg11 : V (main_arg11 : DevRef τ sig) = V (main_arg11 : DevRef τ sig) := rfl
  have f0_main_arg12 : V (main_arg12 : DevRef τ sig) = V (main_arg12 : DevRef τ sig) := rfl
  have f0_main_arg13 : V (main_arg13 : DevRef τ sig) = V (main_arg13 : DevRef τ sig) := rfl
  have f1_main_v0 := val_L1a_main_v0 _ _ _ f0_main_arg0 f0_main_arg2
  have f1_main_arg0 := (keep_L1a _ main_arg0 (by decide)).trans f0_main_arg0
  have f1_main_arg1 := (keep_L1a _ main_arg1 (by decide)).trans f0_main_arg1
  have f1_main_arg2 := (keep_L1a _ main_arg2 (by decide)).trans f0_main_arg2
  have f1_main_arg3 := (keep_L1a _ main_arg3 (by decide)).trans f0_main_arg3
  have f1_main_arg4 := (keep_L1a _ main_arg4 (by decide)).trans f0_main_arg4
  have f1_main_arg5 := (keep_L1a _ main_arg5 (by decide)).trans f0_main_arg5
  have f1_main_arg6 := (keep_L1a _ main_arg6 (by decide)).trans f0_main_arg6
  have f1_main_arg7 := (keep_L1a _ main_arg7 (by decide)).trans f0_main_arg7
  have f1_main_arg8 := (keep_L1a _ main_arg8 (by decide)).trans f0_main_arg8
  have f1_main_arg9 := (keep_L1a _ main_arg9 (by decide)).trans f0_main_arg9
  have f1_main_arg10 := (keep_L1a _ main_arg10 (by decide)).trans f0_main_arg10
  have f1_main_arg11 := (keep_L1a _ main_arg11 (by decide)).trans f0_main_arg11
  have f1_main_arg12 := (keep_L1a _ main_arg12 (by decide)).trans f0_main_arg12
  have f1_main_arg13 := (keep_L1a _ main_arg13 (by decide)).trans f0_main_arg13
  have f2_main_v4 := (val_L1b_main_v4 _).trans (congrArg Cert.Gcn.ends0 f1_main_arg1)
  have f2_main_v7 := (val_L1b_main_v7 _).trans (congrArg Cert.Gcn.ends1 f1_main_arg1)
  have f2_main_arg0 := (keep_L1b _ main_arg0 (by decide)).trans f1_main_arg0
  have f2_main_arg1 := (keep_L1b _ main_arg1 (by decide)).trans f1_main_arg1
  have f2_main_arg2 := (keep_L1b _ main_arg2 (by decide)).trans f1_main_arg2
  have f2_main_arg3 := (keep_L1b _ main_arg3 (by decide)).trans f1_main_arg3
  have f2_main_arg4 := (keep_L1b _ main_arg4 (by decide)).trans f1_main_arg4
  have f2_main_arg5 := (keep_L1b _ main_arg5 (by decide)).trans f1_main_arg5
  have f2_main_arg6 := (keep_L1b _ main_arg6 (by decide)).trans f1_main_arg6
  have f2_main_arg7 := (keep_L1b _ main_arg7 (by decide)).trans f1_main_arg7
  have f2_main_arg8 := (keep_L1b _ main_arg8 (by decide)).trans f1_main_arg8
  have f2_main_arg9 := (keep_L1b _ main_arg9 (by decide)).trans f1_main_arg9
  have f2_main_arg10 := (keep_L1b _ main_arg10 (by decide)).trans f1_main_arg10
  have f2_main_arg11 := (keep_L1b _ main_arg11 (by decide)).trans f1_main_arg11
  have f2_main_arg12 := (keep_L1b _ main_arg12 (by decide)).trans f1_main_arg12
  have f2_main_arg13 := (keep_L1b _ main_arg13 (by decide)).trans f1_main_arg13
  have f2_main_v0 := (keep_L1b _ main_v0 (by decide)).trans f1_main_v0
  have f3_main_v11 := val_L1c_main_v11 _ _ f2_main_v7
  have f3_main_arg0 := (keep_L1c _ main_arg0 (by decide)).trans f2_main_arg0
  have f3_main_arg1 := (keep_L1c _ main_arg1 (by decide)).trans f2_main_arg1
  have f3_main_arg2 := (keep_L1c _ main_arg2 (by decide)).trans f2_main_arg2
  have f3_main_arg3 := (keep_L1c _ main_arg3 (by decide)).trans f2_main_arg3
  have f3_main_arg4 := (keep_L1c _ main_arg4 (by decide)).trans f2_main_arg4
  have f3_main_arg5 := (keep_L1c _ main_arg5 (by decide)).trans f2_main_arg5
  have f3_main_arg6 := (keep_L1c _ main_arg6 (by decide)).trans f2_main_arg6
  have f3_main_arg7 := (keep_L1c _ main_arg7 (by decide)).trans f2_main_arg7
  have f3_main_arg8 := (keep_L1c _ main_arg8 (by decide)).trans f2_main_arg8
  have f3_main_arg9 := (keep_L1c _ main_arg9 (by decide)).trans f2_main_arg9
  have f3_main_arg10 := (keep_L1c _ main_arg10 (by decide)).trans f2_main_arg10
  have f3_main_arg11 := (keep_L1c _ main_arg11 (by decide)).trans f2_main_arg11
  have f3_main_arg12 := (keep_L1c _ main_arg12 (by decide)).trans f2_main_arg12
  have f3_main_arg13 := (keep_L1c _ main_arg13 (by decide)).trans f2_main_arg13
  have f3_main_v0 := (keep_L1c _ main_v0 (by decide)).trans f2_main_v0
  have f3_main_v4 := (keep_L1c _ main_v4 (by decide)).trans f2_main_v4
  have f3_main_v7 := (keep_L1c _ main_v7 (by decide)).trans f2_main_v7
  have f4_main_v15 := val_L1d_main_v15 _ _ f3_main_v11
  have f4_main_arg0 := (keep_L1d _ main_arg0 (by decide)).trans f3_main_arg0
  have f4_main_arg1 := (keep_L1d _ main_arg1 (by decide)).trans f3_main_arg1
  have f4_main_arg2 := (keep_L1d _ main_arg2 (by decide)).trans f3_main_arg2
  have f4_main_arg3 := (keep_L1d _ main_arg3 (by decide)).trans f3_main_arg3
  have f4_main_arg4 := (keep_L1d _ main_arg4 (by decide)).trans f3_main_arg4
  have f4_main_arg5 := (keep_L1d _ main_arg5 (by decide)).trans f3_main_arg5
  have f4_main_arg6 := (keep_L1d _ main_arg6 (by decide)).trans f3_main_arg6
  have f4_main_arg7 := (keep_L1d _ main_arg7 (by decide)).trans f3_main_arg7
  have f4_main_arg8 := (keep_L1d _ main_arg8 (by decide)).trans f3_main_arg8
  have f4_main_arg9 := (keep_L1d _ main_arg9 (by decide)).trans f3_main_arg9
  have f4_main_arg10 := (keep_L1d _ main_arg10 (by decide)).trans f3_main_arg10
  have f4_main_arg11 := (keep_L1d _ main_arg11 (by decide)).trans f3_main_arg11
  have f4_main_arg12 := (keep_L1d _ main_arg12 (by decide)).trans f3_main_arg12
  have f4_main_arg13 := (keep_L1d _ main_arg13 (by decide)).trans f3_main_arg13
  have f4_main_v0 := (keep_L1d _ main_v0 (by decide)).trans f3_main_v0
  have f4_main_v4 := (keep_L1d _ main_v4 (by decide)).trans f3_main_v4
  have f4_main_v7 := (keep_L1d _ main_v7 (by decide)).trans f3_main_v7
  have f5_main_v30 := val_L1e_main_v30 _ _ f4_main_v4 f4_main_v7 f4_main_v15
  have f5_main_arg0 := (keep_L1e _ main_arg0 (by decide)).trans f4_main_arg0
  have f5_main_arg1 := (keep_L1e _ main_arg1 (by decide)).trans f4_main_arg1
  have f5_main_arg2 := (keep_L1e _ main_arg2 (by decide)).trans f4_main_arg2
  have f5_main_arg3 := (keep_L1e _ main_arg3 (by decide)).trans f4_main_arg3
  have f5_main_arg4 := (keep_L1e _ main_arg4 (by decide)).trans f4_main_arg4
  have f5_main_arg5 := (keep_L1e _ main_arg5 (by decide)).trans f4_main_arg5
  have f5_main_arg6 := (keep_L1e _ main_arg6 (by decide)).trans f4_main_arg6
  have f5_main_arg7 := (keep_L1e _ main_arg7 (by decide)).trans f4_main_arg7
  have f5_main_arg8 := (keep_L1e _ main_arg8 (by decide)).trans f4_main_arg8
  have f5_main_arg9 := (keep_L1e _ main_arg9 (by decide)).trans f4_main_arg9
  have f5_main_arg10 := (keep_L1e _ main_arg10 (by decide)).trans f4_main_arg10
  have f5_main_arg11 := (keep_L1e _ main_arg11 (by decide)).trans f4_main_arg11
  have f5_main_arg12 := (keep_L1e _ main_arg12 (by decide)).trans f4_main_arg12
  have f5_main_arg13 := (keep_L1e _ main_arg13 (by decide)).trans f4_main_arg13
  have f5_main_v0 := (keep_L1e _ main_v0 (by decide)).trans f4_main_v0
  have f5_main_v4 := (keep_L1e _ main_v4 (by decide)).trans f4_main_v4
  have f5_main_v7 := (keep_L1e _ main_v7 (by decide)).trans f4_main_v7
  have f6_main_v43 := val_L1f_main_v43 _ _ _ f5_main_v30 f5_main_v4 f5_main_v7 f5_main_v0
  have f6_main_arg0 := (keep_L1f _ main_arg0 (by decide)).trans f5_main_arg0
  have f6_main_arg1 := (keep_L1f _ main_arg1 (by decide)).trans f5_main_arg1
  have f6_main_arg2 := (keep_L1f _ main_arg2 (by decide)).trans f5_main_arg2
  have f6_main_arg3 := (keep_L1f _ main_arg3 (by decide)).trans f5_main_arg3
  have f6_main_arg4 := (keep_L1f _ main_arg4 (by decide)).trans f5_main_arg4
  have f6_main_arg5 := (keep_L1f _ main_arg5 (by decide)).trans f5_main_arg5
  have f6_main_arg6 := (keep_L1f _ main_arg6 (by decide)).trans f5_main_arg6
  have f6_main_arg7 := (keep_L1f _ main_arg7 (by decide)).trans f5_main_arg7
  have f6_main_arg8 := (keep_L1f _ main_arg8 (by decide)).trans f5_main_arg8
  have f6_main_arg9 := (keep_L1f _ main_arg9 (by decide)).trans f5_main_arg9
  have f6_main_arg10 := (keep_L1f _ main_arg10 (by decide)).trans f5_main_arg10
  have f6_main_arg11 := (keep_L1f _ main_arg11 (by decide)).trans f5_main_arg11
  have f6_main_arg12 := (keep_L1f _ main_arg12 (by decide)).trans f5_main_arg12
  have f6_main_arg13 := (keep_L1f _ main_arg13 (by decide)).trans f5_main_arg13
  have f7_main_v48 := val_L1g_main_v48 _ _ _ _ f6_main_v43 f6_main_arg3 f6_main_arg4
  have f7_main_arg0 := (keep_L1g _ main_arg0 (by decide)).trans f6_main_arg0
  have f7_main_arg1 := (keep_L1g _ main_arg1 (by decide)).trans f6_main_arg1
  have f7_main_arg2 := (keep_L1g _ main_arg2 (by decide)).trans f6_main_arg2
  have f7_main_arg3 := (keep_L1g _ main_arg3 (by decide)).trans f6_main_arg3
  have f7_main_arg4 := (keep_L1g _ main_arg4 (by decide)).trans f6_main_arg4
  have f7_main_arg5 := (keep_L1g _ main_arg5 (by decide)).trans f6_main_arg5
  have f7_main_arg6 := (keep_L1g _ main_arg6 (by decide)).trans f6_main_arg6
  have f7_main_arg7 := (keep_L1g _ main_arg7 (by decide)).trans f6_main_arg7
  have f7_main_arg8 := (keep_L1g _ main_arg8 (by decide)).trans f6_main_arg8
  have f7_main_arg9 := (keep_L1g _ main_arg9 (by decide)).trans f6_main_arg9
  have f7_main_arg10 := (keep_L1g _ main_arg10 (by decide)).trans f6_main_arg10
  have f7_main_arg11 := (keep_L1g _ main_arg11 (by decide)).trans f6_main_arg11
  have f7_main_arg12 := (keep_L1g _ main_arg12 (by decide)).trans f6_main_arg12
  have f7_main_arg13 := (keep_L1g _ main_arg13 (by decide)).trans f6_main_arg13
  have f8_main_v52 := (val_L2b_main_v52 _).trans (congrArg Cert.Gcn.ends0 f7_main_arg1)
  have f8_main_v55 := (val_L2b_main_v55 _).trans (congrArg Cert.Gcn.ends1 f7_main_arg1)
  have f8_main_arg0 := (keep_L2b _ main_arg0 (by decide)).trans f7_main_arg0
  have f8_main_arg1 := (keep_L2b _ main_arg1 (by decide)).trans f7_main_arg1
  have f8_main_arg2 := (keep_L2b _ main_arg2 (by decide)).trans f7_main_arg2
  have f8_main_arg3 := (keep_L2b _ main_arg3 (by decide)).trans f7_main_arg3
  have f8_main_arg4 := (keep_L2b _ main_arg4 (by decide)).trans f7_main_arg4
  have f8_main_arg5 := (keep_L2b _ main_arg5 (by decide)).trans f7_main_arg5
  have f8_main_arg6 := (keep_L2b _ main_arg6 (by decide)).trans f7_main_arg6
  have f8_main_arg7 := (keep_L2b _ main_arg7 (by decide)).trans f7_main_arg7
  have f8_main_arg8 := (keep_L2b _ main_arg8 (by decide)).trans f7_main_arg8
  have f8_main_arg9 := (keep_L2b _ main_arg9 (by decide)).trans f7_main_arg9
  have f8_main_arg10 := (keep_L2b _ main_arg10 (by decide)).trans f7_main_arg10
  have f8_main_arg11 := (keep_L2b _ main_arg11 (by decide)).trans f7_main_arg11
  have f8_main_arg12 := (keep_L2b _ main_arg12 (by decide)).trans f7_main_arg12
  have f8_main_arg13 := (keep_L2b _ main_arg13 (by decide)).trans f7_main_arg13
  have f8_main_v48 := (keep_L2b _ main_v48 (by decide)).trans f7_main_v48
  have f9_main_v59 := val_L2c_main_v59 _ _ f8_main_v55
  have f9_main_arg0 := (keep_L2c _ main_arg0 (by decide)).trans f8_main_arg0
  have f9_main_arg1 := (keep_L2c _ main_arg1 (by decide)).trans f8_main_arg1
  have f9_main_arg2 := (keep_L2c _ main_arg2 (by decide)).trans f8_main_arg2
  have f9_main_arg3 := (keep_L2c _ main_arg3 (by decide)).trans f8_main_arg3
  have f9_main_arg4 := (keep_L2c _ main_arg4 (by decide)).trans f8_main_arg4
  have f9_main_arg5 := (keep_L2c _ main_arg5 (by decide)).trans f8_main_arg5
  have f9_main_arg6 := (keep_L2c _ main_arg6 (by decide)).trans f8_main_arg6
  have f9_main_arg7 := (keep_L2c _ main_arg7 (by decide)).trans f8_main_arg7
  have f9_main_arg8 := (keep_L2c _ main_arg8 (by decide)).trans f8_main_arg8
  have f9_main_arg9 := (keep_L2c _ main_arg9 (by decide)).trans f8_main_arg9
  have f9_main_arg10 := (keep_L2c _ main_arg10 (by decide)).trans f8_main_arg10
  have f9_main_arg11 := (keep_L2c _ main_arg11 (by decide)).trans f8_main_arg11
  have f9_main_arg12 := (keep_L2c _ main_arg12 (by decide)).trans f8_main_arg12
  have f9_main_arg13 := (keep_L2c _ main_arg13 (by decide)).trans f8_main_arg13
  have f9_main_v48 := (keep_L2c _ main_v48 (by decide)).trans f8_main_v48
  have f9_main_v52 := (keep_L2c _ main_v52 (by decide)).trans f8_main_v52
  have f9_main_v55 := (keep_L2c _ main_v55 (by decide)).trans f8_main_v55
  have f10_main_v63 := val_L2d_main_v63 _ _ f9_main_v59
  have f10_main_arg0 := (keep_L2d _ main_arg0 (by decide)).trans f9_main_arg0
  have f10_main_arg1 := (keep_L2d _ main_arg1 (by decide)).trans f9_main_arg1
  have f10_main_arg2 := (keep_L2d _ main_arg2 (by decide)).trans f9_main_arg2
  have f10_main_arg3 := (keep_L2d _ main_arg3 (by decide)).trans f9_main_arg3
  have f10_main_arg4 := (keep_L2d _ main_arg4 (by decide)).trans f9_main_arg4
  have f10_main_arg5 := (keep_L2d _ main_arg5 (by decide)).trans f9_main_arg5
  have f10_main_arg6 := (keep_L2d _ main_arg6 (by decide)).trans f9_main_arg6
  have f10_main_arg7 := (keep_L2d _ main_arg7 (by decide)).trans f9_main_arg7
  have f10_main_arg8 := (keep_L2d _ main_arg8 (by decide)).trans f9_main_arg8
  have f10_main_arg9 := (keep_L2d _ main_arg9 (by decide)).trans f9_main_arg9
  have f10_main_arg10 := (keep_L2d _ main_arg10 (by decide)).trans f9_main_arg10
  have f10_main_arg11 := (keep_L2d _ main_arg11 (by decide)).trans f9_main_arg11
  have f10_main_arg12 := (keep_L2d _ main_arg12 (by decide)).trans f9_main_arg12
  have f10_main_arg13 := (keep_L2d _ main_arg13 (by decide)).trans f9_main_arg13
  have f10_main_v48 := (keep_L2d _ main_v48 (by decide)).trans f9_main_v48
  have f10_main_v52 := (keep_L2d _ main_v52 (by decide)).trans f9_main_v52
  have f10_main_v55 := (keep_L2d _ main_v55 (by decide)).trans f9_main_v55
  have f11_main_v78 := val_L2e_main_v78 _ _ f10_main_v52 f10_main_v55 f10_main_v63
  have f11_main_arg0 := (keep_L2e _ main_arg0 (by decide)).trans f10_main_arg0
  have f11_main_arg1 := (keep_L2e _ main_arg1 (by decide)).trans f10_main_arg1
  have f11_main_arg2 := (keep_L2e _ main_arg2 (by decide)).trans f10_main_arg2
  have f11_main_arg3 := (keep_L2e _ main_arg3 (by decide)).trans f10_main_arg3
  have f11_main_arg4 := (keep_L2e _ main_arg4 (by decide)).trans f10_main_arg4
  have f11_main_arg5 := (keep_L2e _ main_arg5 (by decide)).trans f10_main_arg5
  have f11_main_arg6 := (keep_L2e _ main_arg6 (by decide)).trans f10_main_arg6
  have f11_main_arg7 := (keep_L2e _ main_arg7 (by decide)).trans f10_main_arg7
  have f11_main_arg8 := (keep_L2e _ main_arg8 (by decide)).trans f10_main_arg8
  have f11_main_arg9 := (keep_L2e _ main_arg9 (by decide)).trans f10_main_arg9
  have f11_main_arg10 := (keep_L2e _ main_arg10 (by decide)).trans f10_main_arg10
  have f11_main_arg11 := (keep_L2e _ main_arg11 (by decide)).trans f10_main_arg11
  have f11_main_arg12 := (keep_L2e _ main_arg12 (by decide)).trans f10_main_arg12
  have f11_main_arg13 := (keep_L2e _ main_arg13 (by decide)).trans f10_main_arg13
  have f11_main_v48 := (keep_L2e _ main_v48 (by decide)).trans f10_main_v48
  have f11_main_v52 := (keep_L2e _ main_v52 (by decide)).trans f10_main_v52
  have f11_main_v55 := (keep_L2e _ main_v55 (by decide)).trans f10_main_v55
  have f12_main_v91 := val_L2f_main_v91 _ _ _ f11_main_v78 f11_main_v52 f11_main_v55 f11_main_v48
  have f12_main_arg0 := (keep_L2f _ main_arg0 (by decide)).trans f11_main_arg0
  have f12_main_arg1 := (keep_L2f _ main_arg1 (by decide)).trans f11_main_arg1
  have f12_main_arg2 := (keep_L2f _ main_arg2 (by decide)).trans f11_main_arg2
  have f12_main_arg3 := (keep_L2f _ main_arg3 (by decide)).trans f11_main_arg3
  have f12_main_arg4 := (keep_L2f _ main_arg4 (by decide)).trans f11_main_arg4
  have f12_main_arg5 := (keep_L2f _ main_arg5 (by decide)).trans f11_main_arg5
  have f12_main_arg6 := (keep_L2f _ main_arg6 (by decide)).trans f11_main_arg6
  have f12_main_arg7 := (keep_L2f _ main_arg7 (by decide)).trans f11_main_arg7
  have f12_main_arg8 := (keep_L2f _ main_arg8 (by decide)).trans f11_main_arg8
  have f12_main_arg9 := (keep_L2f _ main_arg9 (by decide)).trans f11_main_arg9
  have f12_main_arg10 := (keep_L2f _ main_arg10 (by decide)).trans f11_main_arg10
  have f12_main_arg11 := (keep_L2f _ main_arg11 (by decide)).trans f11_main_arg11
  have f12_main_arg12 := (keep_L2f _ main_arg12 (by decide)).trans f11_main_arg12
  have f12_main_arg13 := (keep_L2f _ main_arg13 (by decide)).trans f11_main_arg13
  have f13_main_v96 := val_L2g_main_v96 _ _ _ _ f12_main_v91 f12_main_arg5 f12_main_arg6
  have f13_main_arg0 := (keep_L2g _ main_arg0 (by decide)).trans f12_main_arg0
  have f13_main_arg1 := (keep_L2g _ main_arg1 (by decide)).trans f12_main_arg1
  have f13_main_arg2 := (keep_L2g _ main_arg2 (by decide)).trans f12_main_arg2
  have f13_main_arg3 := (keep_L2g _ main_arg3 (by decide)).trans f12_main_arg3
  have f13_main_arg4 := (keep_L2g _ main_arg4 (by decide)).trans f12_main_arg4
  have f13_main_arg5 := (keep_L2g _ main_arg5 (by decide)).trans f12_main_arg5
  have f13_main_arg6 := (keep_L2g _ main_arg6 (by decide)).trans f12_main_arg6
  have f13_main_arg7 := (keep_L2g _ main_arg7 (by decide)).trans f12_main_arg7
  have f13_main_arg8 := (keep_L2g _ main_arg8 (by decide)).trans f12_main_arg8
  have f13_main_arg9 := (keep_L2g _ main_arg9 (by decide)).trans f12_main_arg9
  have f13_main_arg10 := (keep_L2g _ main_arg10 (by decide)).trans f12_main_arg10
  have f13_main_arg11 := (keep_L2g _ main_arg11 (by decide)).trans f12_main_arg11
  have f13_main_arg12 := (keep_L2g _ main_arg12 (by decide)).trans f12_main_arg12
  have f13_main_arg13 := (keep_L2g _ main_arg13 (by decide)).trans f12_main_arg13
  have f14_main_v97 := val_L2h_main_v97 (after sg_L2g (after sg_L2f (after sg_L2e (after sg_L2d (after sg_L2c (after sg_L2b (after sg_L1g (after sg_L1f (after sg_L1e (after sg_L1d (after sg_L1c (after sg_L1b (after sg_L1a (V))))))))))))))
  have f14_main_arg0 := (keep_L2h _ main_arg0 (by decide)).trans f13_main_arg0
  have f14_main_arg1 := (keep_L2h _ main_arg1 (by decide)).trans f13_main_arg1
  have f14_main_arg2 := (keep_L2h _ main_arg2 (by decide)).trans f13_main_arg2
  have f14_main_arg3 := (keep_L2h _ main_arg3 (by decide)).trans f13_main_arg3
  have f14_main_arg4 := (keep_L2h _ main_arg4 (by decide)).trans f13_main_arg4
  have f14_main_arg5 := (keep_L2h _ main_arg5 (by decide)).trans f13_main_arg5
  have f14_main_arg6 := (keep_L2h _ main_arg6 (by decide)).trans f13_main_arg6
  have f14_main_arg7 := (keep_L2h _ main_arg7 (by decide)).trans f13_main_arg7
  have f14_main_arg8 := (keep_L2h _ main_arg8 (by decide)).trans f13_main_arg8
  have f14_main_arg9 := (keep_L2h _ main_arg9 (by decide)).trans f13_main_arg9
  have f14_main_arg10 := (keep_L2h _ main_arg10 (by decide)).trans f13_main_arg10
  have f14_main_arg11 := (keep_L2h _ main_arg11 (by decide)).trans f13_main_arg11
  have f14_main_arg12 := (keep_L2h _ main_arg12 (by decide)).trans f13_main_arg12
  have f14_main_arg13 := (keep_L2h _ main_arg13 (by decide)).trans f13_main_arg13
  have f14_main_v96 := (keep_L2h _ main_v96 (by decide)).trans f13_main_v96
  have f15_main_v100 := (val_L3b_main_v100 _ f14_main_v97).trans (congrArg Cert.Gcn.ends0 f14_main_arg1)
  have f15_main_v103 := (val_L3b_main_v103 _ f14_main_v97).trans (congrArg Cert.Gcn.ends1 f14_main_arg1)
  have f15_main_arg0 := (keep_L3b _ main_arg0 (by decide)).trans f14_main_arg0
  have f15_main_arg1 := (keep_L3b _ main_arg1 (by decide)).trans f14_main_arg1
  have f15_main_arg2 := (keep_L3b _ main_arg2 (by decide)).trans f14_main_arg2
  have f15_main_arg3 := (keep_L3b _ main_arg3 (by decide)).trans f14_main_arg3
  have f15_main_arg4 := (keep_L3b _ main_arg4 (by decide)).trans f14_main_arg4
  have f15_main_arg5 := (keep_L3b _ main_arg5 (by decide)).trans f14_main_arg5
  have f15_main_arg6 := (keep_L3b _ main_arg6 (by decide)).trans f14_main_arg6
  have f15_main_arg7 := (keep_L3b _ main_arg7 (by decide)).trans f14_main_arg7
  have f15_main_arg8 := (keep_L3b _ main_arg8 (by decide)).trans f14_main_arg8
  have f15_main_arg9 := (keep_L3b _ main_arg9 (by decide)).trans f14_main_arg9
  have f15_main_arg10 := (keep_L3b _ main_arg10 (by decide)).trans f14_main_arg10
  have f15_main_arg11 := (keep_L3b _ main_arg11 (by decide)).trans f14_main_arg11
  have f15_main_arg12 := (keep_L3b _ main_arg12 (by decide)).trans f14_main_arg12
  have f15_main_arg13 := (keep_L3b _ main_arg13 (by decide)).trans f14_main_arg13
  have f15_main_v96 := (keep_L3b _ main_v96 (by decide)).trans f14_main_v96
  have f16_main_v107 := val_L3c_main_v107 _ _ f15_main_v103
  have f16_main_arg0 := (keep_L3c _ main_arg0 (by decide)).trans f15_main_arg0
  have f16_main_arg1 := (keep_L3c _ main_arg1 (by decide)).trans f15_main_arg1
  have f16_main_arg2 := (keep_L3c _ main_arg2 (by decide)).trans f15_main_arg2
  have f16_main_arg3 := (keep_L3c _ main_arg3 (by decide)).trans f15_main_arg3
  have f16_main_arg4 := (keep_L3c _ main_arg4 (by decide)).trans f15_main_arg4
  have f16_main_arg5 := (keep_L3c _ main_arg5 (by decide)).trans f15_main_arg5
  have f16_main_arg6 := (keep_L3c _ main_arg6 (by decide)).trans f15_main_arg6
  have f16_main_arg7 := (keep_L3c _ main_arg7 (by decide)).trans f15_main_arg7
  have f16_main_arg8 := (keep_L3c _ main_arg8 (by decide)).trans f15_main_arg8
  have f16_main_arg9 := (keep_L3c _ main_arg9 (by decide)).trans f15_main_arg9
  have f16_main_arg10 := (keep_L3c _ main_arg10 (by decide)).trans f15_main_arg10
  have f16_main_arg11 := (keep_L3c _ main_arg11 (by decide)).trans f15_main_arg11
  have f16_main_arg12 := (keep_L3c _ main_arg12 (by decide)).trans f15_main_arg12
  have f16_main_arg13 := (keep_L3c _ main_arg13 (by decide)).trans f15_main_arg13
  have f16_main_v96 := (keep_L3c _ main_v96 (by decide)).trans f15_main_v96
  have f16_main_v100 := (keep_L3c _ main_v100 (by decide)).trans f15_main_v100
  have f16_main_v103 := (keep_L3c _ main_v103 (by decide)).trans f15_main_v103
  have f17_main_v111 := val_L3d_main_v111 _ _ f16_main_v107
  have f17_main_arg0 := (keep_L3d _ main_arg0 (by decide)).trans f16_main_arg0
  have f17_main_arg1 := (keep_L3d _ main_arg1 (by decide)).trans f16_main_arg1
  have f17_main_arg2 := (keep_L3d _ main_arg2 (by decide)).trans f16_main_arg2
  have f17_main_arg3 := (keep_L3d _ main_arg3 (by decide)).trans f16_main_arg3
  have f17_main_arg4 := (keep_L3d _ main_arg4 (by decide)).trans f16_main_arg4
  have f17_main_arg5 := (keep_L3d _ main_arg5 (by decide)).trans f16_main_arg5
  have f17_main_arg6 := (keep_L3d _ main_arg6 (by decide)).trans f16_main_arg6
  have f17_main_arg7 := (keep_L3d _ main_arg7 (by decide)).trans f16_main_arg7
  have f17_main_arg8 := (keep_L3d _ main_arg8 (by decide)).trans f16_main_arg8
  have f17_main_arg9 := (keep_L3d _ main_arg9 (by decide)).trans f16_main_arg9
  have f17_main_arg10 := (keep_L3d _ main_arg10 (by decide)).trans f16_main_arg10
  have f17_main_arg11 := (keep_L3d _ main_arg11 (by decide)).trans f16_main_arg11
  have f17_main_arg12 := (keep_L3d _ main_arg12 (by decide)).trans f16_main_arg12
  have f17_main_arg13 := (keep_L3d _ main_arg13 (by decide)).trans f16_main_arg13
  have f17_main_v96 := (keep_L3d _ main_v96 (by decide)).trans f16_main_v96
  have f17_main_v100 := (keep_L3d _ main_v100 (by decide)).trans f16_main_v100
  have f17_main_v103 := (keep_L3d _ main_v103 (by decide)).trans f16_main_v103
  have f18_main_v126 := val_L3e_main_v126 _ _ f17_main_v100 f17_main_v103 f17_main_v111
  have f18_main_arg0 := (keep_L3e _ main_arg0 (by decide)).trans f17_main_arg0
  have f18_main_arg1 := (keep_L3e _ main_arg1 (by decide)).trans f17_main_arg1
  have f18_main_arg2 := (keep_L3e _ main_arg2 (by decide)).trans f17_main_arg2
  have f18_main_arg3 := (keep_L3e _ main_arg3 (by decide)).trans f17_main_arg3
  have f18_main_arg4 := (keep_L3e _ main_arg4 (by decide)).trans f17_main_arg4
  have f18_main_arg5 := (keep_L3e _ main_arg5 (by decide)).trans f17_main_arg5
  have f18_main_arg6 := (keep_L3e _ main_arg6 (by decide)).trans f17_main_arg6
  have f18_main_arg7 := (keep_L3e _ main_arg7 (by decide)).trans f17_main_arg7
  have f18_main_arg8 := (keep_L3e _ main_arg8 (by decide)).trans f17_main_arg8
  have f18_main_arg9 := (keep_L3e _ main_arg9 (by decide)).trans f17_main_arg9
  have f18_main_arg10 := (keep_L3e _ main_arg10 (by decide)).trans f17_main_arg10
  have f18_main_arg11 := (keep_L3e _ main_arg11 (by decide)).trans f17_main_arg11
  have f18_main_arg12 := (keep_L3e _ main_arg12 (by decide)).trans f17_main_arg12
  have f18_main_arg13 := (keep_L3e _ main_arg13 (by decide)).trans f17_main_arg13
  have f18_main_v96 := (keep_L3e _ main_v96 (by decide)).trans f17_main_v96
  have f18_main_v100 := (keep_L3e _ main_v100 (by decide)).trans f17_main_v100
  have f18_main_v103 := (keep_L3e _ main_v103 (by decide)).trans f17_main_v103
  have f19_main_v139 := val_L3f_main_v139 _ _ _ f18_main_v126 f18_main_v100 f18_main_v103 f18_main_v96
  have f19_main_arg0 := (keep_L3f _ main_arg0 (by decide)).trans f18_main_arg0
  have f19_main_arg1 := (keep_L3f _ main_arg1 (by decide)).trans f18_main_arg1
  have f19_main_arg2 := (keep_L3f _ main_arg2 (by decide)).trans f18_main_arg2
  have f19_main_arg3 := (keep_L3f _ main_arg3 (by decide)).trans f18_main_arg3
  have f19_main_arg4 := (keep_L3f _ main_arg4 (by decide)).trans f18_main_arg4
  have f19_main_arg5 := (keep_L3f _ main_arg5 (by decide)).trans f18_main_arg5
  have f19_main_arg6 := (keep_L3f _ main_arg6 (by decide)).trans f18_main_arg6
  have f19_main_arg7 := (keep_L3f _ main_arg7 (by decide)).trans f18_main_arg7
  have f19_main_arg8 := (keep_L3f _ main_arg8 (by decide)).trans f18_main_arg8
  have f19_main_arg9 := (keep_L3f _ main_arg9 (by decide)).trans f18_main_arg9
  have f19_main_arg10 := (keep_L3f _ main_arg10 (by decide)).trans f18_main_arg10
  have f19_main_arg11 := (keep_L3f _ main_arg11 (by decide)).trans f18_main_arg11
  have f19_main_arg12 := (keep_L3f _ main_arg12 (by decide)).trans f18_main_arg12
  have f19_main_arg13 := (keep_L3f _ main_arg13 (by decide)).trans f18_main_arg13
  have f20_main_v146 := val_L3g_main_v146 _ _ _ _ _ f19_main_v139 f19_main_arg7 f19_main_arg8 f19_main_arg9
  have f20_main_arg0 := (keep_L3g _ main_arg0 (by decide)).trans f19_main_arg0
  have f20_main_arg1 := (keep_L3g _ main_arg1 (by decide)).trans f19_main_arg1
  have f20_main_arg2 := (keep_L3g _ main_arg2 (by decide)).trans f19_main_arg2
  have f20_main_arg3 := (keep_L3g _ main_arg3 (by decide)).trans f19_main_arg3
  have f20_main_arg4 := (keep_L3g _ main_arg4 (by decide)).trans f19_main_arg4
  have f20_main_arg5 := (keep_L3g _ main_arg5 (by decide)).trans f19_main_arg5
  have f20_main_arg6 := (keep_L3g _ main_arg6 (by decide)).trans f19_main_arg6
  have f20_main_arg7 := (keep_L3g _ main_arg7 (by decide)).trans f19_main_arg7
  have f20_main_arg8 := (keep_L3g _ main_arg8 (by decide)).trans f19_main_arg8
  have f20_main_arg9 := (keep_L3g _ main_arg9 (by decide)).trans f19_main_arg9
  have f20_main_arg10 := (keep_L3g _ main_arg10 (by decide)).trans f19_main_arg10
  have f20_main_arg11 := (keep_L3g _ main_arg11 (by decide)).trans f19_main_arg11
  have f20_main_arg12 := (keep_L3g _ main_arg12 (by decide)).trans f19_main_arg12
  have f20_main_arg13 := (keep_L3g _ main_arg13 (by decide)).trans f19_main_arg13
  have f21_main_v147 := val_HA_main_v147 _ _ f20_main_v146
  have f21_main_arg0 := (keep_HA _ main_arg0 (by decide)).trans f20_main_arg0
  have f21_main_arg1 := (keep_HA _ main_arg1 (by decide)).trans f20_main_arg1
  have f21_main_arg2 := (keep_HA _ main_arg2 (by decide)).trans f20_main_arg2
  have f21_main_arg3 := (keep_HA _ main_arg3 (by decide)).trans f20_main_arg3
  have f21_main_arg4 := (keep_HA _ main_arg4 (by decide)).trans f20_main_arg4
  have f21_main_arg5 := (keep_HA _ main_arg5 (by decide)).trans f20_main_arg5
  have f21_main_arg6 := (keep_HA _ main_arg6 (by decide)).trans f20_main_arg6
  have f21_main_arg7 := (keep_HA _ main_arg7 (by decide)).trans f20_main_arg7
  have f21_main_arg8 := (keep_HA _ main_arg8 (by decide)).trans f20_main_arg8
  have f21_main_arg9 := (keep_HA _ main_arg9 (by decide)).trans f20_main_arg9
  have f21_main_arg10 := (keep_HA _ main_arg10 (by decide)).trans f20_main_arg10
  have f21_main_arg11 := (keep_HA _ main_arg11 (by decide)).trans f20_main_arg11
  have f21_main_arg12 := (keep_HA _ main_arg12 (by decide)).trans f20_main_arg12
  have f21_main_arg13 := (keep_HA _ main_arg13 (by decide)).trans f20_main_arg13
  have f22_main_v151 := val_HB_main_v151 _ _ _ _ f21_main_v147 f21_main_arg10 f21_main_arg11
  have f22_main_arg0 := (keep_HB _ main_arg0 (by decide)).trans f21_main_arg0
  have f22_main_arg1 := (keep_HB _ main_arg1 (by decide)).trans f21_main_arg1
  have f22_main_arg2 := (keep_HB _ main_arg2 (by decide)).trans f21_main_arg2
  have f22_main_arg3 := (keep_HB _ main_arg3 (by decide)).trans f21_main_arg3
  have f22_main_arg4 := (keep_HB _ main_arg4 (by decide)).trans f21_main_arg4
  have f22_main_arg5 := (keep_HB _ main_arg5 (by decide)).trans f21_main_arg5
  have f22_main_arg6 := (keep_HB _ main_arg6 (by decide)).trans f21_main_arg6
  have f22_main_arg7 := (keep_HB _ main_arg7 (by decide)).trans f21_main_arg7
  have f22_main_arg8 := (keep_HB _ main_arg8 (by decide)).trans f21_main_arg8
  have f22_main_arg9 := (keep_HB _ main_arg9 (by decide)).trans f21_main_arg9
  have f22_main_arg10 := (keep_HB _ main_arg10 (by decide)).trans f21_main_arg10
  have f22_main_arg11 := (keep_HB _ main_arg11 (by decide)).trans f21_main_arg11
  have f22_main_arg12 := (keep_HB _ main_arg12 (by decide)).trans f21_main_arg12
  have f22_main_arg13 := (keep_HB _ main_arg13 (by decide)).trans f21_main_arg13
  have f23_main_v152 := val_HC_main_v152 _ _ f22_main_v151
  have f23_main_arg0 := (keep_HC _ main_arg0 (by decide)).trans f22_main_arg0
  have f23_main_arg1 := (keep_HC _ main_arg1 (by decide)).trans f22_main_arg1
  have f23_main_arg2 := (keep_HC _ main_arg2 (by decide)).trans f22_main_arg2
  have f23_main_arg3 := (keep_HC _ main_arg3 (by decide)).trans f22_main_arg3
  have f23_main_arg4 := (keep_HC _ main_arg4 (by decide)).trans f22_main_arg4
  have f23_main_arg5 := (keep_HC _ main_arg5 (by decide)).trans f22_main_arg5
  have f23_main_arg6 := (keep_HC _ main_arg6 (by decide)).trans f22_main_arg6
  have f23_main_arg7 := (keep_HC _ main_arg7 (by decide)).trans f22_main_arg7
  have f23_main_arg8 := (keep_HC _ main_arg8 (by decide)).trans f22_main_arg8
  have f23_main_arg9 := (keep_HC _ main_arg9 (by decide)).trans f22_main_arg9
  have f23_main_arg10 := (keep_HC _ main_arg10 (by decide)).trans f22_main_arg10
  have f23_main_arg11 := (keep_HC _ main_arg11 (by decide)).trans f22_main_arg11
  have f23_main_arg12 := (keep_HC _ main_arg12 (by decide)).trans f22_main_arg12
  have f23_main_arg13 := (keep_HC _ main_arg13 (by decide)).trans f22_main_arg13
  have f24_main_v156 := val_HD_main_v156 _ _ _ _ f23_main_v152 f23_main_arg12 f23_main_arg13
  have f24_main_arg0 := (keep_HD _ main_arg0 (by decide)).trans f23_main_arg0
  have f24_main_arg1 := (keep_HD _ main_arg1 (by decide)).trans f23_main_arg1
  have f24_main_arg2 := (keep_HD _ main_arg2 (by decide)).trans f23_main_arg2
  have f24_main_arg3 := (keep_HD _ main_arg3 (by decide)).trans f23_main_arg3
  have f24_main_arg4 := (keep_HD _ main_arg4 (by decide)).trans f23_main_arg4
  have f24_main_arg5 := (keep_HD _ main_arg5 (by decide)).trans f23_main_arg5
  have f24_main_arg6 := (keep_HD _ main_arg6 (by decide)).trans f23_main_arg6
  have f24_main_arg7 := (keep_HD _ main_arg7 (by decide)).trans f23_main_arg7
  have f24_main_arg8 := (keep_HD _ main_arg8 (by decide)).trans f23_main_arg8
  have f24_main_arg9 := (keep_HD _ main_arg9 (by decide)).trans f23_main_arg9
  have f24_main_arg10 := (keep_HD _ main_arg10 (by decide)).trans f23_main_arg10
  have f24_main_arg11 := (keep_HD _ main_arg11 (by decide)).trans f23_main_arg11
  have f24_main_arg12 := (keep_HD _ main_arg12 (by decide)).trans f23_main_arg12
  have f24_main_arg13 := (keep_HD _ main_arg13 (by decide)).trans f23_main_arg13
  have f25_main_v157 := val_HE_main_v157 _ _ f24_main_v156
  have f25_main_arg0 := (keep_HE _ main_arg0 (by decide)).trans f24_main_arg0
  have f25_main_arg1 := (keep_HE _ main_arg1 (by decide)).trans f24_main_arg1
  have f25_main_arg2 := (keep_HE _ main_arg2 (by decide)).trans f24_main_arg2
  have f25_main_arg3 := (keep_HE _ main_arg3 (by decide)).trans f24_main_arg3
  have f25_main_arg4 := (keep_HE _ main_arg4 (by decide)).trans f24_main_arg4
  have f25_main_arg5 := (keep_HE _ main_arg5 (by decide)).trans f24_main_arg5
  have f25_main_arg6 := (keep_HE _ main_arg6 (by decide)).trans f24_main_arg6
  have f25_main_arg7 := (keep_HE _ main_arg7 (by decide)).trans f24_main_arg7
  have f25_main_arg8 := (keep_HE _ main_arg8 (by decide)).trans f24_main_arg8
  have f25_main_arg9 := (keep_HE _ main_arg9 (by decide)).trans f24_main_arg9
  have f25_main_arg10 := (keep_HE _ main_arg10 (by decide)).trans f24_main_arg10
  have f25_main_arg11 := (keep_HE _ main_arg11 (by decide)).trans f24_main_arg11
  have f25_main_arg12 := (keep_HE _ main_arg12 (by decide)).trans f24_main_arg12
  have f25_main_arg13 := (keep_HE _ main_arg13 (by decide)).trans f24_main_arg13
  exact ⟨f25_main_v157, f25_main_arg0, f25_main_arg1, f25_main_arg2, f25_main_arg3, f25_main_arg4, f25_main_arg5, f25_main_arg6, f25_main_arg7, f25_main_arg8, f25_main_arg9, f25_main_arg10, f25_main_arg11, f25_main_arg12, f25_main_arg13⟩

/-- On every device, from any memory with zero counters: every weakly fair execution of @main terminates with the
    result at the network of the arguments' launch contents and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v157) = Cert.Gcn.net (Cert.Gcn.aggR (m ((c.tc : Thread nD τ).loc main_arg1))) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => by
      have e := ops_eq (launchContents m c)
      exact ⟨(h c main_v157).trans e.1, (h c main_arg0).trans e.2.1, (h c main_arg1).trans e.2.2.1, (h c main_arg2).trans e.2.2.2.1, (h c main_arg3).trans e.2.2.2.2.1, (h c main_arg4).trans e.2.2.2.2.2.1, (h c main_arg5).trans e.2.2.2.2.2.2.1, (h c main_arg6).trans e.2.2.2.2.2.2.2.1, (h c main_arg7).trans e.2.2.2.2.2.2.2.2.1, (h c main_arg8).trans e.2.2.2.2.2.2.2.2.2.1, (h c main_arg9).trans e.2.2.2.2.2.2.2.2.2.2.1, (h c main_arg10).trans e.2.2.2.2.2.2.2.2.2.2.2.1, (h c main_arg11).trans e.2.2.2.2.2.2.2.2.2.2.2.2.1, (h c main_arg12).trans e.2.2.2.2.2.2.2.2.2.2.2.2.2.1, (h c main_arg13).trans e.2.2.2.2.2.2.2.2.2.2.2.2.2.2⟩)
    (run_seq scopedRefs_eq scopedSems_eq defs main (fun _ => ops) main_eq (fun _ => ops_sub) m ρ)

end Cert.ReferenceIdeal.HandRun

end
-- ==== Proof.lean ====
/-
  Equivalence, over the extended reals, of a graph-convolution network computed by four row-blocked kernels with
  host-side aggregation, and its plain reference.

  Both programs compute  log_softmax(MLP(agg(relu(agg(relu(agg(x·W1) + b1)·W2) + b2)·W3) + b3)),  where agg sums, into
  every node's row, the rows of its in-neighbours (self loop included) weighted by deg^(-1/2) of both endpoints.
  The aggregation is the same chain of host operations in both programs, except that one multiplies the gathered
  rows by the weights and the other the weights by the gathered rows: the product of extended reals commutes, which
  needs no finiteness.  The dense steps differ in shape only: the kernel program computes them 5000 rows at a time
  (a matrix product into a zero accumulator, a bias row broadcast down the block, a row-wise maximum and sum for the
  log-softmax) and the reference on whole arrays; entry by entry both are the same sums, maxima and pointwise
  functions, a change of float format being the identity.  So the kernel program's result (the fold of its ten
  segments, read back to its arguments) and the reference's (its operations composed) are one function of the
  arguments.  The three frames: the two kernel programs' are the generated ones; the reference has no kernel, and
  its frame is its run with the result dropped.  Nothing was rewritten between the kernel and its idealization.
-/
import proofs.«139937_j4234837753913_1_alg».proof.Defs
import proofs.«139937_j4234837753913_1_alg».proof.Proof.Gen.Kernel
import proofs.«139937_j4234837753913_1_alg».proof.Proof.Gen.Kernel.Frame
import proofs.«139937_j4234837753913_1_alg».proof.Proof.Gen.KernelIdeal
import proofs.«139937_j4234837753913_1_alg».proof.Proof.Gen.KernelIdeal.Frame
import proofs.«139937_j4234837753913_1_alg».proof.Proof.Gen.ReferenceIdeal
import proofs.«139937_j4234837753913_1_alg».proof.Proof.Gen.Pre_finite_inputs
import proofs.«139937_j4234837753913_1_alg».proof.Proof.Spec
import proofs.«139937_j4234837753913_1_alg».proof.Proof.KernelRun
import proofs.«139937_j4234837753913_1_alg».proof.Proof.KernelValue
import proofs.«139937_j4234837753913_1_alg».proof.Proof.RefRun

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.HandRun.run m ρ)

/-- The ideal pass rewrote no operation. -/
theorem preserves : Cert.preserves_Kernel_KernelIdeal := trivial

/-- Both results are the network of the arguments; the two orders of the aggregation's product agree. -/
theorem algebraic : Cert.algebraic_KernelIdeal_ReferenceIdeal := by
  intro m ρ m' ρ' _ hagree
  refine ⟨fun c => Cert.Gcn.net (Cert.Gcn.aggR (m ((c.tc : Thread Cert.KernelIdeal.nD Cert.KernelIdeal.τ).loc Cert.KernelIdeal.main_arg1)))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · refine (θ_run Cert.KernelIdeal.defs _ _).mono (fun r h c => ⟨(h c).1.trans ?_, (h c).2⟩)
      (Cert.KernelIdeal.GcnValue.run_out (F := Ideal) m ρ)
    refine (Cert.KernelIdeal.GcnValue.out_eq m ρ c).trans ?_
    exact congrArg (fun f => Cert.Gcn.net f
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))) (funext (Cert.Gcn.aggL_eq_aggR _))
  · refine (θ_run Cert.ReferenceIdeal.defs _ _).mono (fun r h c => ⟨(h c).1.trans ?_, (h c).2⟩)
      (Cert.ReferenceIdeal.HandRun.run m' ρ')
    obtain ⟨h0, h1, h2, h3, h4, h5, h6, h7, h8, h9, h10, h11, h12, h13⟩ := hagree c
    rw [h0, h1, h2, h3, h4, h5, h6, h7, h8, h9, h10, h11, h12, h13]

end Cert.Proof

theorem Cert.Proof.claim : Cert.Claim :=
  ⟨Cert.Kernel.Gen.facts, Cert.KernelIdeal.Gen.facts, Cert.ReferenceIdeal.Gen.facts, Cert.Pre_finite_inputs.Gen.facts,
    Cert.Proof.frame_k, Cert.Proof.frame_ki, Cert.Proof.frame_ri, Cert.Proof.preserves, Cert.Proof.algebraic⟩

end
